-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1x2048 : Shape := ⟨3, ![8, 1, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1x2048 : S_.BroadcastsInDim S8x1x2048 (![] : Fin 0 → Fin S8x1x2048.rank)
  reducesTo_S8x1x2048_S_d0_1_2 : S8x1x2048.ReducesTo [0, 1, 2] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1 .f32 := Host.absf main_arg5
  let main_cst_8 : FVec F S_ .f32 := constant S_ .f32 0x7F800000#32
  let main_v25 : FVec F S1024x1 .f32 := broadcastInDim S1024x1 ![] bcast_S_S1024x1 main_cst_8
  let main_v26 : IVec S1024x1 1 := cmpf .olt main_v24 main_v25
  let main_c_9 : IVec S_ 1 := constantI S_ 1 1#1
  let main_v27 : IVec S_ 1 := (fun x v => Host.reduce IntOp.andi x v reducesTo_S1024x1_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S8x1x2048 .f32) (main_arg2 : FVec F S1x2048x1024 .f32) (main_arg3 : FVec F S1024x1024 .f32) (main_arg4 : FVec F S1024 .f32) (main_arg5 : FVec F S1024x1 .f32) (main_arg6 : FVec F S1024 .f32) (main_arg7 : FVec F S1024x1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1x2048 .f32 := Host.absf main_arg1
  let main_cst_0 : FVec F S_ .f32 := constant S_ .f32 0x7F800000#32
  let main_v5 : FVec F S8x1x2048 .f32 := broadcastInDim S8x1x2048 ![] bcast_S_S8x1x2048 main_cst_0
  let main_v6 : IVec S8x1x2048 1 := cmpf .olt main_v4 main_v5
  let main_c_1 : IVec S_ 1 := constantI S_ 1 1#1
  let main_v7 : IVec S_ 1 := (fun x v => Host.reduce IntOp.andi x v reducesTo_S8x1x2048_S_d0_1_2 h_S_) main_v6 main_c_1
  let main_v8 : IVec S_ 1 := andi main_v3 main_v7
  let main_v9 : FVec F S1x2048x1024 .f32 := Host.absf main_arg2
  let main_cst_2 : FVec F S_ .f32 := constant S_ .f32 0x7F800000#32
  let main_v10 : FVec F S1x2048x1024 .f32 := broadcastInDim S1x2048x1024 ![] bcast_S_S1x2048x1024 main_cst_2
  let main_v11 : IVec S1x2048x1024 1 := cmpf .olt main_v9 main_v10
  let main_c_3 : IVec S_ 1 := constantI S_ 1 1#1
  let main_v12 : IVec S_ 1 := (fun x v => Host.reduce IntOp.andi x v reducesTo_S1x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S8x1x2048 : Shape := ⟨3, ![8, 1, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S8x2048x1 : Shape := ⟨3, ![8, 2048, 1]⟩
abbrev S1x512x1024 : Shape := ⟨3, ![1, 512, 1024]⟩
abbrev S1x512x1 : Shape := ⟨3, ![1, 512, 1]⟩
abbrev S512x1024 : Shape := ⟨2, ![512, 1024]⟩
abbrev S512x1 : Shape := ⟨2, ![512, 1]⟩
abbrev S8x2048x2048 : Shape := ⟨3, ![8, 2048, 2048]⟩
abbrev S8x1x1024 : Shape := ⟨3, ![8, 1, 1024]⟩
abbrev S1x256x1024 : Shape := ⟨3, ![1, 256, 1024]⟩
abbrev S1x256x2048 : Shape := ⟨3, ![1, 256, 2048]⟩
abbrev S1x1x1024 : Shape := ⟨3, ![1, 1, 1024]⟩
abbrev S256x1024 : Shape := ⟨2, ![256, 1024]⟩
abbrev S2048x1024 : Shape := ⟨2, ![2048, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S8x1024 : Shape := ⟨2, ![8, 1024]⟩

abbrev nBuf : Space → Nat
  | .hbm => 25
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S8x1x2048, .f32⟩
  | .hbm, ⟨2, _⟩ => ⟨S1x2048x1024, .f32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S8x2048x1, .f32⟩
  | .hbm, ⟨19, _⟩ => ⟨S8x2048x1024, .bf16⟩
  | .hbm, ⟨20, _⟩ => ⟨S8x2048x1024, .bf16⟩
  | .hbm, ⟨21, _⟩ => ⟨S8x2048x1024, .bf16⟩
  | .hbm, ⟨22, _⟩ => ⟨S8x2048x2048, .f32⟩
  | .hbm, ⟨23, _⟩ => ⟨S8x1x1024, .f32⟩
  | .hbm, ⟨24, _⟩ => ⟨S8x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1, .f32⟩
  | .local _ .vmem, ⟨5, _⟩ => ⟨S1x512x1, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1x256x2048, .f32⟩
  | .local _ .vmem, ⟨25, _⟩ => ⟨S1x256x2048, .f32⟩
  | .local _ .vmem, ⟨26, _⟩ => ⟨S1x1x1024, .f32⟩
  | .local _ .vmem, ⟨27, _⟩ => ⟨S1x1x1024, .f32⟩
  | .local _ .vmem, ⟨28, _⟩ => ⟨S1x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_21 : BitVec 32 := 0#32
  let v36 : BitVec 1 := Scalar.cmpi .ne v35 c0_i32_21
  v36

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S1024x1_S1024 : S1024x1.ShapeCasts S1024
  transposes_S8x1x2048_S8x2048x1_0_2_1 : S8x1x2048.Transposes [0, 2, 1] S8x2048x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1024 : S512x1.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  reduces_S256x1024_S1024 : S256x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S8x1x1024_S8x1024 : S8x1x1024.ShapeCasts S8x1024
  dot_S512x1024_S1024x1024_S512x1024_1_0_0_1_n_n_wf : DotDims.WF S512x1024 S1024x1024 S512x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S1x2048x1024.size a
  hwx0_1 : ∀ i : grid0.Coords, EltTy.bits .f32 = 32 ∨ (Rect.block (s := S1x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x2048x1.size a
  hwx0_2 : ∀ i : grid0.Coords, EltTy.bits .f32 = 32 ∨ (Rect.block (s := S8x2048x1) S1x512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S8x2048x1024.size a
  hwx0_9 : ∀ i : grid0.Coords, EltTy.bits .bf16 = 32 ∨ (Rect.block (s := S8x2048x1024) S1x512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x1024.size a ≤ S8x2048x1024.size a
  hwx0_10 : ∀ i : grid0.Coords, EltTy.bits .bf16 = 32 ∨ (Rect.block (s := S8x2048x1024) S1x512x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x1024.size a ≤ S8x2048x1024.size a
  hwx0_11 : ∀ i : grid0.Coords, EltTy.bits .bf16 = 32 ∨ (Rect.block (s := S8x2048x1024) S1x512x1024.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .bf16 = 32 ∨ (Rect.block (s := S8x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S8x2048x2048.size a
  hwx1_3 : ∀ i : grid1.Coords, EltTy.bits .f32 = 32 ∨ (Rect.block (s := S8x2048x2048) S1x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024.size a ≤ S8x1x1024.size a
  hwx1_4 : ∀ i : grid1.Coords, EltTy.bits .f32 = 32 ∨ (Rect.block (s := S8x1x1024) S1x1x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S1x512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S1x512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_2) S1x512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v10_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11_0) S1x256x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11_1) S1x1x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1x2048 : Shape := ⟨3, ![8, 1, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S1x1x1024 : Shape := ⟨3, ![1, 1, 1024]⟩
abbrev S8x2048x1 : Shape := ⟨3, ![8, 2048, 1]⟩
abbrev S8x2048x2048 : Shape := ⟨3, ![8, 2048, 2048]⟩
abbrev S_ : Shape := ⟨0, ![]⟩
abbrev S8x2048 : Shape := ⟨2, ![8, 2048]⟩
abbrev S8x1024 : Shape := ⟨2, ![8, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x2048, .f32⟩
  | .hbm, ⟨2, _⟩ => ⟨S1x2048x1024, .f32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1, .f32⟩
  | .hbm, ⟨16, _⟩ => ⟨S1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x2048, .f32⟩
  | .hbm, ⟨29, _⟩ => ⟨S_, .f32⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S8x2048x1024, .f32⟩
  | .hbm, ⟨48, _⟩ => ⟨S_, .f32⟩
  | .hbm, ⟨49, _⟩ => ⟨S8x1024, .f32⟩
  | .hbm, ⟨50, _⟩ => ⟨S_, .f32⟩
  | .hbm, ⟨51, _⟩ => ⟨S8x1024, .f32⟩
  | .hbm, ⟨52, _⟩ => ⟨S8x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  bcast_S1x2048x1024_S8x2048x1024_0_1_2 : S1x2048x1024.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  transposes_S8x1x2048_S8x2048x1_0_2_1 : S8x1x2048.Transposes [0, 2, 1] S8x2048x1
  shapeCasts_S1024x1_S1024 : S1024x1.ShapeCasts S1024
  bcast_S8x2048x1_S8x2048x1024_0_1_2 : S8x2048x1.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x1024_S8x1024_d1 : S8x2048x1024.ReducesTo [1] S8x1024
  bcast_S_S8x1024 : S_.BroadcastsInDim S8x1024 (![] : Fin 0 → Fin S8x1024.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.Region0.lean ====
/- The projection stage, for an arbitrary contents of the core's buffers at its start and for any float arithmetic.
   Its grid has 8 × 4 points; point (b, j) works on rows 512·j … 512·j + 511 of batch b. At a point the body reads nine
   blocks whole — the input rows x, the positional rows pos, the column of per-row scalars s, the two weight matrices
   Wq, Wv with their bias rows bq, bv, and the key weight row wk with its bias row bk — and writes three blocks whole,
   once each: q = bf16(bf16(x + pos) · Wq + bq), k = bf16(s ⊗ wk + bk), v = bf16(bf16(x + pos) · Wv + bv).
   Stated here: each window's block at a point, the three written blocks as functions of the nine read ones, the body's
   triple, and the invariant data under which the pipeline's rule applies to this body. -/
import proofs.«108366_j369367187664_2_alg».proof.Proof.Gen.Kernel.Launch
import proofs.«108366_j369367187664_2_alg».proof.Proof.Gen.Kernel.Skeleton
import proofs.«108366_j369367187664_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks have up to 1024 coordinates on an axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the stage begins: every statement below is about an arbitrary such contents
variable (V : (c : Dev nD) → (b : Ref sig .tc) → Buf (Elt F) ((c : Thread nD τ).loc b))

/-! ## The windows' blocks -/

/-- The block of window `w` that grid point `t` works on, cut out of the window's array as it stands when the stage begins. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for ANY proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for ANY proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for ANY proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for ANY proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the
    block index has not moved), for ANY proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (unfetched, the
    block index has not moved), for ANY proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (unfetched, the
    block index has not moved), for ANY proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (unfetched, the
    block index has not moved), for ANY proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (unfetched, the
    block index has not moved), for ANY proof data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

abbrev r0_0 : Rect S1x512x1024 := Rect.unit (s := S1x512x1024) ![0, 0, 0] S1x512x1024.size inb_S1x512x1024_S1x512x1024_0_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S1x512x1 := Rect.unit (s := S1x512x1) ![0, 0, 0] S1x512x1.size inb_S1x512x1_S1x512x1_0_0_0

/-! ## What the body leaves in each output window's buffer -/

/-- Window 9 (q) after the body, from the blocks of x, pos, Wq, bq: its one store as a piece. -/
def out0_9 (x0 : Vec F S1x512x1024 .f32) (x1 : Vec F S1x512x1024 .f32) (x3 : Vec F S1024x1024 .bf16) (x4 : Vec F S1x1024 .f32) : Vec F S1x512x1024 .bf16 :=
  View.canon [⟨r0_0, k0_pay1 (k0_pay7 (View.ld x0 r0_0) (View.ld x1 r0_0) (View.ld x3 r0_1) (View.ld x4 r0_2))⟩]

/-- Window 10 (k) after the body, from the blocks of the row scale and the two row vectors: its one store as a piece. -/
def out0_10 (x2 : Vec F S1x512x1 .f32) (x7 : Vec F S1x1024 .f32) (x8 : Vec F S1x1024 .f32) : Vec F S1x512x1024 .bf16 :=
  View.canon [⟨r0_0, k0_pay2 (k0_pay6 (View.ld x2 r0_3) (View.ld x7 r0_2) (View.ld x8 r0_2))⟩]

/-- Window 11 (v) after the body, from the blocks of x, pos, Wv, bv: its one store as a piece. -/
def out0_11 (x0 : Vec F S1x512x1024 .f32) (x1 : Vec F S1x512x1024 .f32) (x5 : Vec F S1024x1024 .bf16) (x6 : Vec F S1x1024 .f32) : Vec F S1x512x1024 .bf16 :=
  View.canon [⟨r0_0, k0_pay3 (k0_pay5 (View.ld x0 r0_0) (View.ld x1 r0_0) (View.ld x5 r0_1) (View.ld x6 r0_2))⟩]

/-- One whole-buffer store tiles the buffer (one block, of the buffer's own extents), so it covers it. -/
theorem cover0_out (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-! ## The body's triple -/

set_option maxHeartbeats 4000000 in
/-- The kernel body on whole staging memrefs, the inputs' at read contents `xW` and the outputs' at anything, runs to
    the continuation holding the inputs' as they were and each output's at `out0_W` of the inputs': the loads read the
    inputs' contents, the three loads of the outputs' buffers read values nothing uses, and each output buffer is
    stored once, whole. -/
theorem sound_kernel0 (c : Dev nD) (E : Set ℕ) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x1024 .bf16) (harg13 : arg13.IsWhole)
    (x0 : Vec F S1x512x1024 .f32) (x1 : Vec F S1x512x1024 .f32) (x2 : Vec F S1x512x1 .f32) (x3 : Vec F S1024x1024 .bf16) (x4 : Vec F S1x1024 .f32) (x5 : Vec F S1024x1024 .bf16) (x6 : Vec F S1x1024 .f32) (x7 : Vec F S1x1024 .f32) (x8 : Vec F S1x1024 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (out0_9 x0 x1 x3 x4)
            ∗ owns (c : Thread nD τ) arg12 fullShare (out0_10 x2 x7 x8)
            ∗ owns (c : Thread nD τ) arg13 fullShare (out0_11 x0 x1 x5 x6)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_out _)
  isplitl [H10]
  · iexists _; isplitr
    swap; · iexact H10
    ipureintro
    exact View.read_writes_eq_canon _ _ _ (cover0_out _)
  iexists _; isplitr
  swap; · iexact H11
  ipureintro
  exact View.read_writes_eq_canon _ _ _ (cover0_out _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 3 t) (iblk0 V c 4 t)
    | ⟨10, _⟩ => out0_10 (iblk0 V c 2 t) (iblk0 V c 7 t) (iblk0 V c 8 t)
    | ⟨11, _⟩ => out0_11 (iblk0 V c 0 t) (iblk0 V c 1 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 3 t) (iblk0 V c 4 t) := by dsimp only [dat0]
theorem after0_10 (c : Dev nD) (t : Fin cfg0.N) : (dat0 V c).after 10 t = out0_10 (iblk0 V c 2 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The obligation the pipeline's rule asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Runs1.lean ====
/-
  Region 1 (the attention kernel, grid 8 × 8: batch b, query tile qi of 256 rows): what its three control cases share.
  The body branches twice on the tile coordinate: at qi = 0 it zeroes the accumulator scratch, at qi = 7 it scales the
  accumulator into the context block. So every point is in one of three cases:
    A (qi = 0): zero, then accumulate;   B (0 < qi < 7): accumulate;   C (qi = 7): accumulate, then write the context block.
  The attention block (window 3) is stored at every point; the context block (window 4) only in case C, and it is idle
  (neither stored nor written back) elsewhere. The scratch is carried from one tile to the next within a batch.
-/
import proofs.«108366_j369367187664_2_alg».proof.Proof.Gen.Kernel.Launch
import proofs.«108366_j369367187664_2_alg».proof.Proof.Gen.Kernel.Skeleton
import proofs.«108366_j369367187664_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The batch's keys: fetched at the batch's first tile only, the block index unmoved in between. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The batch's values, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, decided over the grid -/

/-- "This is the batch's first query tile" (qi = 0), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the batch's last query tile" (qi = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the batch's last tile the context block is neither stored nor written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At the batch's last tile it is stored. -/
theorem liveAt1_4_C : ∀ t : Fin cfg1.N, ¬cond1_0 (grid1.coords t) → cond1_1 (grid1.coords t) → cfg1.idle 4 (grid1.coords t) = false := by decide +kernel

/-! ## The staging memrefs the body is called with, and the scratch -/

/-- One staging buffer of each output window, through which its contents are stated. -/
abbrev VO1_3 : View sig .tc .vmem S1x256x2048 .f32 := (Memref.whole cc1_stg3_0 : Memref sig .tc .vmem S1x256x2048 .f32).view
abbrev VO1_4 : View sig .tc .vmem S1x1x1024 .f32 := (Memref.whole cc1_stg4_0 : Memref sig .tc .vmem S1x1x1024 .f32).view
abbrev ms1_0 (t : Fin cfg1.N) : Memref sig .tc .vmem S1x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S1x1024 .f32 := Memref.whole cc1_scratch0
abbrev VS1_0 : View sig .tc .vmem S1x1024 .f32 := scM1_0.view

end Cert.Kernel.Fr

end
-- ==== Proof.K.Run1A.lean ====
/-
  Region 1, case A (the batch's first query tile): the body zeroes the accumulator, computes the tile's attention rows
  (scores against every key, row-wise softmax), stores them, and adds the tile's column sums of attn·v to the accumulator.
  The context block is not touched. What the body leaves in each buffer is found as a list of stored pieces.
-/
import proofs.«108366_j369367187664_2_alg».proof.Proof.K.Runs1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A's stored pieces (attention block, context block: none, accumulator), with the body's triple on whole staging
    memrefs: inputs at their contents and handed back; the attention buffer at anything; the context buffer at `xi4`, handed
    back untouched; the accumulator at anything (it is zeroed first). -/
noncomputable def kernelRun1_A (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) :
    Σ' (L3 : List (View.Piece (Elt F) S1x256x2048 .f32)) (L4 : List (View.Piece (Elt F) S1x1x1024 .f32)), { LS0 : List (View.Piece (Elt F) S1x1024 .f32) //
      ∀ (xi4 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, [], ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.Kernel.Fr

end
-- ==== Proof.K.Run1B.lean ====
/-
  Region 1, case B (a middle query tile of a batch): as case A without the zeroing — the accumulator enters at what the
  tile before left (`xs0`) and leaves with this tile's column sums of attn·v added.
-/
import proofs.«108366_j369367187664_2_alg».proof.Proof.K.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) :
    Σ' (L3 : List (View.Piece (Elt F) S1x256x2048 .f32)) (L4 : List (View.Piece (Elt F) S1x1x1024 .f32)), { LS0 : List (View.Piece (Elt F) S1x1024 .f32) //
      ∀ (xi4 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, [], ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.Kernel.Fr

end
-- ==== Proof.K.Run1C.lean ====
/-
  Region 1, case C (the batch's last query tile): as case B, and then the accumulator, scaled by 1/2048, is stored as the
  batch's context block (the mean over the 2048 query rows).
-/
import proofs.«108366_j369367187664_2_alg».proof.Proof.K.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) :
    Σ' (L3 : List (View.Piece (Elt F) S1x256x2048 .f32)) (L4 : List (View.Piece (Elt F) S1x1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Fr

end
-- ==== Proof.K.Region1.lean ====
/-
  Region 1 (the attention kernel) as proof data for the pipeline: what each case leaves in the attention block, the context
  block and the accumulator; the same point by point over the 64 grid points (8 batches × 8 query tiles), the accumulator
  carried from tile to tile inside a batch; the invariant that carries it; and the body's obligation at every point.
-/
import proofs.«108366_j369367187664_2_alg».proof.Proof.K.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Case A: the attention block's pieces tile it. -/
theorem cover1_A_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) (y : S1x256x2048.Idx) :
    ∃ pc ∈ (kernelRun1_A c i arg2 harg2 arg3 harg3 arg4 harg4 arg5 harg5 arg6 harg6 arg7 harg7 hc0 hc1 x0 x1 x2).1, y ∈ pc.1.set :=
  View.cover_of_tiledL (kernelRun1_A c i arg2 harg2 arg3 harg3 arg4 harg4 arg5 harg5 arg6 harg6 arg7 harg7 hc0 hc1 x0 x1 x2).1 S1x256x2048.size (by sl_kernel_rfl) y

/-- What case A leaves in the attention block's staging buffer. -/
def out1_A_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) : Vec F S1x256x2048 .f32 :=
  VO1_3.read (Elt F) (VO1_3.writes (Elt F) VO1_3.junk (kernelRun1_A c i arg2 harg2 arg3 harg3 arg4 harg4 arg5 harg5 arg6 harg6 arg7 harg7 hc0 hc1 x0 x1 x2).1)

/-- What case A leaves in the context block's staging buffer (nothing is stored: a placeholder nothing consults, the window being idle and not written back at these points). -/
def out1_A_4 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) : Vec F S1x1x1024 .f32 :=
  VO1_4.read (Elt F) (VO1_4.writes (Elt F) VO1_4.junk (kernelRun1_A c i arg2 harg2 arg3 harg3 arg4 harg4 arg5 harg5 arg6 harg6 arg7 harg7 hc0 hc1 x0 x1 x2).2.1)

/-- Case A: the accumulator's pieces tile it. -/
theorem scover1_A_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) (y : S1x1024.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S1x1024.size (by sl_kernel_rfl) y

/-- What case A leaves in the accumulator. -/
def sout1_A_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) : Vec F S1x1024 .f32 :=
  VS1_0.read (Elt F) (VS1_0.writes (Elt F) VS1_0.junk (kernelRun1_A c i arg2 harg2 arg3 harg3 arg4 harg4 arg5 harg5 arg6 harg6 arg7 harg7 hc0 hc1 x0 x1 x2).2.2.1)

/-- Case B: the attention block's pieces tile it. -/
theorem cover1_B_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) (y : S1x256x2048.Idx) :
    ∃ pc ∈ (kernelRun1_B c i arg2 harg2 arg3 harg3 arg4 harg4 arg5 harg5 arg6 harg6 arg7 harg7 hc0 hc1 x0 x1 x2 xs0).1, y ∈ pc.1.set :=
  View.cover_of_tiledL (kernelRun1_B c i arg2 harg2 arg3 harg3 arg4 harg4 arg5 harg5 arg6 harg6 arg7 harg7 hc0 hc1 x0 x1 x2 xs0).1 S1x256x2048.size (by sl_kernel_rfl) y

/-- What case B leaves in the attention block's staging buffer. -/
def out1_B_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) : Vec F S1x256x2048 .f32 :=
  VO1_3.read (Elt F) (VO1_3.writes (Elt F) VO1_3.junk (kernelRun1_B c i arg2 harg2 arg3 harg3 arg4 harg4 arg5 harg5 arg6 harg6 arg7 harg7 hc0 hc1 x0 x1 x2 xs0).1)

/-- What case B leaves in the context block's staging buffer (nothing is stored: a placeholder nothing consults, the window being idle and not written back at these points). -/
def out1_B_4 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) : Vec F S1x1x1024 .f32 :=
  VO1_4.read (Elt F) (VO1_4.writes (Elt F) VO1_4.junk (kernelRun1_B c i arg2 harg2 arg3 harg3 arg4 harg4 arg5 harg5 arg6 harg6 arg7 harg7 hc0 hc1 x0 x1 x2 xs0).2.1)

/-- Case B: the accumulator's pieces tile it. -/
theorem scover1_B_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) (y : S1x1024.Idx) :
    ∃ pc ∈ (kernelRun1_B c i arg2 harg2 arg3 harg3 arg4 harg4 arg5 harg5 arg6 harg6 arg7 harg7 hc0 hc1 x0 x1 x2 xs0).2.2.1, y ∈ pc.1.set :=
  View.cover_of_tiledL (kernelRun1_B c i arg2 harg2 arg3 harg3 arg4 harg4 arg5 harg5 arg6 harg6 arg7 harg7 hc0 hc1 x0 x1 x2 xs0).2.2.1 S1x1024.size (by sl_kernel_rfl) y

/-- What case B leaves in the accumulator. -/
def sout1_B_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) : Vec F S1x1024 .f32 :=
  VS1_0.read (Elt F) (VS1_0.writes (Elt F) VS1_0.junk (kernelRun1_B c i arg2 harg2 arg3 harg3 arg4 harg4 arg5 harg5 arg6 harg6 arg7 harg7 hc0 hc1 x0 x1 x2 xs0).2.2.1)

/-- Case C: the attention block's pieces tile it. -/
theorem cover1_C_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) (y : S1x256x2048.Idx) :
    ∃ pc ∈ (kernelRun1_C c i arg2 harg2 arg3 harg3 arg4 harg4 arg5 harg5 arg6 harg6 arg7 harg7 hc0 hc1 x0 x1 x2 xs0).1, y ∈ pc.1.set :=
  View.cover_of_tiledL (kernelRun1_C c i arg2 harg2 arg3 harg3 arg4 harg4 arg5 harg5 arg6 harg6 arg7 harg7 hc0 hc1 x0 x1 x2 xs0).1 S1x256x2048.size (by sl_kernel_rfl) y

/-- What case C leaves in the attention block's staging buffer. -/
def out1_C_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) : Vec F S1x256x2048 .f32 :=
  VO1_3.read (Elt F) (VO1_3.writes (Elt F) VO1_3.junk (kernelRun1_C c i arg2 harg2 arg3 harg3 arg4 harg4 arg5 harg5 arg6 harg6 arg7 harg7 hc0 hc1 x0 x1 x2 xs0).1)

/-- Case C: the context block's pieces tile it. -/
theorem cover1_C_4 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) (y : S1x1x1024.Idx) :
    ∃ pc ∈ (kernelRun1_C c i arg2 harg2 arg3 harg3 arg4 harg4 arg5 harg5 arg6 harg6 arg7 harg7 hc0 hc1 x0 x1 x2 xs0).2.1, y ∈ pc.1.set :=
  View.cover_of_tiledL (kernelRun1_C c i arg2 harg2 arg3 harg3 arg4 harg4 arg5 harg5 arg6 harg6 arg7 harg7 hc0 hc1 x0 x1 x2 xs0).2.1 S1x1x1024.size (by sl_kernel_rfl) y

/-- What case C leaves in the context block's staging buffer. -/
def out1_C_4 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) : Vec F S1x1x1024 .f32 :=
  VO1_4.read (Elt F) (VO1_4.writes (Elt F) VO1_4.junk (kernelRun1_C c i arg2 harg2 arg3 harg3 arg4 harg4 arg5 harg5 arg6 harg6 arg7 harg7 hc0 hc1 x0 x1 x2 xs0).2.1)

/-- Case C: the accumulator's pieces tile it. -/
theorem scover1_C_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) (y : S1x1024.Idx) :
    ∃ pc ∈ (kernelRun1_C c i arg2 harg2 arg3 harg3 arg4 harg4 arg5 harg5 arg6 harg6 arg7 harg7 hc0 hc1 x0 x1 x2 xs0).2.2.1, y ∈ pc.1.set :=
  View.cover_of_tiledL (kernelRun1_C c i arg2 harg2 arg3 harg3 arg4 harg4 arg5 harg5 arg6 harg6 arg7 harg7 hc0 hc1 x0 x1 x2 xs0).2.2.1 S1x1024.size (by sl_kernel_rfl) y

/-- What case C leaves in the accumulator. -/
def sout1_C_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) : Vec F S1x1024 .f32 :=
  VS1_0.read (Elt F) (VS1_0.writes (Elt F) VS1_0.junk (kernelRun1_C c i arg2 harg2 arg3 harg3 arg4 harg4 arg5 harg5 arg6 harg6 arg7 harg7 hc0 hc1 x0 x1 x2 xs0).2.2.1)

/-! ## What the outputs and the accumulator hold after each point -/

/-- What the attention block's buffer, the context block's buffer and the accumulator hold after the body at position `n`:
    the case the position is in (its tile coordinate is `n % 8`), run on the point's blocks, the accumulator entering at
    what the position before left. -/
def outsAt1 (c : Dev nD) : (n : ℕ) → n < cfg1.N → Vec F S1x256x2048 .f32 × Vec F S1x1x1024 .f32 × Vec F S1x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- The scoped buffers that are neither a staging buffer of this region nor the accumulator (the other region's staging
    buffers), at some contents each: they ride along unopened. -/
abbrev others1 (c : Dev nD) : sProp 𝕄 :=
  Pipeline.scopedRestBut (Ix := Unit) (Name := ℕ) (U := UR sig nD τ) (Lvl := ℕ) (Val := Elt F) spec1 c [cc1_scratch0]

/-- The class's invariant with the accumulator split out and owned as a memref. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [bigSepL_singleton, scM1_0, owns_whole]; try rfl

/-- Before position `n`: at the first point the class's invariant (the accumulator at anything); afterwards the accumulator at
    what the point before left, the other scoped buffers and the generator register at some contents. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ others1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.2) ∗ others1 c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.2) ∗ others1 c) ∗ (∃ r, prngReg c r)) := by
  cases n with
  | zero => exact absurd rfl hz
  | succ n => rfl

/-! ## The pipeline's proof data -/

/-- Region 1's proof data on core `c`: the arrays as the region finds them; after the body at point `t` each input's buffer at
    its block, the outputs' at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The inputs' memrefs hold their blocks; the tile coordinate says which case the point is in; the
    invariant hands the body the accumulator at what the point before left (at anything at the very first point) and takes it
    back at this point's contents; away from a batch's last tile the context block's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold out1_A_3 sout1_A_0; (try dsimp only)
      by_cases hz : t.val = 0
      ·
        rw [PhiS_castSucc V c t, PhiS_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t))
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t))
        iexists _; iexact H4
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexists _; iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t))
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t))
        iexists _; iexact H4
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_3 out1_C_4 sout1_C_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) _)
        unfold owns; iexists _; isplitr
        swap; · iexact H4
        ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold out1_B_3 sout1_B_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) _).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) _)
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class's invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Fr

end
-- ==== Proof.K.Main.lean ====
/-
  The whole run of @main: ten host operations (transposes of the two weight matrices, row views of the biases and of the key
  weight, the transposed quality sequence), the projection region, the attention region, and the reshape of the context
  array. The buffer contents at each boundary are a fold from the launch memory; each region's arrays end at what its
  write-backs leave (the proof data's `arrAt` at the last point), every other buffer as the region found it. The run ends with
  every unscoped buffer at the last boundary's contents, which is what both the frame claim (the arguments are untouched) and
  the value claim (the two results) read.
-/
import proofs.«108366_j369367187664_2_alg».proof.Proof.K.Region0
import proofs.«108366_j369367187664_2_alg».proof.Proof.K.Region1
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the ten host operations: the projection region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: q, k, v at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region: the attention array and the context rows at what its write-backs leave. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the closing reshape. -/
abbrev W4 : Dev nD → Valuation τ sig (Elt F) := fun c => StableHlo.after hostOps2 (W3 m c)

/-! ## No item writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment of @main: entered with every unscoped buffer at the contents before it, left with its arrays at what
    its write-backs leave and every other buffer as entered; the generator register passes through the region's invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the contents before it, left with its arrays at what
    its write-backs leave and every other buffer as entered; the generator register passes through the region's invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (V2 m) c).Φ (Fin.last cfg1.N) from rfl]
    have hΦ := hout1 (V2 m) c
    unfold Pipeline.ΦA at hΦ
    iintro H
    ihave H' := hΦ $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and every
    final memory holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ (∃ r, prngReg c r) ∗ ∃ W, owes (c : Thread nD τ) (0 : CellTallies nD τ sig Unit) W)
        ⊢ iprop((StableHlo.held (c : Thread nD τ) (Pipeline.ucRefs τ sig) (W4 m c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_all m ρ)

end Cert.Kernel.Fr

end
-- ==== Proof.KI.Region0.lean ====
/- The projection stage, for an arbitrary contents of the core's buffers at its start and for any float arithmetic.
   Its grid has 8 × 4 points; point (b, j) works on rows 512·j … 512·j + 511 of batch b. At a point the body reads nine
   blocks whole — the input rows x, the positional rows pos, the column of per-row scalars s, the two weight matrices
   Wq, Wv with their bias rows bq, bv, and the key weight row wk with its bias row bk — and writes three blocks whole,
   once each: q = bf16(bf16(x + pos) · Wq + bq), k = bf16(s ⊗ wk + bk), v = bf16(bf16(x + pos) · Wv + bv).
   Stated here: each window's block at a point, the three written blocks as functions of the nine read ones, the body's
   triple, and the invariant data under which the pipeline's rule applies to this body. -/
import proofs.«108366_j369367187664_2_alg».proof.Proof.Gen.KernelIdeal.Launch
import proofs.«108366_j369367187664_2_alg».proof.Proof.Gen.KernelIdeal.Skeleton
import proofs.«108366_j369367187664_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks have up to 1024 coordinates on an axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the stage begins: every statement below is about an arbitrary such contents
variable (V : (c : Dev nD) → (b : Ref sig .tc) → Buf (Elt F) ((c : Thread nD τ).loc b))

/-! ## The windows' blocks -/

/-- The block of window `w` that grid point `t` works on, cut out of the window's array as it stands when the stage begins. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for ANY proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for ANY proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for ANY proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for ANY proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the
    block index has not moved), for ANY proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (unfetched, the
    block index has not moved), for ANY proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (unfetched, the
    block index has not moved), for ANY proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (unfetched, the
    block index has not moved), for ANY proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (unfetched, the
    block index has not moved), for ANY proof data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

abbrev r0_0 : Rect S1x512x1024 := Rect.unit (s := S1x512x1024) ![0, 0, 0] S1x512x1024.size inb_S1x512x1024_S1x512x1024_0_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S1x512x1 := Rect.unit (s := S1x512x1) ![0, 0, 0] S1x512x1.size inb_S1x512x1_S1x512x1_0_0_0

/-! ## What the body leaves in each output window's buffer -/

/-- Window 9 (q) after the body, from the blocks of x, pos, Wq, bq: its one store as a piece. -/
def out0_9 (x0 : Vec F S1x512x1024 .f32) (x1 : Vec F S1x512x1024 .f32) (x3 : Vec F S1024x1024 .bf16) (x4 : Vec F S1x1024 .f32) : Vec F S1x512x1024 .bf16 :=
  View.canon [⟨r0_0, k0_pay1 (k0_pay7 (View.ld x0 r0_0) (View.ld x1 r0_0) (View.ld x3 r0_1) (View.ld x4 r0_2))⟩]

/-- Window 10 (k) after the body, from the blocks of the row scale and the two row vectors: its one store as a piece. -/
def out0_10 (x2 : Vec F S1x512x1 .f32) (x7 : Vec F S1x1024 .f32) (x8 : Vec F S1x1024 .f32) : Vec F S1x512x1024 .bf16 :=
  View.canon [⟨r0_0, k0_pay2 (k0_pay6 (View.ld x2 r0_3) (View.ld x7 r0_2) (View.ld x8 r0_2))⟩]

/-- Window 11 (v) after the body, from the blocks of x, pos, Wv, bv: its one store as a piece. -/
def out0_11 (x0 : Vec F S1x512x1024 .f32) (x1 : Vec F S1x512x1024 .f32) (x5 : Vec F S1024x1024 .bf16) (x6 : Vec F S1x1024 .f32) : Vec F S1x512x1024 .bf16 :=
  View.canon [⟨r0_0, k0_pay3 (k0_pay5 (View.ld x0 r0_0) (View.ld x1 r0_0) (View.ld x5 r0_1) (View.ld x6 r0_2))⟩]

/-- One whole-buffer store tiles the buffer (one block, of the buffer's own extents), so it covers it. -/
theorem cover0_out (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-! ## The body's triple -/

set_option maxHeartbeats 4000000 in
/-- The kernel body on whole staging memrefs, the inputs' at read contents `xW` and the outputs' at anything, runs to
    the continuation holding the inputs' as they were and each output's at `out0_W` of the inputs': the loads read the
    inputs' contents, the three loads of the outputs' buffers read values nothing uses, and each output buffer is
    stored once, whole. -/
theorem sound_kernel0 (c : Dev nD) (E : Set ℕ) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x1024 .bf16) (harg13 : arg13.IsWhole)
    (x0 : Vec F S1x512x1024 .f32) (x1 : Vec F S1x512x1024 .f32) (x2 : Vec F S1x512x1 .f32) (x3 : Vec F S1024x1024 .bf16) (x4 : Vec F S1x1024 .f32) (x5 : Vec F S1024x1024 .bf16) (x6 : Vec F S1x1024 .f32) (x7 : Vec F S1x1024 .f32) (x8 : Vec F S1x1024 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (out0_9 x0 x1 x3 x4)
            ∗ owns (c : Thread nD τ) arg12 fullShare (out0_10 x2 x7 x8)
            ∗ owns (c : Thread nD τ) arg13 fullShare (out0_11 x0 x1 x5 x6)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_out _)
  isplitl [H10]
  · iexists _; isplitr
    swap; · iexact H10
    ipureintro
    exact View.read_writes_eq_canon _ _ _ (cover0_out _)
  iexists _; isplitr
  swap; · iexact H11
  ipureintro
  exact View.read_writes_eq_canon _ _ _ (cover0_out _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 3 t) (iblk0 V c 4 t)
    | ⟨10, _⟩ => out0_10 (iblk0 V c 2 t) (iblk0 V c 7 t) (iblk0 V c 8 t)
    | ⟨11, _⟩ => out0_11 (iblk0 V c 0 t) (iblk0 V c 1 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 3 t) (iblk0 V c 4 t) := by dsimp only [dat0]
theorem after0_10 (c : Dev nD) (t : Fin cfg0.N) : (dat0 V c).after 10 t = out0_10 (iblk0 V c 2 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The obligation the pipeline's rule asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Runs1.lean ====
/-
  Region 1 (the attention kernel, grid 8 × 8: batch b, query tile qi of 256 rows): what its three control cases share.
  The body branches twice on the tile coordinate: at qi = 0 it zeroes the accumulator scratch, at qi = 7 it scales the
  accumulator into the context block. So every point is in one of three cases:
    A (qi = 0): zero, then accumulate;   B (0 < qi < 7): accumulate;   C (qi = 7): accumulate, then write the context block.
  The attention block (window 3) is stored at every point; the context block (window 4) only in case C, and it is idle
  (neither stored nor written back) elsewhere. The scratch is carried from one tile to the next within a batch.
-/
import proofs.«108366_j369367187664_2_alg».proof.Proof.Gen.KernelIdeal.Launch
import proofs.«108366_j369367187664_2_alg».proof.Proof.Gen.KernelIdeal.Skeleton
import proofs.«108366_j369367187664_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The batch's keys: fetched at the batch's first tile only, the block index unmoved in between. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The batch's values, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, decided over the grid -/

/-- "This is the batch's first query tile" (qi = 0), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the batch's last query tile" (qi = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the batch's last tile the context block is neither stored nor written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At the batch's last tile it is stored. -/
theorem liveAt1_4_C : ∀ t : Fin cfg1.N, ¬cond1_0 (grid1.coords t) → cond1_1 (grid1.coords t) → cfg1.idle 4 (grid1.coords t) = false := by decide +kernel

/-! ## The staging memrefs the body is called with, and the scratch -/

/-- One staging buffer of each output window, through which its contents are stated. -/
abbrev VO1_3 : View sig .tc .vmem S1x256x2048 .f32 := (Memref.whole cc1_stg3_0 : Memref sig .tc .vmem S1x256x2048 .f32).view
abbrev VO1_4 : View sig .tc .vmem S1x1x1024 .f32 := (Memref.whole cc1_stg4_0 : Memref sig .tc .vmem S1x1x1024 .f32).view
abbrev ms1_0 (t : Fin cfg1.N) : Memref sig .tc .vmem S1x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S1x1024 .f32 := Memref.whole cc1_scratch0
abbrev VS1_0 : View sig .tc .vmem S1x1024 .f32 := scM1_0.view

end Cert.KernelIdeal.Fr

end
-- ==== Proof.KI.Run1A.lean ====
/-
  Region 1, case A (the batch's first query tile): the body zeroes the accumulator, computes the tile's attention rows
  (scores against every key, row-wise softmax), stores them, and adds the tile's column sums of attn·v to the accumulator.
  The context block is not touched. What the body leaves in each buffer is found as a list of stored pieces.
-/
import proofs.«108366_j369367187664_2_alg».proof.Proof.KI.Runs1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A's stored pieces (attention block, context block: none, accumulator), with the body's triple on whole staging
    memrefs: inputs at their contents and handed back; the attention buffer at anything; the context buffer at `xi4`, handed
    back untouched; the accumulator at anything (it is zeroed first). -/
noncomputable def kernelRun1_A (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) :
    Σ' (L3 : List (View.Piece (Elt F) S1x256x2048 .f32)) (L4 : List (View.Piece (Elt F) S1x1x1024 .f32)), { LS0 : List (View.Piece (Elt F) S1x1024 .f32) //
      ∀ (xi4 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, [], ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.KernelIdeal.Fr

end
-- ==== Proof.KI.Run1B.lean ====
/-
  Region 1, case B (a middle query tile of a batch): as case A without the zeroing — the accumulator enters at what the
  tile before left (`xs0`) and leaves with this tile's column sums of attn·v added.
-/
import proofs.«108366_j369367187664_2_alg».proof.Proof.KI.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) :
    Σ' (L3 : List (View.Piece (Elt F) S1x256x2048 .f32)) (L4 : List (View.Piece (Elt F) S1x1x1024 .f32)), { LS0 : List (View.Piece (Elt F) S1x1024 .f32) //
      ∀ (xi4 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, [], ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.KernelIdeal.Fr

end
-- ==== Proof.KI.Run1C.lean ====
/-
  Region 1, case C (the batch's last query tile): as case B, and then the accumulator, scaled by 1/2048, is stored as the
  batch's context block (the mean over the 2048 query rows).
-/
import proofs.«108366_j369367187664_2_alg».proof.Proof.KI.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) :
    Σ' (L3 : List (View.Piece (Elt F) S1x256x2048 .f32)) (L4 : List (View.Piece (Elt F) S1x1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Fr

end
-- ==== Proof.KI.Region1.lean ====
/-
  Region 1 (the attention kernel) as proof data for the pipeline: what each case leaves in the attention block, the context
  block and the accumulator; the same point by point over the 64 grid points (8 batches × 8 query tiles), the accumulator
  carried from tile to tile inside a batch; the invariant that carries it; and the body's obligation at every point.
-/
import proofs.«108366_j369367187664_2_alg».proof.Proof.KI.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Case A: the attention block's pieces tile it. -/
theorem cover1_A_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) (y : S1x256x2048.Idx) :
    ∃ pc ∈ (kernelRun1_A c i arg2 harg2 arg3 harg3 arg4 harg4 arg5 harg5 arg6 harg6 arg7 harg7 hc0 hc1 x0 x1 x2).1, y ∈ pc.1.set :=
  View.cover_of_tiledL (kernelRun1_A c i arg2 harg2 arg3 harg3 arg4 harg4 arg5 harg5 arg6 harg6 arg7 harg7 hc0 hc1 x0 x1 x2).1 S1x256x2048.size (by sl_kernel_rfl) y

/-- What case A leaves in the attention block's staging buffer. -/
def out1_A_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) : Vec F S1x256x2048 .f32 :=
  VO1_3.read (Elt F) (VO1_3.writes (Elt F) VO1_3.junk (kernelRun1_A c i arg2 harg2 arg3 harg3 arg4 harg4 arg5 harg5 arg6 harg6 arg7 harg7 hc0 hc1 x0 x1 x2).1)

/-- What case A leaves in the context block's staging buffer (nothing is stored: a placeholder nothing consults, the window being idle and not written back at these points). -/
def out1_A_4 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) : Vec F S1x1x1024 .f32 :=
  VO1_4.read (Elt F) (VO1_4.writes (Elt F) VO1_4.junk (kernelRun1_A c i arg2 harg2 arg3 harg3 arg4 harg4 arg5 harg5 arg6 harg6 arg7 harg7 hc0 hc1 x0 x1 x2).2.1)

/-- Case A: the accumulator's pieces tile it. -/
theorem scover1_A_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) (y : S1x1024.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S1x1024.size (by sl_kernel_rfl) y

/-- What case A leaves in the accumulator. -/
def sout1_A_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i)
    (x0 : Vec F S1x256x1024 .bf16) (x1 : Vec F S1x2048x1024 .bf16) (x2 : Vec F S1x2048x1024 .bf16) : Vec F S1x1024 .f32 :=
  VS1_0.read (Elt F) (VS1_0.writes (Elt F) VS1_0.junk (kernelRun1_A c i arg2 harg2 arg3 harg3 arg4 harg4 arg5 harg5 arg6 harg6 arg7 harg7 hc0 hc1 x0 x1 x2).2.2.1)

/-- Case B: the attention block's pieces tile it. -/
theorem cover1_B_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) (y : S1x256x2048.Idx) :
    ∃ pc ∈ (kernelRun1_B c i arg2 harg2 arg3 harg3 arg4 harg4 arg5 harg5 arg6 harg6 arg7 harg7 hc0 hc1 x0 x1 x2 xs0).1, y ∈ pc.1.set :=
  View.cover_of_tiledL (kernelRun1_B c i arg2 harg2 arg3 harg3 arg4 harg4 arg5 harg5 arg6 harg6 arg7 harg7 hc0 hc1 x0 x1 x2 xs0).1 S1x256x2048.size (by sl_kernel_rfl) y

/-- What case B leaves in the attention block's staging buffer. -/
def out1_B_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) : Vec F S1x256x2048 .f32 :=
  VO1_3.read (Elt F) (VO1_3.writes (Elt F) VO1_3.junk (kernelRun1_B c i arg2 harg2 arg3 harg3 arg4 harg4 arg5 harg5 arg6 harg6 arg7 harg7 hc0 hc1 x0 x1 x2 xs0).1)

/-- What case B leaves in the context block's staging buffer (nothing is stored: a placeholder nothing consults, the window being idle and not written back at these points). -/
def out1_B_4 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) : Vec F S1x1x1024 .f32 :=
  VO1_4.read (Elt F) (VO1_4.writes (Elt F) VO1_4.junk (kernelRun1_B c i arg2 harg2 arg3 harg3 arg4 harg4 arg5 harg5 arg6 harg6 arg7 harg7 hc0 hc1 x0 x1 x2 xs0).2.1)

/-- Case B: the accumulator's pieces tile it. -/
theorem scover1_B_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) (y : S1x1024.Idx) :
    ∃ pc ∈ (kernelRun1_B c i arg2 harg2 arg3 harg3 arg4 harg4 arg5 harg5 arg6 harg6 arg7 harg7 hc0 hc1 x0 x1 x2 xs0).2.2.1, y ∈ pc.1.set :=
  View.cover_of_tiledL (kernelRun1_B c i arg2 harg2 arg3 harg3 arg4 harg4 arg5 harg5 arg6 harg6 arg7 harg7 hc0 hc1 x0 x1 x2 xs0).2.2.1 S1x1024.size (by sl_kernel_rfl) y

/-- What case B leaves in the accumulator. -/
def sout1_B_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i)
    (x0 : Vec F S1x256x1024 .bf16) (x1 : Vec F S1x2048x1024 .bf16) (x2 : Vec F S1x2048x1024 .bf16) (xs0 : Vec F S1x1024 .f32) : Vec F S1x1024 .f32 :=
  VS1_0.read (Elt F) (VS1_0.writes (Elt F) VS1_0.junk (kernelRun1_B c i arg2 harg2 arg3 harg3 arg4 harg4 arg5 harg5 arg6 harg6 arg7 harg7 hc0 hc1 x0 x1 x2 xs0).2.2.1)

/-- Case C: the attention block's pieces tile it. -/
theorem cover1_C_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) (y : S1x256x2048.Idx) :
    ∃ pc ∈ (kernelRun1_C c i arg2 harg2 arg3 harg3 arg4 harg4 arg5 harg5 arg6 harg6 arg7 harg7 hc0 hc1 x0 x1 x2 xs0).1, y ∈ pc.1.set :=
  View.cover_of_tiledL (kernelRun1_C c i arg2 harg2 arg3 harg3 arg4 harg4 arg5 harg5 arg6 harg6 arg7 harg7 hc0 hc1 x0 x1 x2 xs0).1 S1x256x2048.size (by sl_kernel_rfl) y

/-- What case C leaves in the attention block's staging buffer. -/
def out1_C_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) : Vec F S1x256x2048 .f32 :=
  VO1_3.read (Elt F) (VO1_3.writes (Elt F) VO1_3.junk (kernelRun1_C c i arg2 harg2 arg3 harg3 arg4 harg4 arg5 harg5 arg6 harg6 arg7 harg7 hc0 hc1 x0 x1 x2 xs0).1)

/-- Case C: the context block's pieces tile it. -/
theorem cover1_C_4 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) (y : S1x1x1024.Idx) :
    ∃ pc ∈ (kernelRun1_C c i arg2 harg2 arg3 harg3 arg4 harg4 arg5 harg5 arg6 harg6 arg7 harg7 hc0 hc1 x0 x1 x2 xs0).2.1, y ∈ pc.1.set :=
  View.cover_of_tiledL (kernelRun1_C c i arg2 harg2 arg3 harg3 arg4 harg4 arg5 harg5 arg6 harg6 arg7 harg7 hc0 hc1 x0 x1 x2 xs0).2.1 S1x1x1024.size (by sl_kernel_rfl) y

/-- What case C leaves in the context block's staging buffer. -/
def out1_C_4 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) : Vec F S1x1x1024 .f32 :=
  VO1_4.read (Elt F) (VO1_4.writes (Elt F) VO1_4.junk (kernelRun1_C c i arg2 harg2 arg3 harg3 arg4 harg4 arg5 harg5 arg6 harg6 arg7 harg7 hc0 hc1 x0 x1 x2 xs0).2.1)

/-- Case C: the accumulator's pieces tile it. -/
theorem scover1_C_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) (y : S1x1024.Idx) :
    ∃ pc ∈ (kernelRun1_C c i arg2 harg2 arg3 harg3 arg4 harg4 arg5 harg5 arg6 harg6 arg7 harg7 hc0 hc1 x0 x1 x2 xs0).2.2.1, y ∈ pc.1.set :=
  View.cover_of_tiledL (kernelRun1_C c i arg2 harg2 arg3 harg3 arg4 harg4 arg5 harg5 arg6 harg6 arg7 harg7 hc0 hc1 x0 x1 x2 xs0).2.2.1 S1x1024.size (by sl_kernel_rfl) y

/-- What case C leaves in the accumulator. -/
def sout1_C_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i)
    (x0 : Vec F S1x256x1024 .bf16) (x1 : Vec F S1x2048x1024 .bf16) (x2 : Vec F S1x2048x1024 .bf16) (xs0 : Vec F S1x1024 .f32) : Vec F S1x1024 .f32 :=
  VS1_0.read (Elt F) (VS1_0.writes (Elt F) VS1_0.junk (kernelRun1_C c i arg2 harg2 arg3 harg3 arg4 harg4 arg5 harg5 arg6 harg6 arg7 harg7 hc0 hc1 x0 x1 x2 xs0).2.2.1)

/-! ## What the outputs and the accumulator hold after each point -/

/-- What the attention block's buffer, the context block's buffer and the accumulator hold after the body at position `n`:
    the case the position is in (its tile coordinate is `n % 8`), run on the point's blocks, the accumulator entering at
    what the position before left. -/
def outsAt1 (c : Dev nD) : (n : ℕ) → n < cfg1.N → Vec F S1x256x2048 .f32 × Vec F S1x1x1024 .f32 × Vec F S1x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- The scoped buffers that are neither a staging buffer of this region nor the accumulator (the other region's staging
    buffers), at some contents each: they ride along unopened. -/
abbrev others1 (c : Dev nD) : sProp 𝕄 :=
  Pipeline.scopedRestBut (Ix := Unit) (Name := ℕ) (U := UR sig nD τ) (Lvl := ℕ) (Val := Elt F) spec1 c [cc1_scratch0]

/-- The class's invariant with the accumulator split out and owned as a memref. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [bigSepL_singleton, scM1_0, owns_whole]; try rfl

/-- Before position `n`: at the first point the class's invariant (the accumulator at anything); afterwards the accumulator at
    what the point before left, the other scoped buffers and the generator register at some contents. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ others1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.2) ∗ others1 c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.2) ∗ others1 c) ∗ (∃ r, prngReg c r)) := by
  cases n with
  | zero => exact absurd rfl hz
  | succ n => rfl

/-! ## The pipeline's proof data -/

/-- Region 1's proof data on core `c`: the arrays as the region finds them; after the body at point `t` each input's buffer at
    its block, the outputs' at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The inputs' memrefs hold their blocks; the tile coordinate says which case the point is in; the
    invariant hands the body the accumulator at what the point before left (at anything at the very first point) and takes it
    back at this point's contents; away from a batch's last tile the context block's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold out1_A_3 sout1_A_0; (try dsimp only)
      by_cases hz : t.val = 0
      ·
        rw [PhiS_castSucc V c t, PhiS_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t))
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t))
        iexists _; iexact H4
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexists _; iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t))
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t))
        iexists _; iexact H4
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_3 out1_C_4 sout1_C_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) _)
        unfold owns; iexists _; isplitr
        swap; · iexact H4
        ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold out1_B_3 sout1_B_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) _).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) _)
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class's invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Fr

end
-- ==== Proof.KI.Main.lean ====
/-
  The whole run of @main: ten host operations (transposes of the two weight matrices, row views of the biases and of the key
  weight, the transposed quality sequence), the projection region, the attention region, and the reshape of the context
  array. The buffer contents at each boundary are a fold from the launch memory; each region's arrays end at what its
  write-backs leave (the proof data's `arrAt` at the last point), every other buffer as the region found it. The run ends with
  every unscoped buffer at the last boundary's contents, which is what both the frame claim (the arguments are untouched) and
  the value claim (the two results) read.
-/
import proofs.«108366_j369367187664_2_alg».proof.Proof.KI.Region0
import proofs.«108366_j369367187664_2_alg».proof.Proof.KI.Region1
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the ten host operations: the projection region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: q, k, v at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region: the attention array and the context rows at what its write-backs leave. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the closing reshape. -/
abbrev W4 : Dev nD → Valuation τ sig (Elt F) := fun c => StableHlo.after hostOps2 (W3 m c)

/-! ## No item writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment of @main: entered with every unscoped buffer at the contents before it, left with its arrays at what
    its write-backs leave and every other buffer as entered; the generator register passes through the region's invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the contents before it, left with its arrays at what
    its write-backs leave and every other buffer as entered; the generator register passes through the region's invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (V2 m) c).Φ (Fin.last cfg1.N) from rfl]
    have hΦ := hout1 (V2 m) c
    unfold Pipeline.ΦA at hΦ
    iintro H
    ihave H' := hΦ $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and every
    final memory holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ (∃ r, prngReg c r) ∗ ∃ W, owes (c : Thread nD τ) (0 : CellTallies nD τ sig Unit) W)
        ⊢ iprop((StableHlo.held (c : Thread nD τ) (Pipeline.ucRefs τ sig) (W4 m c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_all m ρ)

end Cert.KernelIdeal.Fr

end
-- ==== Proof.KI.Tail.lean ====
/-
  What the host operations around the two regions compute, read off the fold of buffer contents: before the projection region
  the transposed weight matrices (in the matmul's operand format), the biases and the key weight as rows, and the quality
  sequence as a column per batch; after the attention region the context rows reshaped from [8, 1, 1024] to [8, 1024], the
  attention array untouched.
-/
import proofs.«108366_j369367187664_2_alg».proof.Proof.KI.Main
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The projection region's operands -/

theorem V1_main_arg0 (c : Dev nD) : V1 m c main_arg0 = m ((c : Thread nD τ).loc main_arg0) := by
  show StableHlo.after hostOps0 (fun b => m (c, b)) (Proc.devRef .tc main_arg0) = _
  after_results <;> rfl
theorem V1_main_arg2 (c : Dev nD) : V1 m c main_arg2 = m ((c : Thread nD τ).loc main_arg2) := by
  show StableHlo.after hostOps0 (fun b => m (c, b)) (Proc.devRef .tc main_arg2) = _
  after_results <;> rfl
/-- The transposed query weight. -/
theorem V1_main_v1 (c : Dev nD) : V1 m c main_v1
    = truncf .bf16 (transpose S1024x1024 [1, 0] (m ((c : Thread nD τ).loc main_arg3)) transposes_S1024x1024_S1024x1024_1_0) bitsLt_bf16_f32 := by
  show StableHlo.after hostOps0 (fun b => m (c, b)) (Proc.devRef .tc main_v1) = _
  after_results <;> rfl
/-- The transposed value weight. -/
theorem V1_main_v3 (c : Dev nD) : V1 m c main_v3
    = truncf .bf16 (transpose S1024x1024 [1, 0] (m ((c : Thread nD τ).loc main_arg7)) transposes_S1024x1024_S1024x1024_1_0) bitsLt_bf16_f32 := by
  show StableHlo.after hostOps0 (fun b => m (c, b)) (Proc.devRef .tc main_v3) = _
  after_results <;> rfl
/-- The query bias as a row. -/
theorem V1_main_v4 (c : Dev nD) : V1 m c main_v4 = shapeCast S1x1024 (m ((c : Thread nD τ).loc main_arg4)) shapeCasts_S1024_S1x1024 := by
  show StableHlo.after hostOps0 (fun b => m (c, b)) (Proc.devRef .tc main_v4) = _
  after_results <;> rfl
/-- The value bias as a row. -/
theorem V1_main_v5 (c : Dev nD) : V1 m c main_v5 = shapeCast S1x1024 (m ((c : Thread nD τ).loc main_arg8)) shapeCasts_S1024_S1x1024 := by
  show StableHlo.after hostOps0 (fun b => m (c, b)) (Proc.devRef .tc main_v5) = _
  after_results <;> rfl
/-- The key weight's one column as a row. -/
theorem V1_main_v7 (c : Dev nD) : V1 m c main_v7
    = shapeCast S1x1024 (shapeCast S1024 (m ((c : Thread nD τ).loc main_arg5)) shapeCasts_S1024x1_S1024) shapeCasts_S1024_S1x1024 := by
  show StableHlo.after hostOps0 (fun b => m (c, b)) (Proc.devRef .tc main_v7) = _
  after_results <;> rfl
/-- The key bias as a row. -/
theorem V1_main_v8 (c : Dev nD) : V1 m c main_v8 = shapeCast S1x1024 (m ((c : Thread nD τ).loc main_arg6)) shapeCasts_S1024_S1x1024 := by
  show StableHlo.after hostOps0 (fun b => m (c, b)) (Proc.devRef .tc main_v8) = _
  after_results <;> rfl
/-- The quality sequence as a column per batch. -/
theorem V1_main_v9 (c : Dev nD) : V1 m c main_v9
    = transpose S8x2048x1 [0, 2, 1] (m ((c : Thread nD τ).loc main_arg1)) transposes_S8x1x2048_S8x2048x1_0_2_1 := by
  show StableHlo.after hostOps0 (fun b => m (c, b)) (Proc.devRef .tc main_v9) = _
  after_results <;> rfl

/-! ## The results -/

/-- The attention array ends at what the attention region's write-backs leave. -/
theorem W4_main_v11_0 (c : Dev nD) : W4 m c (Proc.devRef .tc main_v11_0) = (dat1 (V2 m) c).arrAt 3 cfg1.N := by
  refine Eq.trans ?_ (W3_arr m c 3)
  show StableHlo.after hostOps2 (W3 m c) (Proc.devRef .tc main_v11_0) = _
  after_results <;> rfl

/-- The context result is the context rows reshaped. -/
theorem W4_main_v12 (c : Dev nD) : W4 m c (Proc.devRef .tc main_v12)
    = shapeCast S8x1024 ((dat1 (V2 m) c).arrAt 4 cfg1.N) shapeCasts_S8x1x1024_S8x1024 := by
  rw [← W3_arr m c 4]
  show StableHlo.after hostOps2 (W3 m c) (Proc.devRef .tc main_v12) = _
  after_results <;> rfl

/-- What the attention region finds in q, k, v: what the projection region's write-backs left. -/
theorem V2_main_v10_0 (c : Dev nD) : V2 m c main_v10_0 = (dat0 (V1 m) c).arrAt 9 cfg0.N := W2_arr m c 9
theorem V2_main_v10_1 (c : Dev nD) : V2 m c main_v10_1 = (dat0 (V1 m) c).arrAt 10 cfg0.N := W2_arr m c 10
theorem V2_main_v10_2 (c : Dev nD) : V2 m c main_v10_2 = (dat0 (V1 m) c).arrAt 11 cfg0.N := W2_arr m c 11

end Cert.KernelIdeal.Fr

end
-- ==== Proof.Spec.lean ====
/-
  The mathematics that both programs compute, written once, index by index, on the extended reals
  (B = 8 batches, S = 2048 positions, H = 1024 features).

  Row level (one query row against one batch's keys and values):
    projRow x W b o   = (∑ h, x h · W o h) + b o                    a linear layer applied to one row
    scoreRow q k j    = (∑ h, q h · k j h) · (1/32)                 scaled dot product, 1/32 = 1/√1024
    rowMax s          = max over j of s j, folded from -∞
    expRow s j        = exp (s j - rowMax s)
    softmaxRow s j    = expRow s j / ∑ j', expRow s j'
    outRow a v h      = ∑ j, a j · v j h
  Array level:
    x[b,s,h] = hs[b,s,h] + pos[0,s,h];  q = projRow x Wq bq;  v = projRow x Wv bv;
    k[b,s,h] = sqi[b,0,s] · Wk[h,0] + bk[h];
    attn[b,i,·] = softmaxRow (scoreRow q[b,i,·] k[b,·,·]);
    ctx[b,h] = (∑ i, outRow attn[b,i,·] v[b,·,·] h) · (1/2048).
  The attention and the pooled context are stated as functions of the arrays q, k, v, and then of the nine arguments.
-/
import Idealize.ShloMosaic.PureOps.Ideal
import Idealize.ShloMosaic.Lib.ValueIdx

noncomputable section

namespace Cert.Bridge

open Idealize.ShloMosaic Idealize.ShloMosaic.ValueIdx
open scoped BigOperators

/-- Arrays of extended reals of rank 1, 2, 3 over literal extents. -/
abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

/-! ## One row -/

/-- A linear layer applied to one row of 1024 features: output feature `o` is `(∑ h, x h · W o h) + b o`. -/
def projRow (x : Fin 1024 → EReal) (W : Fin 1024 → Fin 1024 → EReal) (b : Fin 1024 → EReal) (o : Fin 1024) : EReal :=
  (∑ h : Fin 1024, x h * W o h) + b o

/-- The scale of the scores, `1/√1024 = 1/32`. -/
def invSqrtH : EReal := ((1 / 32 : ℝ) : EReal)

/-- The weight of one position in the mean over the 2048 positions. -/
def invS : EReal := ((1 / 2048 : ℝ) : EReal)

/-- The scaled scores of one query row against the 2048 key rows. -/
def scoreRow (q : Fin 1024 → EReal) (k : Fin 2048 → Fin 1024 → EReal) (j : Fin 2048) : EReal :=
  (∑ h : Fin 1024, q h * k j h) * invSqrtH

/-- The maximum of a row of 2048 scores, folded from `-∞`. -/
def rowMax (s : Fin 2048 → EReal) : EReal := (Finset.univ : Finset (Fin 2048)).fold max ⊥ s

/-- The shifted exponential of a row of scores. -/
def expRow (s : Fin 2048 → EReal) (j : Fin 2048) : EReal := Ideal.exp (s j - rowMax s)

/-- The softmax of a row of scores. -/
def softmaxRow (s : Fin 2048 → EReal) (j : Fin 2048) : EReal :=
  Ideal.div (expRow s j) (∑ j' : Fin 2048, expRow s j')

/-- One row of attention weights: the softmax of the scaled scores. -/
def attnRow (q : Fin 1024 → EReal) (k : Fin 2048 → Fin 1024 → EReal) : Fin 2048 → EReal :=
  softmaxRow (scoreRow q k)

/-- A row of weights applied to the 2048 value rows. -/
def outRow (a : Fin 2048 → EReal) (v : Fin 2048 → Fin 1024 → EReal) (h : Fin 1024) : EReal :=
  ∑ j : Fin 2048, a j * v j h

/-! ## The arrays -/

/-- The input with its positional term added. -/
def xAt (hs : Arr3 8 2048 1024) (pos : Arr3 1 2048 1024) (b : Fin 8) (s : Fin 2048) (h : Fin 1024) : EReal :=
  hs (ix3 b s h) + pos (ix3 (0 : Fin 1) s h)

/-- The queries, at coordinates. -/
def qAt (hs : Arr3 8 2048 1024) (pos : Arr3 1 2048 1024) (Wq : Arr2 1024 1024) (bq : Arr1 1024)
    (b : Fin 8) (s : Fin 2048) (o : Fin 1024) : EReal :=
  projRow (xAt hs pos b s) (fun o h => Wq (ix2 o h)) (fun o => bq (ix1 o)) o

/-- The keys, at coordinates: a linear layer of ONE input feature. -/
def kAt (sqi : Arr3 8 1 2048) (Wk : Arr2 1024 1) (bk : Arr1 1024) (b : Fin 8) (s : Fin 2048) (h : Fin 1024) : EReal :=
  sqi (ix3 b (0 : Fin 1) s) * Wk (ix2 h (0 : Fin 1)) + bk (ix1 h)

/-- The values, at coordinates. -/
def vAt (hs : Arr3 8 2048 1024) (pos : Arr3 1 2048 1024) (Wv : Arr2 1024 1024) (bv : Arr1 1024)
    (b : Fin 8) (s : Fin 2048) (o : Fin 1024) : EReal :=
  projRow (xAt hs pos b s) (fun o h => Wv (ix2 o h)) (fun o => bv (ix1 o)) o

/-- The queries as an array. -/
def qOf (hs : Arr3 8 2048 1024) (pos : Arr3 1 2048 1024) (Wq : Arr2 1024 1024) (bq : Arr1 1024) : Arr3 8 2048 1024 :=
  fun i => qAt hs pos Wq bq (i 0) (i 1) (i 2)

/-- The keys as an array. -/
def kOf (sqi : Arr3 8 1 2048) (Wk : Arr2 1024 1) (bk : Arr1 1024) : Arr3 8 2048 1024 :=
  fun i => kAt sqi Wk bk (i 0) (i 1) (i 2)

/-- The values as an array. -/
def vOf (hs : Arr3 8 2048 1024) (pos : Arr3 1 2048 1024) (Wv : Arr2 1024 1024) (bv : Arr1 1024) : Arr3 8 2048 1024 :=
  fun i => vAt hs pos Wv bv (i 0) (i 1) (i 2)

/-- Row `i` of batch `b` of an array [8, 2048, 1024]. -/
def rowOf (a : Arr3 8 2048 1024) (b : Fin 8) (i : Fin 2048) : Fin 1024 → EReal := fun h => a (ix3 b i h)

/-- Batch `b` of an array [8, 2048, 1024], as 2048 rows. -/
def rowsOf (a : Arr3 8 2048 1024) (b : Fin 8) : Fin 2048 → Fin 1024 → EReal := fun j h => a (ix3 b j h)

/-- The attention weights at coordinates, from the arrays of queries and keys. -/
def attnAt (q k : Arr3 8 2048 1024) (b : Fin 8) (i j : Fin 2048) : EReal :=
  attnRow (rowOf q b i) (rowsOf k b) j

/-- The attention weights as an array. -/
def attnOfQK (q k : Arr3 8 2048 1024) : Arr3 8 2048 2048 := fun i => attnAt q k (i 0) (i 1) (i 2)

/-- The attended values of query row `i`. -/
def outAt (q k v : Arr3 8 2048 1024) (b : Fin 8) (i : Fin 2048) (h : Fin 1024) : EReal :=
  outRow (attnRow (rowOf q b i) (rowsOf k b)) (rowsOf v b) h

/-- The pooled context at coordinates: the mean of the attended values over the 2048 query rows. -/
def ctxAt (q k v : Arr3 8 2048 1024) (b : Fin 8) (h : Fin 1024) : EReal :=
  (∑ i : Fin 2048, outAt q k v b i h) * invS

/-- The pooled context as an array. -/
def ctxOfQKV (q k v : Arr3 8 2048 1024) : Arr2 8 1024 := fun i => ctxAt q k v (i 0) (i 1)

/-- The attention weights as a function of the arguments. -/
def attnOf (hs : Arr3 8 2048 1024) (sqi : Arr3 8 1 2048) (pos : Arr3 1 2048 1024) (Wq : Arr2 1024 1024) (bq : Arr1 1024)
    (Wk : Arr2 1024 1) (bk : Arr1 1024) : Arr3 8 2048 2048 :=
  attnOfQK (qOf hs pos Wq bq) (kOf sqi Wk bk)

/-- The pooled context as a function of the arguments. -/
def ctxOf (hs : Arr3 8 2048 1024) (sqi : Arr3 8 1 2048) (pos : Arr3 1 2048 1024) (Wq : Arr2 1024 1024) (bq : Arr1 1024)
    (Wk : Arr2 1024 1) (bk : Arr1 1024) (Wv : Arr2 1024 1024) (bv : Arr1 1024) : Arr2 8 1024 :=
  ctxOfQKV (qOf hs pos Wq bq) (kOf sqi Wk bk) (vOf hs pos Wv bv)

end Cert.Bridge

end
-- ==== Proof.KernelProj.lean ====
/-
  The first tiled program's three results at one element of a 512-row tile, for arbitrary tile contents.
  A tile of queries (and of values) is a linear layer applied row by row to the sum of the input tile and the
  positional tile: the matrix product contracts the 1024 input features against the weights stored
  feature-major (entry [h, o] multiplies input feature h into output feature o), then the bias row is added.
  A tile of keys is the outer product of the tile's column of scalars with the weight row, plus the bias row.
  Changes of float format are the identity on the extended reals, and a product into a zero accumulator is
  the plain sum of products.
-/
import proofs.«108366_j369367187664_2_alg».proof.Proof.Gen.KernelIdeal.Skeleton
import proofs.«108366_j369367187664_2_alg».proof.Proof.Spec
import Idealize.ShloMosaic.Lib.ValueLayout
import Idealize.ShloMosaic.PureOps.Ideal.Laws

noncomputable section

namespace Cert.Bridge

open Idealize.ShloMosaic Idealize.ShloMosaic.ValueIdx Cert.KernelIdeal Cert.KernelIdeal.Gen
open scoped BigOperators

/-! ## The product of a 512-row tile with a 1024 × 1024 matrix, at an element -/

theorem proj_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem proj_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem proj_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem proj_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- Row r of the tile against column o of the matrix: the sum over the 1024 contracted features. -/
theorem proj_matmul_apply (A : FVec Ideal S512x1024 .bf16) (B : FVec Ideal S1024x1024 .bf16) (r : Fin 512) (o : Fin 1024) :
    matmul dot_S512x1024_S1024x1024_S512x1024_1_0_0_1_n_n none A B (constant (F := Ideal) S512x1024 .f32 0x00000000#32) (ix2 r o)
      = ∑ h : Fin 1024, A (ix2 r h) * B (ix2 h o) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r o)
      ((contrEquiv1 dot_S512x1024_S1024x1024_S512x1024_1_0_0_1_n_n 1024 rfl rfl).symm k) = ix2 r k :=
    funext fun a => Fin.ext (by
      match a with
      | ⟨0, _⟩ => exact proj_lhs_0 _ _
      | ⟨1, _⟩ => exact (proj_lhs_1 _ _).trans hk)
  have er : dot_S512x1024_S1024x1024_S512x1024_1_0_0_1_n_n.rhsIdx (ix2 r o)
      ((contrEquiv1 dot_S512x1024_S1024x1024_S512x1024_1_0_0_1_n_n 1024 rfl rfl).symm k) = ix2 k o :=
    funext fun a => Fin.ext (by
      match a with
      | ⟨0, _⟩ => exact (proj_rhs_0 _ _).trans hk
      | ⟨1, _⟩ => exact proj_rhs_1 _ _)
  rw [el, er]

/-! ## The pieces of the tile program -/

/-- The input tile plus the positional tile, at row r and feature h. -/
theorem pay4_apply (v0 v2 : Vec Ideal S1x512x1024 .f32) (r : Fin 512) (h : Fin 1024) :
    k0_pay4 (F := Ideal) v0 v2 (ix2 r h) = v0 (ix3 (0 : Fin 1) r h) + v2 (ix3 (0 : Fin 1) r h) := by
  unfold k0_pay4
  exact congrArg₂ (· + ·) (shapeCast_1ab_ab_apply v0 _ r h) (shapeCast_1ab_ab_apply v2 _ r h)

/-- A bias row broadcast over the 512 rows of a tile. -/
theorem bias_apply (v : Vec Ideal S1x1024 .f32) (r : Fin 512) (o : Fin 1024) :
    broadcastTo S512x1024 (shapeCast S1x1024 v shapeCasts_S1x1024_S1x1024) broadcasts_S1x1024_S512x1024 (ix2 r o)
      = v (ix2 (0 : Fin 1) o) := by
  rw [shapeCast_self]
  exact broadcastTo_1b_ab_apply v _ r o

/-- A tile of queries at row r, output feature o. -/
theorem pay_q_apply (v0 v2 : Vec Ideal S1x512x1024 .f32) (v6 : Vec Ideal S1024x1024 .bf16) (v9 : Vec Ideal S1x1024 .f32)
    (r : Fin 512) (o : Fin 1024) :
    k0_pay1 (F := Ideal) (k0_pay7 v0 v2 v6 v9) (ix3 (0 : Fin 1) r o)
      = projRow (fun h => v0 (ix3 (0 : Fin 1) r h) + v2 (ix3 (0 : Fin 1) r h)) (fun o h => v6 (ix2 h o))
          (fun o => v9 (ix2 (0 : Fin 1) o)) o := by
  unfold k0_pay1
  refine (shapeCast_ab_1ab_apply _ _ (0 : Fin 1) r o).trans ?_
  unfold k0_pay7 projRow
  refine congrArg₂ (· + ·) ?_ (bias_apply v9 r o)
  refine (proj_matmul_apply _ _ r o).trans ?_
  refine Finset.sum_congr rfl fun h _ => ?_
  rw [pay4_apply, shapeCast_self]

/-- A tile of values at row r, output feature o. -/
theorem pay_v_apply (v0 v2 : Vec Ideal S1x512x1024 .f32) (v13 : Vec Ideal S1024x1024 .bf16) (v16 : Vec Ideal S1x1024 .f32)
    (r : Fin 512) (o : Fin 1024) :
    k0_pay3 (F := Ideal) (k0_pay5 v0 v2 v13 v16) (ix3 (0 : Fin 1) r o)
      = projRow (fun h => v0 (ix3 (0 : Fin 1) r h) + v2 (ix3 (0 : Fin 1) r h)) (fun o h => v13 (ix2 h o))
          (fun o => v16 (ix2 (0 : Fin 1) o)) o := by
  unfold k0_pay3
  refine (shapeCast_ab_1ab_apply _ _ (0 : Fin 1) r o).trans ?_
  unfold k0_pay5 projRow
  refine congrArg₂ (· + ·) ?_ (bias_apply v16 r o)
  refine (proj_matmul_apply _ _ r o).trans ?_
  refine Finset.sum_congr rfl fun h _ => ?_
  rw [pay4_apply, shapeCast_self]

/-- A column of 512 scalars broadcast over the 1024 features of a tile. -/
theorem column_apply (v : Vec Ideal S1x512x1 .f32) (r : Fin 512) (h : Fin 1024) :
    broadcastTo S512x1024 (shapeCast S512x1 v shapeCasts_S1x512x1_S512x1) broadcasts_S512x1_S512x1024 (ix2 r h)
      = v (ix3 (0 : Fin 1) r (0 : Fin 1)) := by
  refine (broadcastTo_apply _ broadcasts_S512x1_S512x1024 (ix2 r h) (ix2 r (0 : Fin 1)) fun ax => ?_).trans
    (shapeCast_1ab_ab_apply v _ r (0 : Fin 1))
  match ax with
  | ⟨0, _⟩ => show r.val = if (512 : Nat) = 1 then 0 else r.val; rw [if_neg (by decide)]
  | ⟨1, _⟩ => show 0 = if (1 : Nat) = 1 then 0 else h.val; rw [if_pos rfl]

/-- A tile of keys at row r, feature h. -/
theorem pay_k_apply (v20 : Vec Ideal S1x512x1 .f32) (v22 v27 : Vec Ideal S1x1024 .f32) (r : Fin 512) (h : Fin 1024) :
    k0_pay2 (F := Ideal) (k0_pay6 v20 v22 v27) (ix3 (0 : Fin 1) r h)
      = v20 (ix3 (0 : Fin 1) r (0 : Fin 1)) * v22 (ix2 (0 : Fin 1) h) + v27 (ix2 (0 : Fin 1) h) := by
  unfold k0_pay2
  refine (shapeCast_ab_1ab_apply _ _ (0 : Fin 1) r h).trans ?_
  unfold k0_pay6
  exact congrArg₂ (· + ·) (congrArg₂ (· * ·) (column_apply v20 r h) (bias_apply v22 r h)) (bias_apply v27 r h)

end Cert.Bridge

end
-- ==== Proof.KI.Value0.lean ====
/- The values the projection region leaves: after its thirty-two grid points the three result arrays hold, index by
   index, the queries, keys and values of the specification — a linear layer applied row by row to the input plus its
   positional term (queries, values), and the outer product of the per-position scalar with the weight column plus
   the bias (keys). Point t = 4·b + j of the grid handles batch b and rows 512·j … 512·j + 511; the weights and bias rows
   are whole arrays read at every point, and the positional array has one batch. -/
import proofs.«108366_j369367187664_2_alg».proof.Proof.KI.Region0
import proofs.«108366_j369367187664_2_alg».proof.Proof.Spec
import proofs.«108366_j369367187664_2_alg».proof.Proof.KernelProj
import Idealize.ShloMosaic.Lib.Pipeline.Value

set_option maxRecDepth 16384

noncomputable section

namespace Cert.KernelIdeal.Fr

open Cert.KernelIdeal Cert.KernelIdeal.Gen Cert.Bridge
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The block indices over the grid -/

/-- Point t = 4·b + j reads and writes block (b, j, 0) of the per-batch arrays, block (0, j, 0) of the positional array,
    and the one block of each weight and bias array. -/
theorem index_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = 0 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val / 4 ∧ win0_9.index t (1 : Fin 3) = t.val % 4 ∧ win0_9.index t (2 : Fin 3) = 0)
    ∧ (win0_10.index t (0 : Fin 3) = t.val / 4 ∧ win0_10.index t (1 : Fin 3) = t.val % 4 ∧ win0_10.index t (2 : Fin 3) = 0)
    ∧ (win0_11.index t (0 : Fin 3) = t.val / 4 ∧ win0_11.index t (1 : Fin 3) = t.val % 4 ∧ win0_11.index t (2 : Fin 3) = 0) :=
  (by decide +kernel : ∀ t : Fin grid0.N, _)

/-- The same, window by window. -/
theorem idx_w0 (t : Fin cfg0.N) : win0_0.index t (0 : Fin 3) = t.val / 4 ∧ win0_0.index t (1 : Fin 3) = t.val % 4 ∧ win0_0.index t (2 : Fin 3) = 0 := (index_facts t).1
theorem idx_w1 (t : Fin cfg0.N) : win0_1.index t (0 : Fin 3) = 0 ∧ win0_1.index t (1 : Fin 3) = t.val % 4 ∧ win0_1.index t (2 : Fin 3) = 0 := (index_facts t).2.1
theorem idx_w2 (t : Fin cfg0.N) : win0_2.index t (0 : Fin 3) = t.val / 4 ∧ win0_2.index t (1 : Fin 3) = t.val % 4 ∧ win0_2.index t (2 : Fin 3) = 0 := (index_facts t).2.2.1
theorem idx_w3 (t : Fin cfg0.N) : win0_3.index t (0 : Fin 2) = 0 ∧ win0_3.index t (1 : Fin 2) = 0 := (index_facts t).2.2.2.1
theorem idx_w4 (t : Fin cfg0.N) : win0_4.index t (0 : Fin 2) = 0 ∧ win0_4.index t (1 : Fin 2) = 0 := (index_facts t).2.2.2.2.1
theorem idx_w5 (t : Fin cfg0.N) : win0_5.index t (0 : Fin 2) = 0 ∧ win0_5.index t (1 : Fin 2) = 0 := (index_facts t).2.2.2.2.2.1
theorem idx_w6 (t : Fin cfg0.N) : win0_6.index t (0 : Fin 2) = 0 ∧ win0_6.index t (1 : Fin 2) = 0 := (index_facts t).2.2.2.2.2.2.1
theorem idx_w7 (t : Fin cfg0.N) : win0_7.index t (0 : Fin 2) = 0 ∧ win0_7.index t (1 : Fin 2) = 0 := (index_facts t).2.2.2.2.2.2.2.1
theorem idx_w8 (t : Fin cfg0.N) : win0_8.index t (0 : Fin 2) = 0 ∧ win0_8.index t (1 : Fin 2) = 0 := (index_facts t).2.2.2.2.2.2.2.2.1
theorem idx_w9 (t : Fin cfg0.N) : win0_9.index t (0 : Fin 3) = t.val / 4 ∧ win0_9.index t (1 : Fin 3) = t.val % 4 ∧ win0_9.index t (2 : Fin 3) = 0 := (index_facts t).2.2.2.2.2.2.2.2.2.1
theorem idx_w10 (t : Fin cfg0.N) : win0_10.index t (0 : Fin 3) = t.val / 4 ∧ win0_10.index t (1 : Fin 3) = t.val % 4 ∧ win0_10.index t (2 : Fin 3) = 0 := (index_facts t).2.2.2.2.2.2.2.2.2.2.1
theorem idx_w11 (t : Fin cfg0.N) : win0_11.index t (0 : Fin 3) = t.val / 4 ∧ win0_11.index t (1 : Fin 3) = t.val % 4 ∧ win0_11.index t (2 : Fin 3) = 0 := (index_facts t).2.2.2.2.2.2.2.2.2.2.2

/-! ## The input blocks, read at coordinates -/

/-- Row r of the input block at point t is row 512·(t mod 4) + r of batch t / 4. -/
theorem blk_hs (c : Dev nD) (t : Fin cfg0.N) (r : Fin 512) (h : Fin 1024) (b : Fin 8) (s : Fin 2048)
    (hb : b.val = t.val / 4) (hs : s.val = (t.val % 4) * 512 + r.val) :
    (iblk0 V c 0 t : Vec Ideal S1x512x1024 .f32) (ix3 (0 : Fin 1) r h) = (V c main_arg0 : S8x2048x1024.Idx → EReal) (ix3 b s h) := by
  obtain ⟨e0, e1, e2⟩ := idx_w0 t
  show V c main_arg0 (((cfg0.win 0).blk t).view.emb (ix3 (0 : Fin 1) r h)) = V c main_arg0 (ix3 b s h)
  refine congrArg _ ?_
  funext a; apply Fin.ext
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 1024 + 1 * h.val = h.val; omega

/-- Row r of the positional block at point t is row 512·(t mod 4) + r of the one positional batch. -/
theorem blk_pos (c : Dev nD) (t : Fin cfg0.N) (r : Fin 512) (h : Fin 1024) (s : Fin 2048)
    (hs : s.val = (t.val % 4) * 512 + r.val) :
    (iblk0 V c 1 t : Vec Ideal S1x512x1024 .f32) (ix3 (0 : Fin 1) r h) = (V c main_arg2 : S1x2048x1024.Idx → EReal) (ix3 (0 : Fin 1) s h) := by
  obtain ⟨e0, e1, e2⟩ := idx_w1 t
  show V c main_arg2 (((cfg0.win 1).blk t).view.emb (ix3 (0 : Fin 1) r h)) = V c main_arg2 (ix3 (0 : Fin 1) s h)
  refine congrArg _ ?_
  funext a; apply Fin.ext
  match a with
  | ⟨0, _⟩ => show win0_1.index t (0 : Fin 3) * 1 + 1 * 0 = 0; omega
  | ⟨1, _⟩ => show win0_1.index t (1 : Fin 3) * 512 + 1 * r.val = s.val; omega
  | ⟨2, _⟩ => show win0_1.index t (2 : Fin 3) * 1024 + 1 * h.val = h.val; omega

/-- Entry r of the block of per-position scalars at point t is position 512·(t mod 4) + r of batch t / 4. -/
theorem blk_sqi (c : Dev nD) (t : Fin cfg0.N) (r : Fin 512) (b : Fin 8) (s : Fin 2048)
    (hb : b.val = t.val / 4) (hs : s.val = (t.val % 4) * 512 + r.val) :
    (iblk0 V c 2 t : Vec Ideal S1x512x1 .f32) (ix3 (0 : Fin 1) r (0 : Fin 1)) = (V c main_v9 : S8x2048x1.Idx → EReal) (ix3 b s (0 : Fin 1)) := by
  obtain ⟨e0, e1, e2⟩ := idx_w2 t
  show V c main_v9 (((cfg0.win 2).blk t).view.emb (ix3 (0 : Fin 1) r (0 : Fin 1))) = V c main_v9 (ix3 b s (0 : Fin 1))
  refine congrArg _ ?_
  funext a; apply Fin.ext
  match a with
  | ⟨0, _⟩ => show win0_2.index t (0 : Fin 3) * 1 + 1 * 0 = b.val; omega
  | ⟨1, _⟩ => show win0_2.index t (1 : Fin 3) * 512 + 1 * r.val = s.val; omega
  | ⟨2, _⟩ => show win0_2.index t (2 : Fin 3) * 1 + 1 * 0 = 0; omega

/-- The query weights' block is the whole array, at every point. -/
theorem blk_Wq (c : Dev nD) (t : Fin cfg0.N) (p : Fin 1024) (q : Fin 1024) :
    (iblk0 V c 3 t : Vec Ideal S1024x1024 .bf16) (ix2 p q) = (V c main_v1 : S1024x1024.Idx → EReal) (ix2 p q) := by
  obtain ⟨e0, e1⟩ := idx_w3 t
  show V c main_v1 (((cfg0.win 3).blk t).view.emb (ix2 p q)) = V c main_v1 (ix2 p q)
  refine congrArg _ ?_
  funext a; apply Fin.ext
  match a with
  | ⟨0, _⟩ => show win0_3.index t (0 : Fin 2) * 1024 + 1 * p.val = p.val; omega
  | ⟨1, _⟩ => show win0_3.index t (1 : Fin 2) * 1024 + 1 * q.val = q.val; omega

/-- The query bias' block is the whole row, at every point. -/
theorem blk_bq (c : Dev nD) (t : Fin cfg0.N) (p : Fin 1) (q : Fin 1024) :
    (iblk0 V c 4 t : Vec Ideal S1x1024 .f32) (ix2 p q) = (V c main_v4 : S1x1024.Idx → EReal) (ix2 p q) := by
  obtain ⟨e0, e1⟩ := idx_w4 t
  show V c main_v4 (((cfg0.win 4).blk t).view.emb (ix2 p q)) = V c main_v4 (ix2 p q)
  refine congrArg _ ?_
  funext a; apply Fin.ext
  match a with
  | ⟨0, _⟩ => show win0_4.index t (0 : Fin 2) * 1 + 1 * p.val = p.val; omega
  | ⟨1, _⟩ => show win0_4.index t (1 : Fin 2) * 1024 + 1 * q.val = q.val; omega

/-- The value weights' block is the whole array, at every point. -/
theorem blk_Wv (c : Dev nD) (t : Fin cfg0.N) (p : Fin 1024) (q : Fin 1024) :
    (iblk0 V c 5 t : Vec Ideal S1024x1024 .bf16) (ix2 p q) = (V c main_v3 : S1024x1024.Idx → EReal) (ix2 p q) := by
  obtain ⟨e0, e1⟩ := idx_w5 t
  show V c main_v3 (((cfg0.win 5).blk t).view.emb (ix2 p q)) = V c main_v3 (ix2 p q)
  refine congrArg _ ?_
  funext a; apply Fin.ext
  match a with
  | ⟨0, _⟩ => show win0_5.index t (0 : Fin 2) * 1024 + 1 * p.val = p.val; omega
  | ⟨1, _⟩ => show win0_5.index t (1 : Fin 2) * 1024 + 1 * q.val = q.val; omega

/-- The value bias' block is the whole row, at every point. -/
theorem blk_bv (c : Dev nD) (t : Fin cfg0.N) (p : Fin 1) (q : Fin 1024) :
    (iblk0 V c 6 t : Vec Ideal S1x1024 .f32) (ix2 p q) = (V c main_v5 : S1x1024.Idx → EReal) (ix2 p q) := by
  obtain ⟨e0, e1⟩ := idx_w6 t
  show V c main_v5 (((cfg0.win 6).blk t).view.emb (ix2 p q)) = V c main_v5 (ix2 p q)
  refine congrArg _ ?_
  funext a; apply Fin.ext
  match a with
  | ⟨0, _⟩ => show win0_6.index t (0 : Fin 2) * 1 + 1 * p.val = p.val; omega
  | ⟨1, _⟩ => show win0_6.index t (1 : Fin 2) * 1024 + 1 * q.val = q.val; omega

/-- The key weights' block is the whole row, at every point. -/
theorem blk_Wk (c : Dev nD) (t : Fin cfg0.N) (p : Fin 1) (q : Fin 1024) :
    (iblk0 V c 7 t : Vec Ideal S1x1024 .f32) (ix2 p q) = (V c main_v7 : S1x1024.Idx → EReal) (ix2 p q) := by
  obtain ⟨e0, e1⟩ := idx_w7 t
  show V c main_v7 (((cfg0.win 7).blk t).view.emb (ix2 p q)) = V c main_v7 (ix2 p q)
  refine congrArg _ ?_
  funext a; apply Fin.ext
  match a with
  | ⟨0, _⟩ => show win0_7.index t (0 : Fin 2) * 1 + 1 * p.val = p.val; omega
  | ⟨1, _⟩ => show win0_7.index t (1 : Fin 2) * 1024 + 1 * q.val = q.val; omega

/-- The key bias' block is the whole row, at every point. -/
theorem blk_bk (c : Dev nD) (t : Fin cfg0.N) (p : Fin 1) (q : Fin 1024) :
    (iblk0 V c 8 t : Vec Ideal S1x1024 .f32) (ix2 p q) = (V c main_v8 : S1x1024.Idx → EReal) (ix2 p q) := by
  obtain ⟨e0, e1⟩ := idx_w8 t
  show V c main_v8 (((cfg0.win 8).blk t).view.emb (ix2 p q)) = V c main_v8 (ix2 p q)
  refine congrArg _ ?_
  funext a; apply Fin.ext
  match a with
  | ⟨0, _⟩ => show win0_8.index t (0 : Fin 2) * 1 + 1 * p.val = p.val; omega
  | ⟨1, _⟩ => show win0_8.index t (1 : Fin 2) * 1024 + 1 * q.val = q.val; omega

/-! ## The queries -/

/-- An index of the array is in point t's block of result 0 iff each coordinate is in the block's range on its axis. -/
theorem mem_blk9 (t : Fin cfg0.N) (i : S8x2048x1024.Idx) :
    i ∈ ((cfg0.win 9).blk t).view.set ↔ ∀ a : Fin 3, win0_9.index t a * S1x512x1024.size a ≤ (i a).val ∧ (i a).val < win0_9.index t a * S1x512x1024.size a + S1x512x1024.size a := by
  show i ∈ ((View.whole main_v10_0).slice (win0_9.rect t)).set ↔ _
  rw [View.set_slice_whole, Rect.mem_set_unit]
  exact Iff.rfl

/-- Row s of batch b is in the block of point 4·b + s / 512: the blocks cover the array. -/
theorem cover9 (i : S8x2048x1024.Idx) : ∃ t : Fin cfg0.N, (cfg0.win 9).flush t = true ∧ i ∈ ((cfg0.win 9).blk t).view.set := by
  have h0 : (i 0).val < 8 := (i 0).isLt
  have h1 : (i 1).val < 2048 := (i 1).isLt
  have h2 : (i 2).val < 1024 := (i 2).isLt
  have hN : cfg0.N = 32 := N_0
  obtain ⟨t, tv⟩ : ∃ t : Fin cfg0.N, t.val = 4 * (i 0).val + (i 1).val / 512 := ⟨⟨4 * (i 0).val + (i 1).val / 512, by rw [hN]; omega⟩, rfl⟩
  refine ⟨t, flush0_9 t, ?_⟩
  rw [mem_blk9]
  obtain ⟨e0, e1, e2⟩ := idx_w9 t
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-- Where the element (0, r, o) of point t's block sits in the array. -/
theorem emb_blk9 (t : Fin cfg0.N) (r : Fin 512) (o : Fin 1024) (b : Fin 8) (s : Fin 2048)
    (hb : b.val = t.val / 4) (hs : s.val = (t.val % 4) * 512 + r.val) :
    ((cfg0.win 9).blk t).view.emb (ix3 (0 : Fin 1) r o) = (ix3 b s o : S8x2048x1024.Idx) := by
  obtain ⟨e0, e1, e2⟩ := idx_w9 t
  funext a; apply Fin.ext
  match a with
  | ⟨0, _⟩ => show win0_9.index t (0 : Fin 3) * 1 + 1 * 0 = b.val; omega
  | ⟨1, _⟩ => show win0_9.index t (1 : Fin 3) * 512 + 1 * r.val = s.val; omega
  | ⟨2, _⟩ => show win0_9.index t (2 : Fin 3) * 1024 + 1 * o.val = o.val; omega

/-- What point t writes back to the queries' array is its block of the specification's queries. -/
theorem flushed_q (c : Dev nD) (t : Fin cfg0.N) (a0 : Arr3 8 2048 1024) (a2 : Arr3 1 2048 1024) (a3 : Arr2 1024 1024) (a4 : Arr1 1024)
    (h0 : (V c main_arg0 : S8x2048x1024.Idx → EReal) = a0) (h2 : (V c main_arg2 : S1x2048x1024.Idx → EReal) = a2)
    (h1 : ∀ (h o : Fin 1024), (V c main_v1 : S1024x1024.Idx → EReal) (ix2 h o) = a3 (ix2 o h))
    (h4 : ∀ o : Fin 1024, (V c main_v4 : S1x1024.Idx → EReal) (ix2 (0 : Fin 1) o) = a4 (ix1 o)) :
    (dat0 V c).flushed 9 t = ((cfg0.win 9).blk t).view.read (Elt Ideal) (qOf a0 a2 a3 a4) := by
  show (cfg0.win 9).cut (grid0.coords t) ((dat0 V c).after 9 t) = _
  rw [after0_9]
  unfold out0_9
  rw [View.canon_unit_zero zeros3]
  simp only [View.ld_unit_zero (S := S1x512x1024) zeros3, View.ld_unit_zero (S := S1024x1024) zeros2, View.ld_unit_zero (S := S1x1024) zeros2]
  funext j
  obtain ⟨p, r, o, rfl⟩ : ∃ (p : Fin 1) (r : Fin 512) (o : Fin 1024), j = ix3 p r o := ⟨j 0, j 1, j 2, eq_ix3 j⟩
  obtain rfl : p = 0 := Subsingleton.elim _ _
  have hN : t.val < 32 := lt_of_lt_of_eq t.isLt (show cfg0.N = 32 from N_0)
  obtain ⟨b, hb⟩ : ∃ b : Fin 8, b.val = t.val / 4 := ⟨⟨t.val / 4, by omega⟩, rfl⟩
  obtain ⟨s, hs⟩ : ∃ s : Fin 2048, s.val = (t.val % 4) * 512 + r.val := ⟨⟨(t.val % 4) * 512 + r.val, by omega⟩, rfl⟩
  show k0_pay1 (k0_pay7 (iblk0 V c 0 t) (iblk0 V c 1 t) (iblk0 V c 3 t) (iblk0 V c 4 t)) (ix3 (0 : Fin 1) r o)
    = qOf a0 a2 a3 a4 (((cfg0.win 9).blk t).view.emb (ix3 (0 : Fin 1) r o))
  rw [emb_blk9 t r o b s hb hs]
  refine (pay_q_apply _ _ _ _ r o).trans ?_
  show projRow _ _ _ o = projRow (xAt a0 a2 b s) (fun o h => a3 (ix2 o h)) (fun o => a4 (ix1 o)) o
  unfold projRow
  refine congrArg₂ (· + ·) (Finset.sum_congr rfl fun h _ => congrArg₂ (· * ·) ?_ ?_) ?_
  · exact congrArg₂ (· + ·) ((blk_hs V c t r h b s hb hs).trans (congrFun h0 _)) ((blk_pos V c t r h s hs).trans (congrFun h2 _))
  · exact (blk_Wq V c t h o).trans (h1 h o)
  · exact (blk_bq V c t (0 : Fin 1) o).trans (h4 o)

/-- After the region the queries' array holds the specification's queries. -/
theorem q_final (c : Dev nD) (a0 : Arr3 8 2048 1024) (a2 : Arr3 1 2048 1024) (a3 : Arr2 1024 1024) (a4 : Arr1 1024)
    (h0 : (V c main_arg0 : S8x2048x1024.Idx → EReal) = a0) (h2 : (V c main_arg2 : S1x2048x1024.Idx → EReal) = a2)
    (h1 : ∀ (h o : Fin 1024), (V c main_v1 : S1024x1024.Idx → EReal) (ix2 h o) = a3 (ix2 o h))
    (h4 : ∀ o : Fin 1024, (V c main_v4 : S1x1024.Idx → EReal) (ix2 (0 : Fin 1) o) = a4 (ix1 o)) :
    (dat0 V c).arrAt 9 cfg0.N = qOf a0 a2 a3 a4 :=
  (dat0 V c).arrAt_eq_of_cover 9 (qOf a0 a2 a3 a4) (fun t _ => flushed_q V c t a0 a2 a3 a4 h0 h2 h1 h4) cover9

/-! ## The keys -/

/-- An index of the array is in point t's block of result 1 iff each coordinate is in the block's range on its axis. -/
theorem mem_blk10 (t : Fin cfg0.N) (i : S8x2048x1024.Idx) :
    i ∈ ((cfg0.win 10).blk t).view.set ↔ ∀ a : Fin 3, win0_10.index t a * S1x512x1024.size a ≤ (i a).val ∧ (i a).val < win0_10.index t a * S1x512x1024.size a + S1x512x1024.size a := by
  show i ∈ ((View.whole main_v10_1).slice (win0_10.rect t)).set ↔ _
  rw [View.set_slice_whole, Rect.mem_set_unit]
  exact Iff.rfl

/-- Row s of batch b is in the block of point 4·b + s / 512: the blocks cover the array. -/
theorem cover10 (i : S8x2048x1024.Idx) : ∃ t : Fin cfg0.N, (cfg0.win 10).flush t = true ∧ i ∈ ((cfg0.win 10).blk t).view.set := by
  have h0 : (i 0).val < 8 := (i 0).isLt
  have h1 : (i 1).val < 2048 := (i 1).isLt
  have h2 : (i 2).val < 1024 := (i 2).isLt
  have hN : cfg0.N = 32 := N_0
  obtain ⟨t, tv⟩ : ∃ t : Fin cfg0.N, t.val = 4 * (i 0).val + (i 1).val / 512 := ⟨⟨4 * (i 0).val + (i 1).val / 512, by rw [hN]; omega⟩, rfl⟩
  refine ⟨t, flush0_10 t, ?_⟩
  rw [mem_blk10]
  obtain ⟨e0, e1, e2⟩ := idx_w10 t
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 1024 ≤ (i 2).val ∧ (i 2).val < win0_10.index t (2 : Fin 3) * 1024 + 1024; omega

/-- Where the element (0, r, o) of point t's block sits in the array. -/
theorem emb_blk10 (t : Fin cfg0.N) (r : Fin 512) (o : Fin 1024) (b : Fin 8) (s : Fin 2048)
    (hb : b.val = t.val / 4) (hs : s.val = (t.val % 4) * 512 + r.val) :
    ((cfg0.win 10).blk t).view.emb (ix3 (0 : Fin 1) r o) = (ix3 b s o : S8x2048x1024.Idx) := by
  obtain ⟨e0, e1, e2⟩ := idx_w10 t
  funext a; apply Fin.ext
  match a with
  | ⟨0, _⟩ => show win0_10.index t (0 : Fin 3) * 1 + 1 * 0 = b.val; omega
  | ⟨1, _⟩ => show win0_10.index t (1 : Fin 3) * 512 + 1 * r.val = s.val; omega
  | ⟨2, _⟩ => show win0_10.index t (2 : Fin 3) * 1024 + 1 * o.val = o.val; omega

/-- What point t writes back to the keys' array is its block of the specification's keys. -/
theorem flushed_k (c : Dev nD) (t : Fin cfg0.N) (a1 : Arr3 8 1 2048) (a5 : Arr2 1024 1) (a6 : Arr1 1024)
    (h9 : ∀ (b : Fin 8) (s : Fin 2048), (V c main_v9 : S8x2048x1.Idx → EReal) (ix3 b s (0 : Fin 1)) = a1 (ix3 b (0 : Fin 1) s))
    (h7 : ∀ h : Fin 1024, (V c main_v7 : S1x1024.Idx → EReal) (ix2 (0 : Fin 1) h) = a5 (ix2 h (0 : Fin 1)))
    (h8 : ∀ h : Fin 1024, (V c main_v8 : S1x1024.Idx → EReal) (ix2 (0 : Fin 1) h) = a6 (ix1 h)) :
    (dat0 V c).flushed 10 t = ((cfg0.win 10).blk t).view.read (Elt Ideal) (kOf a1 a5 a6) := by
  show (cfg0.win 10).cut (grid0.coords t) ((dat0 V c).after 10 t) = _
  rw [after0_10]
  unfold out0_10
  rw [View.canon_unit_zero zeros3]
  simp only [View.ld_unit_zero (S := S1x512x1) zeros3, View.ld_unit_zero (S := S1x1024) zeros2]
  funext j
  obtain ⟨p, r, o, rfl⟩ : ∃ (p : Fin 1) (r : Fin 512) (o : Fin 1024), j = ix3 p r o := ⟨j 0, j 1, j 2, eq_ix3 j⟩
  obtain rfl : p = 0 := Subsingleton.elim _ _
  have hN : t.val < 32 := lt_of_lt_of_eq t.isLt (show cfg0.N = 32 from N_0)
  obtain ⟨b, hb⟩ : ∃ b : Fin 8, b.val = t.val / 4 := ⟨⟨t.val / 4, by omega⟩, rfl⟩
  obtain ⟨s, hs⟩ : ∃ s : Fin 2048, s.val = (t.val % 4) * 512 + r.val := ⟨⟨(t.val % 4) * 512 + r.val, by omega⟩, rfl⟩
  show k0_pay2 (k0_pay6 (iblk0 V c 2 t) (iblk0 V c 7 t) (iblk0 V c 8 t)) (ix3 (0 : Fin 1) r o)
    = kOf a1 a5 a6 (((cfg0.win 10).blk t).view.emb (ix3 (0 : Fin 1) r o))
  rw [emb_blk10 t r o b s hb hs]
  refine (pay_k_apply _ _ _ r o).trans ?_
  show _ = a1 (ix3 b (0 : Fin 1) s) * a5 (ix2 o (0 : Fin 1)) + a6 (ix1 o)
  refine congrArg₂ (· + ·) (congrArg₂ (· * ·) ?_ ?_) ?_
  · exact (blk_sqi V c t r b s hb hs).trans (h9 b s)
  · exact (blk_Wk V c t (0 : Fin 1) o).trans (h7 o)
  · exact (blk_bk V c t (0 : Fin 1) o).trans (h8 o)

/-- After the region the keys' array holds the specification's keys. -/
theorem k_final (c : Dev nD) (a1 : Arr3 8 1 2048) (a5 : Arr2 1024 1) (a6 : Arr1 1024)
    (h9 : ∀ (b : Fin 8) (s : Fin 2048), (V c main_v9 : S8x2048x1.Idx → EReal) (ix3 b s (0 : Fin 1)) = a1 (ix3 b (0 : Fin 1) s))
    (h7 : ∀ h : Fin 1024, (V c main_v7 : S1x1024.Idx → EReal) (ix2 (0 : Fin 1) h) = a5 (ix2 h (0 : Fin 1)))
    (h8 : ∀ h : Fin 1024, (V c main_v8 : S1x1024.Idx → EReal) (ix2 (0 : Fin 1) h) = a6 (ix1 h)) :
    (dat0 V c).arrAt 10 cfg0.N = kOf a1 a5 a6 :=
  (dat0 V c).arrAt_eq_of_cover 10 (kOf a1 a5 a6) (fun t _ => flushed_k V c t a1 a5 a6 h9 h7 h8) cover10

/-! ## The values -/

/-- An index of the array is in point t's block of result 2 iff each coordinate is in the block's range on its axis. -/
theorem mem_blk11 (t : Fin cfg0.N) (i : S8x2048x1024.Idx) :
    i ∈ ((cfg0.win 11).blk t).view.set ↔ ∀ a : Fin 3, win0_11.index t a * S1x512x1024.size a ≤ (i a).val ∧ (i a).val < win0_11.index t a * S1x512x1024.size a + S1x512x1024.size a := by
  show i ∈ ((View.whole main_v10_2).slice (win0_11.rect t)).set ↔ _
  rw [View.set_slice_whole, Rect.mem_set_unit]
  exact Iff.rfl

/-- Row s of batch b is in the block of point 4·b + s / 512: the blocks cover the array. -/
theorem cover11 (i : S8x2048x1024.Idx) : ∃ t : Fin cfg0.N, (cfg0.win 11).flush t = true ∧ i ∈ ((cfg0.win 11).blk t).view.set := by
  have h0 : (i 0).val < 8 := (i 0).isLt
  have h1 : (i 1).val < 2048 := (i 1).isLt
  have h2 : (i 2).val < 1024 := (i 2).isLt
  have hN : cfg0.N = 32 := N_0
  obtain ⟨t, tv⟩ : ∃ t : Fin cfg0.N, t.val = 4 * (i 0).val + (i 1).val / 512 := ⟨⟨4 * (i 0).val + (i 1).val / 512, by rw [hN]; omega⟩, rfl⟩
  refine ⟨t, flush0_11 t, ?_⟩
  rw [mem_blk11]
  obtain ⟨e0, e1, e2⟩ := idx_w11 t
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 512 ≤ (i 1).val ∧ (i 1).val < win0_11.index t (1 : Fin 3) * 512 + 512; omega
  | ⟨2, _⟩ => show win0_11.index t (2 : Fin 3) * 1024 ≤ (i 2).val ∧ (i 2).val < win0_11.index t (2 : Fin 3) * 1024 + 1024; omega

/-- Where the element (0, r, o) of point t's block sits in the array. -/
theorem emb_blk11 (t : Fin cfg0.N) (r : Fin 512) (o : Fin 1024) (b : Fin 8) (s : Fin 2048)
    (hb : b.val = t.val / 4) (hs : s.val = (t.val % 4) * 512 + r.val) :
    ((cfg0.win 11).blk t).view.emb (ix3 (0 : Fin 1) r o) = (ix3 b s o : S8x2048x1024.Idx) := by
  obtain ⟨e0, e1, e2⟩ := idx_w11 t
  funext a; apply Fin.ext
  match a with
  | ⟨0, _⟩ => show win0_11.index t (0 : Fin 3) * 1 + 1 * 0 = b.val; omega
  | ⟨1, _⟩ => show win0_11.index t (1 : Fin 3) * 512 + 1 * r.val = s.val; omega
  | ⟨2, _⟩ => show win0_11.index t (2 : Fin 3) * 1024 + 1 * o.val = o.val; omega

/-- What point t writes back to the values' array is its block of the specification's values. -/
theorem flushed_v (c : Dev nD) (t : Fin cfg0.N) (a0 : Arr3 8 2048 1024) (a2 : Arr3 1 2048 1024) (a7 : Arr2 1024 1024) (a8 : Arr1 1024)
    (h0 : (V c main_arg0 : S8x2048x1024.Idx → EReal) = a0) (h2 : (V c main_arg2 : S1x2048x1024.Idx → EReal) = a2)
    (h3 : ∀ (h o : Fin 1024), (V c main_v3 : S1024x1024.Idx → EReal) (ix2 h o) = a7 (ix2 o h))
    (h5 : ∀ o : Fin 1024, (V c main_v5 : S1x1024.Idx → EReal) (ix2 (0 : Fin 1) o) = a8 (ix1 o)) :
    (dat0 V c).flushed 11 t = ((cfg0.win 11).blk t).view.read (Elt Ideal) (vOf a0 a2 a7 a8) := by
  show (cfg0.win 11).cut (grid0.coords t) ((dat0 V c).after 11 t) = _
  rw [after0_11]
  unfold out0_11
  rw [View.canon_unit_zero zeros3]
  simp only [View.ld_unit_zero (S := S1x512x1024) zeros3, View.ld_unit_zero (S := S1024x1024) zeros2, View.ld_unit_zero (S := S1x1024) zeros2]
  funext j
  obtain ⟨p, r, o, rfl⟩ : ∃ (p : Fin 1) (r : Fin 512) (o : Fin 1024), j = ix3 p r o := ⟨j 0, j 1, j 2, eq_ix3 j⟩
  obtain rfl : p = 0 := Subsingleton.elim _ _
  have hN : t.val < 32 := lt_of_lt_of_eq t.isLt (show cfg0.N = 32 from N_0)
  obtain ⟨b, hb⟩ : ∃ b : Fin 8, b.val = t.val / 4 := ⟨⟨t.val / 4, by omega⟩, rfl⟩
  obtain ⟨s, hs⟩ : ∃ s : Fin 2048, s.val = (t.val % 4) * 512 + r.val := ⟨⟨(t.val % 4) * 512 + r.val, by omega⟩, rfl⟩
  show k0_pay3 (k0_pay5 (iblk0 V c 0 t) (iblk0 V c 1 t) (iblk0 V c 5 t) (iblk0 V c 6 t)) (ix3 (0 : Fin 1) r o)
    = vOf a0 a2 a7 a8 (((cfg0.win 11).blk t).view.emb (ix3 (0 : Fin 1) r o))
  rw [emb_blk11 t r o b s hb hs]
  refine (pay_v_apply _ _ _ _ r o).trans ?_
  show projRow _ _ _ o = projRow (xAt a0 a2 b s) (fun o h => a7 (ix2 o h)) (fun o => a8 (ix1 o)) o
  unfold projRow
  refine congrArg₂ (· + ·) (Finset.sum_congr rfl fun h _ => congrArg₂ (· * ·) ?_ ?_) ?_
  · exact congrArg₂ (· + ·) ((blk_hs V c t r h b s hb hs).trans (congrFun h0 _)) ((blk_pos V c t r h s hs).trans (congrFun h2 _))
  · exact (blk_Wv V c t h o).trans (h3 h o)
  · exact (blk_bv V c t (0 : Fin 1) o).trans (h5 o)

/-- After the region the values' array holds the specification's values. -/
theorem v_final (c : Dev nD) (a0 : Arr3 8 2048 1024) (a2 : Arr3 1 2048 1024) (a7 : Arr2 1024 1024) (a8 : Arr1 1024)
    (h0 : (V c main_arg0 : S8x2048x1024.Idx → EReal) = a0) (h2 : (V c main_arg2 : S1x2048x1024.Idx → EReal) = a2)
    (h3 : ∀ (h o : Fin 1024), (V c main_v3 : S1024x1024.Idx → EReal) (ix2 h o) = a7 (ix2 o h))
    (h5 : ∀ o : Fin 1024, (V c main_v5 : S1x1024.Idx → EReal) (ix2 (0 : Fin 1) o) = a8 (ix1 o)) :
    (dat0 V c).arrAt 11 cfg0.N = vOf a0 a2 a7 a8 :=
  (dat0 V c).arrAt_eq_of_cover 11 (vOf a0 a2 a7 a8) (fun t _ => flushed_v V c t a0 a2 a7 a8 h0 h2 h3 h5) cover11

end Cert.KernelIdeal.Fr

end
-- ==== Proof.KI.HostRead.lean ====
/- The projection region's operands as the host operations leave them, read at coordinates on the extended reals, and
   with them the three arrays the region leaves as functions of the nine launch arguments: the weight matrices arrive
   transposed (entry (h, o) of the operand is entry (o, h) of the argument; the change of float format is the identity on
   the extended reals), the biases and the key weight's one column arrive as rows, and the per-position scalars arrive
   as one column per batch. -/
import proofs.«108366_j369367187664_2_alg».proof.Proof.KI.Tail
import proofs.«108366_j369367187664_2_alg».proof.Proof.KI.Value0
import Idealize.ShloMosaic.Lib.ValueLayout

set_option maxRecDepth 16384

noncomputable section

namespace Cert.KernelIdeal.Fr

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The host-written operands at coordinates -/

/-- The query weight as the region finds it: the argument transposed. -/
theorem V1_Wq_apply (c : Dev nD) (h o : Fin 1024) :
    (V1 m c main_v1 : S1024x1024.Idx → EReal) (ix2 h o) = ((m ((c : Thread nD τ).loc main_arg3)) : S1024x1024.Idx → EReal) (ix2 o h) :=
  (congrFun (V1_main_v1 m c) (ix2 h o)).trans (transpose_ix2_apply _ _ h o)

/-- The value weight as the region finds it: the argument transposed. -/
theorem V1_Wv_apply (c : Dev nD) (h o : Fin 1024) :
    (V1 m c main_v3 : S1024x1024.Idx → EReal) (ix2 h o) = ((m ((c : Thread nD τ).loc main_arg7)) : S1024x1024.Idx → EReal) (ix2 o h) :=
  (congrFun (V1_main_v3 m c) (ix2 h o)).trans (transpose_ix2_apply _ _ h o)

/-- The query bias as a row. -/
theorem V1_bq_apply (c : Dev nD) (o : Fin 1024) :
    (V1 m c main_v4 : S1x1024.Idx → EReal) (ix2 (0 : Fin 1) o) = ((m ((c : Thread nD τ).loc main_arg4)) : S1024.Idx → EReal) (ix1 o) :=
  (congrFun (V1_main_v4 m c) (ix2 (0 : Fin 1) o)).trans (shapeCast_a_1a_apply _ _ (0 : Fin 1) o)

/-- The value bias as a row. -/
theorem V1_bv_apply (c : Dev nD) (o : Fin 1024) :
    (V1 m c main_v5 : S1x1024.Idx → EReal) (ix2 (0 : Fin 1) o) = ((m ((c : Thread nD τ).loc main_arg8)) : S1024.Idx → EReal) (ix1 o) :=
  (congrFun (V1_main_v5 m c) (ix2 (0 : Fin 1) o)).trans (shapeCast_a_1a_apply _ _ (0 : Fin 1) o)

/-- The key bias as a row. -/
theorem V1_bk_apply (c : Dev nD) (h : Fin 1024) :
    (V1 m c main_v8 : S1x1024.Idx → EReal) (ix2 (0 : Fin 1) h) = ((m ((c : Thread nD τ).loc main_arg6)) : S1024.Idx → EReal) (ix1 h) :=
  (congrFun (V1_main_v8 m c) (ix2 (0 : Fin 1) h)).trans (shapeCast_a_1a_apply _ _ (0 : Fin 1) h)

/-- The key weight's one column as a row: entry h of the row is entry (h, 0) of the argument. -/
theorem V1_Wk_apply (c : Dev nD) (h : Fin 1024) :
    (V1 m c main_v7 : S1x1024.Idx → EReal) (ix2 (0 : Fin 1) h) = ((m ((c : Thread nD τ).loc main_arg5)) : S1024x1.Idx → EReal) (ix2 h (0 : Fin 1)) :=
  (congrFun (V1_main_v7 m c) (ix2 (0 : Fin 1) h)).trans
    ((shapeCast_a_1a_apply _ _ (0 : Fin 1) h).trans
      (shapeCast_apply _ shapeCasts_S1024x1_S1024 (ix1 h) (ix2 h (0 : Fin 1)) (by
        rw [Shape.rowMajor_val_two, Shape.rowMajor_val_one]
        show h.val * 1 + 0 = h.val
        omega)))

/-- The per-position scalars as one column per batch. -/
theorem V1_sqi_apply (c : Dev nD) (b : Fin 8) (s : Fin 2048) :
    (V1 m c main_v9 : S8x2048x1.Idx → EReal) (ix3 b s (0 : Fin 1)) = ((m ((c : Thread nD τ).loc main_arg1)) : S8x1x2048.Idx → EReal) (ix3 b (0 : Fin 1) s) :=
  (congrFun (V1_main_v9 m c) (ix3 b s (0 : Fin 1))).trans (transpose_ix3_021_apply _ _ b s (0 : Fin 1))

/-! ## The three arrays the projection region leaves, from the launch arguments -/

/-- The queries. -/
theorem q_V1 (c : Dev nD) : (dat0 (V1 m) c).arrAt 9 cfg0.N = qOf (m ((c : Thread nD τ).loc main_arg0)) (m ((c : Thread nD τ).loc main_arg2)) (m ((c : Thread nD τ).loc main_arg3)) (m ((c : Thread nD τ).loc main_arg4)) :=
  q_final (V1 m) c _ _ _ _ (V1_main_arg0 m c) (V1_main_arg2 m c) (V1_Wq_apply m c) (V1_bq_apply m c)

/-- The keys. -/
theorem k_V1 (c : Dev nD) : (dat0 (V1 m) c).arrAt 10 cfg0.N = kOf (m ((c : Thread nD τ).loc main_arg1)) (m ((c : Thread nD τ).loc main_arg5)) (m ((c : Thread nD τ).loc main_arg6)) :=
  k_final (V1 m) c _ _ _ (V1_sqi_apply m c) (V1_Wk_apply m c) (V1_bk_apply m c)

/-- The values. -/
theorem v_V1 (c : Dev nD) : (dat0 (V1 m) c).arrAt 11 cfg0.N = vOf (m ((c : Thread nD τ).loc main_arg0)) (m ((c : Thread nD τ).loc main_arg2)) (m ((c : Thread nD τ).loc main_arg7)) (m ((c : Thread nD τ).loc main_arg8)) :=
  v_final (V1 m) c _ _ _ _ (V1_main_arg0 m c) (V1_main_arg2 m c) (V1_Wv_apply m c) (V1_bv_apply m c)

end Cert.KernelIdeal.Fr

end
-- ==== Proof.KI.Pieces1.lean ====
/-
  What the three cases of the attention kernel's body leave, as values: in every case the attention block is the row-wise
  softmax payload of the query tile and the batch's keys; the accumulator leaves with the tile's column sums of attn·v added
  to what it entered with (to zero at a batch's first tile); and at a batch's last tile the context block is the accumulator
  scaled.
-/
import proofs.«108366_j369367187664_2_alg».proof.Proof.KI.Region1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

theorem out_A_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i) (x0 : Vec F S1x256x1024 .bf16) (x1 : Vec F S1x2048x1024 .bf16) (x2 : Vec F S1x2048x1024 .bf16) :
    out1_A_3 c i arg2 harg2 arg3 harg3 arg4 harg4 arg5 harg5 arg6 harg6 arg7 harg7 hc0 hc1 x0 x1 x2 = k1_pay5 x0 x1 := by
  unfold out1_A_3
  rw [View.read_writes_eq_canon _ _ _ (cover1_A_3 c i arg2 harg2 arg3 harg3 arg4 harg4 arg5 harg5 arg6 harg6 arg7 harg7 hc0 hc1 x0 x1 x2)]
  unfold kernelRun1_A
  dsimp only
  sl_unfold_words
  rw [View.canon_unit_zero hz3]
  simp only [View.readAt_eq_ld, harg2.read_unread, harg3.read_unread, harg4.read_unread, harg7.read_unread, View.ld_unit_zero (S := S1x256x1024) hz3, View.ld_unit_zero (S := S1x2048x1024) hz3, View.ld_unit_zero (S := S1x1024) hz2, View.ld_unit_zero (S := S1x256x2048) hz3, View.ld_unit_zero (S := S1x1x1024) hz3]

theorem out_B_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i) (x0 : Vec F S1x256x1024 .bf16) (x1 : Vec F S1x2048x1024 .bf16) (x2 : Vec F S1x2048x1024 .bf16) (xs0 : Vec F S1x1024 .f32) :
    out1_B_3 c i arg2 harg2 arg3 harg3 arg4 harg4 arg5 harg5 arg6 harg6 arg7 harg7 hc0 hc1 x0 x1 x2 xs0 = k1_pay5 x0 x1 := by
  unfold out1_B_3
  rw [View.read_writes_eq_canon _ _ _ (cover1_B_3 c i arg2 harg2 arg3 harg3 arg4 harg4 arg5 harg5 arg6 harg6 arg7 harg7 hc0 hc1 x0 x1 x2 xs0)]
  unfold kernelRun1_B
  dsimp only
  sl_unfold_words
  rw [View.canon_unit_zero hz3]
  simp only [View.readAt_eq_ld, harg2.read_unread, harg3.read_unread, harg4.read_unread, harg7.read_unread, View.ld_unit_zero (S := S1x256x1024) hz3, View.ld_unit_zero (S := S1x2048x1024) hz3, View.ld_unit_zero (S := S1x1024) hz2, View.ld_unit_zero (S := S1x256x2048) hz3, View.ld_unit_zero (S := S1x1x1024) hz3]

theorem out_C_3 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i) (x0 : Vec F S1x256x1024 .bf16) (x1 : Vec F S1x2048x1024 .bf16) (x2 : Vec F S1x2048x1024 .bf16) (xs0 : Vec F S1x1024 .f32) :
    out1_C_3 c i arg2 harg2 arg3 harg3 arg4 harg4 arg5 harg5 arg6 harg6 arg7 harg7 hc0 hc1 x0 x1 x2 xs0 = k1_pay5 x0 x1 := by
  unfold out1_C_3
  rw [View.read_writes_eq_canon _ _ _ (cover1_C_3 c i arg2 harg2 arg3 harg3 arg4 harg4 arg5 harg5 arg6 harg6 arg7 harg7 hc0 hc1 x0 x1 x2 xs0)]
  unfold kernelRun1_C
  dsimp only
  sl_unfold_words
  rw [View.canon_unit_zero hz3]
  simp only [View.readAt_eq_ld, harg2.read_unread, harg3.read_unread, harg4.read_unread, harg7.read_unread, View.ld_unit_zero (S := S1x256x1024) hz3, View.ld_unit_zero (S := S1x2048x1024) hz3, View.ld_unit_zero (S := S1x1024) hz2, View.ld_unit_zero (S := S1x256x2048) hz3, View.ld_unit_zero (S := S1x1x1024) hz3]

theorem sout_A_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : cond1_0 i) (hc1 : ¬cond1_1 i) (x0 : Vec F S1x256x1024 .bf16) (x1 : Vec F S1x2048x1024 .bf16) (x2 : Vec F S1x2048x1024 .bf16) :
    sout1_A_0 c i arg2 harg2 arg3 harg3 arg4 harg4 arg5 harg5 arg6 harg6 arg7 harg7 hc0 hc1 x0 x1 x2 = k1_pay1 (k1_pay6 x0 x1 x2 (k1_pay3 (F := F))) := by
  unfold sout1_A_0
  rw [View.read_writes_eq_canon _ _ _ (scover1_A_0 c i arg2 harg2 arg3 harg3 arg4 harg4 arg5 harg5 arg6 harg6 arg7 harg7 hc0 hc1 x0 x1 x2)]
  unfold kernelRun1_A
  dsimp only
  sl_unfold_words
  rw [View.canon_cons_unit_zero (S := S1x1024) hz2, View.readCov_unit_zero (S := S1x1024) _ hz2]
  simp only [View.readAt_eq_ld, harg2.read_unread, harg3.read_unread, harg4.read_unread, harg7.read_unread, View.ld_unit_zero (S := S1x256x1024) hz3, View.ld_unit_zero (S := S1x2048x1024) hz3, View.ld_unit_zero (S := S1x1024) hz2, View.ld_unit_zero (S := S1x256x2048) hz3, View.ld_unit_zero (S := S1x1x1024) hz3]

theorem sout_B_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : ¬cond1_1 i) (x0 : Vec F S1x256x1024 .bf16) (x1 : Vec F S1x2048x1024 .bf16) (x2 : Vec F S1x2048x1024 .bf16) (xs0 : Vec F S1x1024 .f32) :
    sout1_B_0 c i arg2 harg2 arg3 harg3 arg4 harg4 arg5 harg5 arg6 harg6 arg7 harg7 hc0 hc1 x0 x1 x2 xs0 = k1_pay1 (k1_pay6 x0 x1 x2 xs0) := by
  unfold sout1_B_0
  rw [View.read_writes_eq_canon _ _ _ (scover1_B_0 c i arg2 harg2 arg3 harg3 arg4 harg4 arg5 harg5 arg6 harg6 arg7 harg7 hc0 hc1 x0 x1 x2 xs0)]
  unfold kernelRun1_B
  dsimp only
  sl_unfold_words
  rw [View.canon_unit_zero hz2]
  simp only [View.readAt_eq_ld, harg2.read_unread, harg3.read_unread, harg4.read_unread, harg7.read_unread, View.ld_unit_zero (S := S1x256x1024) hz3, View.ld_unit_zero (S := S1x2048x1024) hz3, View.ld_unit_zero (S := S1x1024) hz2, View.ld_unit_zero (S := S1x256x2048) hz3, View.ld_unit_zero (S := S1x1x1024) hz3]

theorem sout_C_0 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i) (x0 : Vec F S1x256x1024 .bf16) (x1 : Vec F S1x2048x1024 .bf16) (x2 : Vec F S1x2048x1024 .bf16) (xs0 : Vec F S1x1024 .f32) :
    sout1_C_0 c i arg2 harg2 arg3 harg3 arg4 harg4 arg5 harg5 arg6 harg6 arg7 harg7 hc0 hc1 x0 x1 x2 xs0 = k1_pay1 (k1_pay6 x0 x1 x2 xs0) := by
  unfold sout1_C_0
  rw [View.read_writes_eq_canon _ _ _ (scover1_C_0 c i arg2 harg2 arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg2.read_unread, harg3.read_unread, harg4.read_unread, harg7.read_unread, View.ld_unit_zero (S := S1x256x1024) hz3, View.ld_unit_zero (S := S1x2048x1024) hz3, View.ld_unit_zero (S := S1x1024) hz2, View.ld_unit_zero (S := S1x256x2048) hz3, View.ld_unit_zero (S := S1x1x1024) hz3]

theorem out_C_4 (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1x1x1024 .f32) (harg6 : arg6.IsWhole) (arg7 : Memref sig .tc .vmem S1x1024 .f32) (harg7 : arg7.IsWhole) (hc0 : ¬cond1_0 i) (hc1 : cond1_1 i) (x0 : Vec F S1x256x1024 .bf16) (x1 : Vec F S1x2048x1024 .bf16) (x2 : Vec F S1x2048x1024 .bf16) (xs0 : Vec F S1x1024 .f32) :
    out1_C_4 c i arg2 harg2 arg3 harg3 arg4 harg4 arg5 harg5 arg6 harg6 arg7 harg7 hc0 hc1 x0 x1 x2 xs0 = k1_pay2 (k1_pay1 (k1_pay6 x0 x1 x2 xs0)) := by
  unfold out1_C_4
  rw [View.read_writes_eq_canon _ _ _ (cover1_C_4 c i arg2 harg2 arg3 harg3 arg4 harg4 arg5 harg5 arg6 harg6 arg7 harg7 hc0 hc1 x0 x1 x2 xs0)]
  unfold kernelRun1_C
  dsimp only
  sl_unfold_words
  rw [View.canon_unit_zero hz3, View.readCov_unit_zero (S := S1x1024) _ hz2]
  simp only [View.readAt_eq_ld, harg2.read_unread, harg3.read_unread, harg4.read_unread, harg7.read_unread, View.ld_unit_zero (S := S1x256x1024) hz3, View.ld_unit_zero (S := S1x2048x1024) hz3, View.ld_unit_zero (S := S1x1024) hz2, View.ld_unit_zero (S := S1x256x2048) hz3, View.ld_unit_zero (S := S1x1x1024) hz3]

end Cert.KernelIdeal.Fr

end
-- ==== Proof.Consts.lean ====
/-
  The float constants the two programs spell, as the extended reals their bit patterns denote:
  0x3D000000 is 1/32 and 0x3A000000 is 1/2048 (the two scales the tiled program multiplies by), 0x44800000 is 1024
  and 0x45000000 is 2048 (what the other program takes the square root of, and divides by), 0xFF800000 is -∞
  (where both row maxima start). The square root of 1024 is 32, and dividing by a nonzero real is multiplying by
  its reciprocal on EVERY extended real, the infinities included; so the two programs scale by the same factors.
-/
import proofs.«108366_j369367187664_2_alg».proof.Proof.Spec

noncomputable section

namespace Cert.Bridge

open Idealize.ShloMosaic

/-- The pattern 0x3D000000 denotes 1/32. -/
theorem ofBits_inv32 : Ideal.ofBits .f32 0x3D000000#32 = invSqrtH := by
  unfold invSqrtH
  simp [Ideal.ofBits, Ideal.ieee, -EReal.coe_mul]; norm_num

/-- The pattern 0x3A000000 denotes 1/2048. -/
theorem ofBits_inv2048 : Ideal.ofBits .f32 0x3A000000#32 = invS := by
  unfold invS
  simp [Ideal.ofBits, Ideal.ieee, -EReal.coe_mul]; norm_num

/-- The pattern 0x44800000 denotes 1024. -/
theorem ofBits_1024 : Ideal.ofBits .f32 0x44800000#32 = ((1024 : ℝ) : EReal) := by
  simp [Ideal.ofBits, Ideal.ieee, -EReal.coe_mul]; norm_num

/-- The pattern 0x45000000 denotes 2048. -/
theorem ofBits_2048 : Ideal.ofBits .f32 0x45000000#32 = ((2048 : ℝ) : EReal) := by
  simp [Ideal.ofBits, Ideal.ieee, -EReal.coe_mul]; norm_num

/-- The pattern 0xFF800000 denotes -∞. -/
theorem ofBits_neg_inf : Ideal.ofBits .f32 0xFF800000#32 = ⊥ := by
  simp [Ideal.ofBits, Ideal.ieee]

/-- The pattern 0x00000000 denotes 0. -/
theorem ofBits_zero : Ideal.ofBits .f32 0x00000000#32 = 0 := by
  simp [Ideal.ofBits, Ideal.ieee]

/-- The square root of 1024 is 32. -/
theorem sqrt_1024 : Ideal.sqrt ((1024 : ℝ) : EReal) = ((32 : ℝ) : EReal) := by
  rw [Ideal.sqrt_coe, if_neg (by norm_num)]
  have h : Real.sqrt 1024 = 32 := by
    rw [show (1024 : ℝ) = 32 ^ 2 by norm_num]
    exact Real.sqrt_sq (by norm_num)
  rw [h]

/-- Dividing by the square root of the pattern for 1024 is multiplying by 1/32, on every extended real. -/
theorem div_sqrt_1024 (x : EReal) :
    Ideal.div x (Ideal.sqrt (Ideal.ofBits .f32 0x44800000#32)) = x * invSqrtH := by
  rw [ofBits_1024, sqrt_1024, Ideal.div_coe (by norm_num : (32 : ℝ) ≠ 0)]
  rfl

/-- Dividing by the pattern for 2048 is multiplying by 1/2048, on every extended real. -/
theorem div_2048 (x : EReal) : Ideal.div x (Ideal.ofBits .f32 0x45000000#32) = x * invS := by
  rw [ofBits_2048, Ideal.div_coe (by norm_num : (2048 : ℝ) ≠ 0)]
  rfl

end Cert.Bridge

end
-- ==== Proof.KernelAttn.lean ====
/-
  The second tiled program's results at one element of a 256-row query tile, for arbitrary tile contents.
  The scores of the tile are the product of the query tile with the transposed keys, scaled by the pattern that
  denotes 1/32; each row's softmax is taken with the row maximum folded from -∞ and the row sum of the shifted
  exponentials, so a tile of attention weights is, row by row, the specification's softmax of the scaled scores.
  The running context adds to its previous contents the column sums, over the 256 rows of the tile, of the
  weights applied to the values. The final scaling multiplies by the pattern that denotes 1/2048.
-/
import proofs.«108366_j369367187664_2_alg».proof.Proof.Gen.KernelIdeal.Skeleton
import proofs.«108366_j369367187664_2_alg».proof.Proof.Consts
import Idealize.ShloMosaic.Lib.ValueLayout
import Idealize.ShloMosaic.PureOps.Ideal.Laws

noncomputable section

namespace Cert.Bridge

open Idealize.ShloMosaic Idealize.ShloMosaic.ValueIdx Cert.KernelIdeal Cert.KernelIdeal.Gen
open scoped BigOperators

/-! ## The two matrix products of a query tile, at an element -/

theorem score_lhs_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide),
    dif_pos (show (0 : Fin S256x1024.rank) ∈ dot_S256x1024_S1024x2048_S256x2048_1_0_0_1_n_n.lhsNonContracting by decide)]
  rfl
theorem score_lhs_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem score_rhs_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem score_rhs_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide),
    dif_pos (show (1 : Fin S1024x2048.rank) ∈ dot_S256x1024_S1024x2048_S256x2048_1_0_0_1_n_n.rhsNonContracting by decide)]
  rfl

/-- Query row r against key column j: the sum over the 1024 contracted features. -/
theorem score_matmul_apply (A : FVec Ideal S256x1024 .bf16) (B : FVec Ideal S1024x2048 .bf16) (r : Fin 256) (j : Fin 2048) :
    matmul dot_S256x1024_S1024x2048_S256x2048_1_0_0_1_n_n none A B (constant (F := Ideal) S256x2048 .f32 0x00000000#32) (ix2 r j)
      = ∑ h : Fin 1024, A (ix2 r h) * B (ix2 h j) := by
  simp only [matmul]
  rw [Ideal.matmul_constant_zero_apply,
    ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 r j)
      ((contrEquiv1 dot_S256x1024_S1024x2048_S256x2048_1_0_0_1_n_n 1024 rfl rfl).symm k) = ix2 r k :=
    funext fun a => Fin.ext (by
      match a with
      | ⟨0, _⟩ => exact score_lhs_0 _ _
      | ⟨1, _⟩ => exact (score_lhs_1 _ _).trans hk)
  have er : dot_S256x1024_S1024x2048_S256x2048_1_0_0_1_n_n.rhsIdx (ix2 r j)
      ((contrEquiv1 dot_S256x1024_S1024x2048_S256x2048_1_0_0_1_n_n 1024 rfl rfl).symm k) = ix2 k j :=
    funext fun a => Fin.ext (by
      match a with
      | ⟨0, _⟩ => exact (score_rhs_0 _ _).trans hk
      | ⟨1, _⟩ => exact score_rhs_1 _ _)
  rw [el, er]

theorem out_lhs_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl
theorem out_lhs_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem out_rhs_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem out_rhs_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- Weight row r against value column h: the sum over the 2048 contracted keys. -/
theorem out_matmul_apply (A : FVec Ideal S256x2048 .bf16) (B : FVec Ideal S2048x1024 .bf16) (r : Fin 256) (h : Fin 1024) :
    matmul dot_S256x2048_S2048x1024_S256x1024_1_0_0_1_n_n none A B (constant (F := Ideal) S256x1024 .f32 0x00000000#32) (ix2 r h)
      = ∑ j : Fin 2048, A (ix2 r j) * B (ix2 j h) := by
  simp only [matmul]
  rw [Ideal.matmul_constant_zero_apply,
    ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 r h)
      ((contrEquiv1 dot_S256x2048_S2048x1024_S256x1024_1_0_0_1_n_n 2048 rfl rfl).symm k) = ix2 r k :=
    funext fun a => Fin.ext (by
      match a with
      | ⟨0, _⟩ => exact out_lhs_0 _ _
      | ⟨1, _⟩ => exact (out_lhs_1 _ _).trans hk)
  have er : dot_S256x2048_S2048x1024_S256x1024_1_0_0_1_n_n.rhsIdx (ix2 r h)
      ((contrEquiv1 dot_S256x2048_S2048x1024_S256x1024_1_0_0_1_n_n 2048 rfl rfl).symm k) = ix2 k h :=
    funext fun a => Fin.ext (by
      match a with
      | ⟨0, _⟩ => exact (out_rhs_0 _ _).trans hk
      | ⟨1, _⟩ => exact out_rhs_1 _ _)
  rw [el, er]

/-! ## The scaled scores of a tile -/

/-- The tile's scaled scores, as the tile program spells them. -/
def tileScore (v3 : Vec Ideal S1x256x1024 .bf16) (v5 : Vec Ideal S1x2048x1024 .bf16) : FVec Ideal S256x2048 .f32 :=
  have v4 : FVec Ideal S256x1024 .bf16 := shapeCast S256x1024 v3 shapeCasts_S1x256x1024_S256x1024
  have v6 : FVec Ideal S2048x1024 .bf16 := shapeCast S2048x1024 v5 shapeCasts_S1x2048x1024_S2048x1024
  have v9 : FVec Ideal S1024x2048 .bf16 := transpose S1024x2048 [1, 0] v6 transposes_S2048x1024_p1_0_S1024x2048
  have cst : FVec Ideal S256x2048 .f32 := constant S256x2048 .f32 0x00000000#32
  have v10 : FVec Ideal S256x2048 .f32 := matmul dot_S256x1024_S1024x2048_S256x2048_1_0_0_1_n_n none v4 v9 cst
  have cst_9 : Ideal .f32 := Scalar.ofBits .f32 0x3D000000#32
  have v11 : FVec Ideal S256x2048 .f32 := broadcast S256x2048 cst_9
  mulf v10 v11

/-- Row r of the tile's scores is the specification's scaled scores of query row r against the 2048 key rows. -/
theorem tileScore_apply (v3 : Vec Ideal S1x256x1024 .bf16) (v5 : Vec Ideal S1x2048x1024 .bf16) (r : Fin 256) (j : Fin 2048) :
    tileScore v3 v5 (ix2 r j) = scoreRow (fun h => v3 (ix3 (0 : Fin 1) r h)) (fun j h => v5 (ix3 (0 : Fin 1) j h)) j := by
  unfold tileScore scoreRow
  refine congrArg₂ (· * ·) ?_ ofBits_inv32
  refine (score_matmul_apply _ _ r j).trans (Finset.sum_congr rfl fun h _ => ?_)
  refine congrArg₂ (· * ·) (shapeCast_1ab_ab_apply v3 _ r h) ?_
  exact (transpose_ix2_apply _ _ h j).trans (shapeCast_1ab_ab_apply v5 _ j h)

/-! ## The softmax of a tile of scores -/

/-- A vector of 256 row statistics broadcast along the 2048 keys. -/
theorem stat_apply (v : FVec Ideal S256 .f32) (r : Fin 256) (j : Fin 2048) :
    broadcastTo S256x2048 (shapeCast S256x1 v shapeCasts_S256_S256x1) broadcasts_S256x1_S256x2048 (ix2 r j) = v (ix1 r) := by
  refine (broadcastTo_apply _ broadcasts_S256x1_S256x2048 (ix2 r j) (ix2 r (0 : Fin 1)) fun ax => ?_).trans
    (shapeCast_apply v shapeCasts_S256_S256x1 (ix2 r (0 : Fin 1)) (ix1 r) ?_)
  · match ax with
    | ⟨0, _⟩ => show r.val = if (256 : Nat) = 1 then 0 else r.val; rw [if_neg (by decide)]
    | ⟨1, _⟩ => show 0 = if (1 : Nat) = 1 then 0 else j.val; rw [if_pos rfl]
  · rw [Shape.rowMajor_val_one, Shape.rowMajor_val_two]
    show r.val = r.val * 1 + 0
    omega

/-- The reduced index r with key j put back on the last axis is (r, j). -/
theorem lift_tile_keys (h : S256x2048.Reduces [1] S256) (r : Fin 256) (k : Fin (S256x2048.size 1)) :
    h.lift (ix1 r) k = ix2 r (⟨k.val, k.isLt⟩ : Fin 2048) := by
  funext c; apply Fin.ext
  fin_cases c <;> rfl

/-- The softmax of a tile of scores along the keys, as the tile program spells it. -/
def tileSoftmax (s : FVec Ideal S256x2048 .f32) : FVec Ideal S256x2048 .f32 :=
  have v13 : FVec Ideal S256 .f32 := multiReduction .maximumf [1] S256 s 0xFF800000#32 reduces_S256x2048_S256 (.inl rfl) rfl
  have v15 : FVec Ideal S256x2048 .f32 := broadcastTo S256x2048 (shapeCast S256x1 v13 shapeCasts_S256_S256x1) broadcasts_S256x1_S256x2048
  have v17 : FVec Ideal S256x2048 .f32 := exp (subf s v15)
  have v18 : FVec Ideal S256 .f32 := multiReduction .add [1] S256 v17 0x00000000#32 reduces_S256x2048_S256 (.inl rfl) rfl
  have v20 : FVec Ideal S256x2048 .f32 := broadcastTo S256x2048 (shapeCast S256x1 v18 shapeCasts_S256_S256x1) broadcasts_S256x1_S256x2048
  divf v17 v20

/-- The tile program's weights are the softmax of its scaled scores. -/
theorem pay4_eq (v3 : Vec Ideal S1x256x1024 .bf16) (v5 : Vec Ideal S1x2048x1024 .bf16) :
    k1_pay4 (F := Ideal) v3 v5 = tileSoftmax (tileScore v3 v5) := rfl

/-- The row maximum of a tile of scores. -/
theorem tileMax_apply (s : FVec Ideal S256x2048 .f32) (hφ : FKind.Formats .f32)
    (hacc : (0xFF800000#32 : BitVec 32) = FKind.maximumf.neutral .f32 hφ) (r : Fin 256) :
    multiReduction .maximumf [1] S256 s 0xFF800000#32 reduces_S256x2048_S256 hφ hacc (ix1 r)
      = rowMax (fun j => s (ix2 r j)) := by
  refine (Ideal.multiReduction_maximumf_single s 0xFF800000#32 reduces_S256x2048_S256 hφ hacc (ix1 r)).trans ?_
  unfold rowMax
  rw [Ideal.ofBits_def, ofBits_neg_inf]
  exact congrArg (fun f => Finset.fold max (⊥ : EReal) f (Finset.univ : Finset (Fin 2048)))
    (funext fun k => congrArg s (lift_tile_keys reduces_S256x2048_S256 r k))

/-- The row sum of a tile. -/
theorem tileSum_apply (s : FVec Ideal S256x2048 .f32) (hφ : FKind.Formats .f32)
    (hacc : (0x00000000#32 : BitVec 32) = FKind.add.neutral .f32 hφ) (r : Fin 256) :
    multiReduction .add [1] S256 s 0x00000000#32 reduces_S256x2048_S256 hφ hacc (ix1 r) = ∑ j : Fin 2048, s (ix2 r j) := by
  refine (Ideal.multiReduction_add_single s 0x00000000#32 reduces_S256x2048_S256 hφ hacc (ix1 r)).trans ?_
  exact Finset.sum_congr rfl fun k _ => congrArg s (lift_tile_keys reduces_S256x2048_S256 r k)

/-- The shifted exponentials of a tile of scores, at an element. -/
theorem tileExp_apply (s : FVec Ideal S256x2048 .f32) (hφ : FKind.Formats .f32)
    (hacc : (0xFF800000#32 : BitVec 32) = FKind.maximumf.neutral .f32 hφ) (r : Fin 256) (j : Fin 2048) :
    exp (subf s (broadcastTo S256x2048 (shapeCast S256x1
        (multiReduction .maximumf [1] S256 s 0xFF800000#32 reduces_S256x2048_S256 hφ hacc) shapeCasts_S256_S256x1)
        broadcasts_S256x1_S256x2048)) (ix2 r j)
      = expRow (fun j => s (ix2 r j)) j := by
  unfold expRow
  show Ideal.exp (s (ix2 r j) - _) = _
  rw [stat_apply, tileMax_apply]

/-- The softmax of a tile of scores is, row by row, the specification's softmax. -/
theorem tileSoftmax_apply (s : FVec Ideal S256x2048 .f32) (r : Fin 256) (j : Fin 2048) :
    tileSoftmax s (ix2 r j) = softmaxRow (fun j => s (ix2 r j)) j := by
  unfold tileSoftmax softmaxRow
  show Ideal.div _ _ = _
  refine congrArg₂ Ideal.div (tileExp_apply s _ _ r j) ?_
  refine (stat_apply _ r j).trans ?_
  exact (tileSum_apply _ _ _ r).trans (Finset.sum_congr rfl fun j' _ => tileExp_apply s _ _ r j')

/-- The tile program's weights at row r, key j: the specification's attention row of query row r against the keys. -/
theorem pay4_apply' (v3 : Vec Ideal S1x256x1024 .bf16) (v5 : Vec Ideal S1x2048x1024 .bf16) (r : Fin 256) (j : Fin 2048) :
    k1_pay4 (F := Ideal) v3 v5 (ix2 r j)
      = attnRow (fun h => v3 (ix3 (0 : Fin 1) r h)) (fun j h => v5 (ix3 (0 : Fin 1) j h)) j := by
  rw [pay4_eq, tileSoftmax_apply]
  unfold attnRow
  exact congrArg (fun s => softmaxRow s j) (funext fun j' => tileScore_apply v3 v5 r j')

/-- The stored tile of attention weights at row r, key j. -/
theorem pay_attn_apply (v3 : Vec Ideal S1x256x1024 .bf16) (v5 : Vec Ideal S1x2048x1024 .bf16) (r : Fin 256) (j : Fin 2048) :
    k1_pay5 (F := Ideal) v3 v5 (ix3 (0 : Fin 1) r j)
      = attnRow (fun h => v3 (ix3 (0 : Fin 1) r h)) (fun j h => v5 (ix3 (0 : Fin 1) j h)) j := by
  unfold k1_pay5
  exact (shapeCast_ab_1ab_apply _ _ (0 : Fin 1) r j).trans (pay4_apply' v3 v5 r j)

/-! ## The running context -/

/-- The reduced index h with row r put back on the first axis is (r, h). -/
theorem lift_tile_rows (hr : S256x1024.Reduces [0] S1024) (h : Fin 1024) (k : Fin (S256x1024.size 0)) :
    hr.lift (ix1 h) k = ix2 (⟨k.val, k.isLt⟩ : Fin 256) h := by
  funext c; apply Fin.ext
  fin_cases c <;> rfl

/-- The column sums of a 256-row tile. -/
theorem tileColSum_apply (s : FVec Ideal S256x1024 .f32) (hφ : FKind.Formats .f32)
    (hacc : (0x00000000#32 : BitVec 32) = FKind.add.neutral .f32 hφ) (h : Fin 1024) :
    multiReduction .add [0] S1024 s 0x00000000#32 reduces_S256x1024_S1024 hφ hacc (ix1 h) = ∑ r : Fin 256, s (ix2 r h) := by
  refine (Ideal.multiReduction_add_single s 0x00000000#32 reduces_S256x1024_S1024 hφ hacc (ix1 h)).trans ?_
  exact Finset.sum_congr rfl fun k _ => congrArg s (lift_tile_rows reduces_S256x1024_S1024 h k)

/-- The running context after a tile: what it held, plus the sum over the tile's 256 rows of the attended values. -/
theorem pay_acc_apply (v3 : Vec Ideal S1x256x1024 .bf16) (v5 v7 : Vec Ideal S1x2048x1024 .bf16) (v27 : Vec Ideal S1x1024 .f32)
    (h : Fin 1024) :
    k1_pay6 (F := Ideal) v3 v5 v7 v27 (ix2 (0 : Fin 1) h)
      = v27 (ix2 (0 : Fin 1) h) + ∑ r : Fin 256,
          outRow (attnRow (fun h => v3 (ix3 (0 : Fin 1) r h)) (fun j h => v5 (ix3 (0 : Fin 1) j h)))
            (fun j h => v7 (ix3 (0 : Fin 1) j h)) h := by
  unfold k1_pay6
  refine congrArg (v27 (ix2 (0 : Fin 1) h) + ·) ?_
  refine (shapeCast_a_1a_apply _ _ (0 : Fin 1) h).trans ?_
  refine (tileColSum_apply _ _ _ h).trans (Finset.sum_congr rfl fun r _ => ?_)
  unfold outRow
  refine (out_matmul_apply _ _ r h).trans (Finset.sum_congr rfl fun j _ => ?_)
  exact congrArg₂ (· * ·) (pay4_apply' v3 v5 r j) (shapeCast_1ab_ab_apply v7 _ j h)

/-- The context written back is the running context unchanged. -/
theorem pay_keep (x : FVec Ideal S1x1024 .f32) : k1_pay1 (F := Ideal) x = x := by
  unfold k1_pay1
  exact shapeCast_self x _

/-- The running context starts at zero. -/
theorem pay_zero_apply (i : S1x1024.Idx) : k1_pay3 (F := Ideal) i = 0 := by
  unfold k1_pay3
  exact (congrFun (shapeCast_self _ _) i).trans ofBits_zero

/-- The pooled context: the running context times 1/2048. -/
theorem pay_ctx_apply (v37 : Vec Ideal S1x1024 .f32) (h : Fin 1024) :
    k1_pay2 (F := Ideal) v37 (ix3 (0 : Fin 1) (0 : Fin 1) h) = v37 (ix2 (0 : Fin 1) h) * invS := by
  unfold k1_pay2
  refine (shapeCast_ab_1ab_apply _ _ (0 : Fin 1) (0 : Fin 1) h).trans ?_
  exact congrArg (v37 (ix2 (0 : Fin 1) h) * ·) ofBits_inv2048

end Cert.Bridge

end
-- ==== Proof.LibTileSum.lean ====
/-
  Summing by tiles. A sum over n·k consecutive positions is the sum, over the n tiles of k positions, of the tiles'
  sums; and a running total that starts at zero and adds one tile's sum at each step holds, after n steps, the sum of
  the first n tiles' sums. Both use only that addition is commutative and associative, so they hold on the extended
  reals with no finiteness assumption.
-/
import Idealize.ShloMosaic.PureOps.Ideal

namespace Cert.Bridge

open scoped BigOperators

variable {M : Type*} [AddCommMonoid M]

/-- Over the naturals: the tiles' sums, summed, are the sum over all n·k positions. -/
theorem sum_tiles_nat (n k : ℕ) (F : ℕ → M) :
    ∑ t ∈ Finset.range n, ∑ r ∈ Finset.range k, F (k * t + r) = ∑ i ∈ Finset.range (n * k), F i := by
  induction n with
  | zero => simp
  | succ n ih =>
    rw [Finset.sum_range_succ, ih, Nat.succ_mul, Finset.sum_range_add, Nat.mul_comm k n]

/-- Over finite index types: position r of tile t is index k·t + r, however that index is spelt. -/
theorem sum_tiles_fin (n k : ℕ) (f : Fin (n * k) → M) (idx : Fin n → Fin k → Fin (n * k))
    (hidx : ∀ t r, (idx t r).val = k * t.val + r.val) :
    ∑ t : Fin n, ∑ r : Fin k, f (idx t r) = ∑ i : Fin (n * k), f i := by
  rw [← Equiv.sum_comp finProdFinEquiv f, Fintype.sum_prod_type]
  refine Finset.sum_congr rfl fun t _ => Finset.sum_congr rfl fun r _ => congrArg f (Fin.ext ?_)
  rw [hidx]
  show k * t.val + r.val = r.val + k * t.val
  exact Nat.add_comm _ _

/-- The 2048 positions as 8 tiles of 256. -/
theorem sum_eight_tiles (f : Fin 2048 → M) (idx : Fin 8 → Fin 256 → Fin 2048)
    (hidx : ∀ t r, (idx t r).val = 256 * t.val + r.val) :
    ∑ t : Fin 8, ∑ r : Fin 256, f (idx t r) = ∑ i : Fin 2048, f i :=
  sum_tiles_fin 8 256 f idx hidx

/-- A running total: zero before the first tile, and each step adds that tile's sum to what the step before left. -/
def runAcc (T : ℕ → M) : ℕ → M
  | 0 => 0
  | t + 1 => runAcc T t + T t

theorem runAcc_zero (T : ℕ → M) : runAcc T 0 = 0 := rfl
theorem runAcc_succ (T : ℕ → M) (t : ℕ) : runAcc T (t + 1) = runAcc T t + T t := rfl

/-- After n steps the running total is the sum of the first n tiles' sums. -/
theorem runAcc_eq_sum (T : ℕ → M) (n : ℕ) : runAcc T n = ∑ t ∈ Finset.range n, T t := by
  induction n with
  | zero => simp [runAcc]
  | succ n ih => rw [runAcc_succ, ih, Finset.sum_range_succ]

/-- The same with the tiles indexed by a finite type. -/
theorem runAcc_eq_sum_fin (n : ℕ) (T : ℕ → M) (T' : Fin n → M) (h : ∀ t : Fin n, T t.val = T' t) :
    runAcc T n = ∑ t : Fin n, T' t := by
  rw [runAcc_eq_sum, Finset.sum_range]
  exact Finset.sum_congr rfl fun t _ => h t

/-- Eight tiles of 256 accumulated one after the other from zero, in the nesting the steps produce, are the whole sum
    over the 2048 positions. -/
theorem eight_tiles_nested (f : Fin 2048 → M) (idx : Fin 8 → Fin 256 → Fin 2048)
    (hidx : ∀ t r, (idx t r).val = 256 * t.val + r.val) :
    ((((((((0 : M) + ∑ r : Fin 256, f (idx 0 r)) + ∑ r : Fin 256, f (idx 1 r)) + ∑ r : Fin 256, f (idx 2 r))
        + ∑ r : Fin 256, f (idx 3 r)) + ∑ r : Fin 256, f (idx 4 r)) + ∑ r : Fin 256, f (idx 5 r))
        + ∑ r : Fin 256, f (idx 6 r)) + ∑ r : Fin 256, f (idx 7 r)
      = ∑ i : Fin 2048, f i := by
  rw [← sum_eight_tiles f idx hidx, Fin.sum_univ_eight, zero_add]

/-- The running total over the eight tiles of 256 is the whole sum over the 2048 positions. -/
theorem runAcc_eight_tiles (f : Fin 2048 → M) (T : ℕ → M) (idx : Fin 8 → Fin 256 → Fin 2048)
    (hidx : ∀ t r, (idx t r).val = 256 * t.val + r.val) (hT : ∀ t : Fin 8, T t.val = ∑ r : Fin 256, f (idx t r)) :
    runAcc T 8 = ∑ i : Fin 2048, f i := by
  rw [runAcc_eq_sum_fin 8 T (fun t => ∑ r : Fin 256, f (idx t r)) hT]
  exact sum_eight_tiles f idx hidx

end Cert.Bridge
-- ==== Proof.KI.Blocks1.lean ====
/-
  Region 1 (attention and pooled context) from blocks to arrays, on the extended reals. Grid point t = 8·b + qi is
  batch b, query tile qi: the query window's block is rows 256·qi … 256·qi + 255 of batch b of the queries, the key
  and value windows' blocks are batch b whole, the attention window's block is the same 256 rows of batch b of the
  result, and the context window's block is batch b's one row. So every point writes its 256 rows of attention
  weights, and the running context after tile qi of batch b is the sum over tiles 0 … qi of the attended values of
  their rows; the batch's last tile scales it by 1/2048 and writes the pooled context.
-/
import proofs.«108366_j369367187664_2_alg».proof.Proof.KI.Pieces1
import proofs.«108366_j369367187664_2_alg».proof.Proof.Spec
import proofs.«108366_j369367187664_2_alg».proof.Proof.KernelAttn
import proofs.«108366_j369367187664_2_alg».proof.Proof.LibTileSum
import Idealize.ShloMosaic.Lib.Pipeline.Value

set_option maxRecDepth 16384

noncomputable section

namespace Cert.KernelIdeal.Fr

open Cert.KernelIdeal Cert.KernelIdeal.Gen Cert.Bridge
open Idealize.ShloMosaic Idealize.ShloMosaic.TcCoe Idealize.ShloMosaic.ValueIdx
open Idealize.SL.Sem
open Idealize.ShloMosaic.Pipeline (Dat Cfg Window)
open scoped BigOperators

/-! ## The windows' block indices over the grid -/

/-- Point t is batch t / 8, query tile t % 8: each window's block index at each of the 64 points. -/
theorem idx_facts1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0
    ∧ win1_4.index t (0 : Fin 3) = t.val / 8 ∧ win1_4.index t (1 : Fin 3) = 0 ∧ win1_4.index t (2 : Fin 3) = 0 :=
  (by decide +kernel : ∀ t : Fin grid1.N, _)

theorem lt64 (t : Fin cfg1.N) : t.val < 64 := lt_of_lt_of_eq t.isLt (show cfg1.N = 64 from N_1)

/-- The batch of a point. -/
def batchOf (t : Fin cfg1.N) : Fin 8 := ⟨t.val / 8, by have := lt64 t; omega⟩

/-- Row r of a point's query tile, as a row of the batch. -/
def tileRow (t : Fin cfg1.N) (r : Fin 256) : Fin 2048 := ⟨256 * (t.val % 8) + r.val, by have := r.isLt; omega⟩

section Region1

variable (V : (c : Dev nD) → (b : Ref sig .tc) → Buf (Elt Ideal) ((c : Thread nD τ).loc b))

/-! ## The input blocks read at coordinates -/

/-- The query tile at a point: row r, feature h is the queries at (batch, 256·tile + r, h). -/
theorem iblk1_0_apply (c : Dev nD) (t : Fin cfg1.N) (r : Fin 256) (h : Fin 1024) :
    (iblk1 V c 0 t : Vec Ideal S1x256x1024 .bf16) (ix3 (0 : Fin 1) r h)
      = (V c main_v10_0 : S8x2048x1024.Idx → EReal) (ix3 (batchOf t) (tileRow t r) h) := by
  obtain ⟨e0, e1, e2, -⟩ := idx_facts1 t
  unfold iblk1
  rw [View.read_apply]
  show V c main_v10_0 (((cfg1.win 0).blk t).view.emb (ix3 (0 : Fin 1) r h)) = _
  refine congrArg (V c main_v10_0) (funext fun a => Fin.ext ?_)
  match a with
  | ⟨0, _⟩ => show win1_0.index t (0 : Fin 3) * 1 + 1 * 0 = t.val / 8; omega
  | ⟨1, _⟩ => show win1_0.index t (1 : Fin 3) * 256 + 1 * r.val = 256 * (t.val % 8) + r.val; omega
  | ⟨2, _⟩ => show win1_0.index t (2 : Fin 3) * 1024 + 1 * h.val = h.val; omega

/-- The keys at a point: the point's batch, whole. -/
theorem iblk1_1_apply (c : Dev nD) (t : Fin cfg1.N) (j : Fin 2048) (h : Fin 1024) :
    (iblk1 V c 1 t : Vec Ideal S1x2048x1024 .bf16) (ix3 (0 : Fin 1) j h)
      = (V c main_v10_1 : S8x2048x1024.Idx → EReal) (ix3 (batchOf t) j h) := by
  obtain ⟨-, -, -, e0, e1, e2, -⟩ := idx_facts1 t
  unfold iblk1
  rw [View.read_apply]
  show V c main_v10_1 (((cfg1.win 1).blk t).view.emb (ix3 (0 : Fin 1) j h)) = _
  refine congrArg (V c main_v10_1) (funext fun a => Fin.ext ?_)
  match a with
  | ⟨0, _⟩ => show win1_1.index t (0 : Fin 3) * 1 + 1 * 0 = t.val / 8; omega
  | ⟨1, _⟩ => show win1_1.index t (1 : Fin 3) * 2048 + 1 * j.val = j.val; omega
  | ⟨2, _⟩ => show win1_1.index t (2 : Fin 3) * 1024 + 1 * h.val = h.val; omega

/-- The values at a point: the point's batch, whole. -/
theorem iblk1_2_apply (c : Dev nD) (t : Fin cfg1.N) (j : Fin 2048) (h : Fin 1024) :
    (iblk1 V c 2 t : Vec Ideal S1x2048x1024 .bf16) (ix3 (0 : Fin 1) j h)
      = (V c main_v10_2 : S8x2048x1024.Idx → EReal) (ix3 (batchOf t) j h) := by
  obtain ⟨-, -, -, -, -, -, e0, e1, e2, -⟩ := idx_facts1 t
  unfold iblk1
  rw [View.read_apply]
  show V c main_v10_2 (((cfg1.win 2).blk t).view.emb (ix3 (0 : Fin 1) j h)) = _
  refine congrArg (V c main_v10_2) (funext fun a => Fin.ext ?_)
  match a with
  | ⟨0, _⟩ => show win1_2.index t (0 : Fin 3) * 1 + 1 * 0 = t.val / 8; omega
  | ⟨1, _⟩ => show win1_2.index t (1 : Fin 3) * 2048 + 1 * j.val = j.val; omega
  | ⟨2, _⟩ => show win1_2.index t (2 : Fin 3) * 1024 + 1 * h.val = h.val; omega

end Region1

end Cert.KernelIdeal.Fr

end
-- ==== Proof.KI.Value1.lean ====
/-
  Region 1 from blocks to arrays, on the extended reals: every point writes its 256 rows of attention weights, which
  are the specification's attention of the queries and keys the region found; the running context after tile qi of
  batch b is the running total of the attended values of tiles 0 … qi; the batch's last tile scales the total of the
  eight tiles by 1/2048, which is the pooled context. The output arrays end at these because every index of each is
  in the block of exactly the point named after its batch (and query tile).
-/
import proofs.«108366_j369367187664_2_alg».proof.Proof.KI.Blocks1

set_option maxRecDepth 16384

noncomputable section

namespace Cert.KernelIdeal.Fr

open Cert.KernelIdeal Cert.KernelIdeal.Gen Cert.Bridge
open Idealize.ShloMosaic Idealize.ShloMosaic.TcCoe Idealize.ShloMosaic.ValueIdx
open Idealize.SL.Sem
open Idealize.ShloMosaic.Pipeline (Dat Cfg Window)
open scoped BigOperators

section Region1b

variable (V : (c : Dev nD) → (b : Ref sig .tc) → Buf (Elt Ideal) ((c : Thread nD τ).loc b))

/-! ## What each point leaves, as the tile program's values -/

/-- Every point leaves its tile of attention weights. -/
theorem outs1_attn (c : Dev nD) (t : Fin cfg1.N) :
    (outsAt1 V c t.val t.isLt).1 = k1_pay5 (F := Ideal) (iblk1 V c 0 t) (iblk1 V c 1 t) := by
  by_cases h0 : t.val % 8 = 0
  · have h1 : ¬t.val % 8 = 7 := by omega
    rw [outsAt1_A V c t h0 h1]
    dsimp only
    exact out_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)
  · by_cases h1 : t.val % 8 = 7
    · rw [outsAt1_C V c t h0 h1]
      dsimp only
      exact out_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2
    · rw [outsAt1_B V c t h0 h1]
      dsimp only
      exact out_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2

/-- At a batch's first tile the running context leaves at zero plus the tile's contribution. -/
theorem outs1_acc_first (c : Dev nD) (t : Fin cfg1.N) (h0 : t.val % 8 = 0) :
    (outsAt1 V c t.val t.isLt).2.2 = k1_pay6 (F := Ideal) (iblk1 V c 0 t) (iblk1 V c 1 t) (iblk1 V c 2 t) (k1_pay3 (F := Ideal)) := by
  have h1 : ¬t.val % 8 = 7 := by omega
  rw [outsAt1_A V c t h0 h1]
  dsimp only
  exact (sout_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)).trans (pay_keep _)

/-- At a later tile it leaves at what the tile before left plus the tile's contribution. -/
theorem outs1_acc_next (c : Dev nD) (t : Fin cfg1.N) (h0 : ¬t.val % 8 = 0) :
    (outsAt1 V c t.val t.isLt).2.2 = k1_pay6 (F := Ideal) (iblk1 V c 0 t) (iblk1 V c 1 t) (iblk1 V c 2 t) (outsAt1 V c (t.val - 1) (Nat.lt_of_le_of_lt (Nat.sub_le _ _) t.isLt)).2.2 := by
  by_cases h1 : t.val % 8 = 7
  · rw [outsAt1_C V c t h0 h1]
    dsimp only
    exact (sout_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2).trans (pay_keep _)
  · rw [outsAt1_B V c t h0 h1]
    dsimp only
    exact (sout_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2).trans (pay_keep _)

/-- At a batch's last tile the context block is the running context, scaled. -/
theorem outs1_ctx (c : Dev nD) (t : Fin cfg1.N) (h1 : t.val % 8 = 7) :
    (outsAt1 V c t.val t.isLt).2.1 = k1_pay2 (F := Ideal) (outsAt1 V c t.val t.isLt).2.2 := by
  have h0 : ¬t.val % 8 = 0 := by omega
  rw [outsAt1_C V c t h0 h1]
  dsimp only
  exact (out_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2).trans
    (congrArg (k1_pay2 (F := Ideal)) (sout_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2).symm)

end Region1b

section Region1c

variable (V : (c : Dev nD) → (b : Ref sig .tc) → Buf (Elt Ideal) ((c : Thread nD τ).loc b))
variable (Q Kk Vv : Arr3 8 2048 1024)

/-! ## The attention weights -/

/-- A point's tile of attention weights at row r, key j: the specification's attention at the tile's row of the batch. -/
theorem attn_blk_apply (c : Dev nD) (hQ : (V c main_v10_0 : S8x2048x1024.Idx → EReal) = Q)
    (hK : (V c main_v10_1 : S8x2048x1024.Idx → EReal) = Kk) (t : Fin cfg1.N) (r : Fin 256) (j : Fin 2048) :
    k1_pay5 (F := Ideal) (iblk1 V c 0 t) (iblk1 V c 1 t) (ix3 (0 : Fin 1) r j) = attnAt Q Kk (batchOf t) (tileRow t r) j := by
  refine (pay_attn_apply (iblk1 V c 0 t) (iblk1 V c 1 t) r j).trans ?_
  unfold attnAt rowOf rowsOf
  exact congrArg₂ (fun f g => attnRow f g j)
    (funext fun h => (iblk1_0_apply V c t r h).trans (congrFun hQ _))
    (funext fun j => funext fun h => (iblk1_1_apply V c t j h).trans (congrFun hK _))

/-- What a point writes back of the attention weights is its block of the specification's array. -/
theorem flushed1_3_eq (c : Dev nD) (hQ : (V c main_v10_0 : S8x2048x1024.Idx → EReal) = Q)
    (hK : (V c main_v10_1 : S8x2048x1024.Idx → EReal) = Kk) (t : Fin cfg1.N) :
    (dat1 V c).flushed 3 t = ((cfg1.win 3).blk t).view.read (Elt Ideal) (attnOfQK Q Kk) := by
  obtain ⟨-, -, -, -, -, -, -, -, -, e0, e1, e2, -⟩ := idx_facts1 t
  show (cfg1.win 3).cut (grid1.coords t) ((dat1 V c).after 3 t) = _
  rw [after1_3, outs1_attn]
  funext y
  obtain ⟨u, r, j, rfl⟩ : ∃ (u : Fin 1) (r : Fin 256) (j : Fin 2048), y = ix3 u r j := ⟨y 0, y 1, y 2, eq_ix3 y⟩
  obtain rfl : u = 0 := Subsingleton.elim _ _
  rw [View.read_apply]
  show k1_pay5 (F := Ideal) (iblk1 V c 0 t) (iblk1 V c 1 t) (ix3 (0 : Fin 1) r j)
    = attnOfQK Q Kk (((cfg1.win 3).blk t).view.emb (ix3 (0 : Fin 1) r j))
  refine (attn_blk_apply V Q Kk c hQ hK t r j).trans ?_
  unfold attnOfQK
  refine congr (congr (congrArg (attnAt Q Kk) (Fin.ext ?_)) (Fin.ext ?_)) (Fin.ext ?_)
  · show t.val / 8 = win1_3.index t (0 : Fin 3) * 1 + 1 * 0; omega
  · show 256 * (t.val % 8) + r.val = win1_3.index t (1 : Fin 3) * 256 + 1 * r.val; omega
  · show j.val = win1_3.index t (2 : Fin 3) * 2048 + 1 * j.val; omega

/-- An index of the attention array is in a point's block iff each coordinate is in the block's range. -/
theorem mem_blk1_3 (t : Fin cfg1.N) (i : S8x2048x2048.Idx) :
    i ∈ ((cfg1.win 3).blk t).view.set ↔ ∀ a : Fin 3, win1_3.index t a * S1x256x2048.size a ≤ (i a).val
      ∧ (i a).val < win1_3.index t a * S1x256x2048.size a + S1x256x2048.size a := by
  show i ∈ ((View.whole main_v11_0).slice (win1_3.rect t)).set ↔ _
  rw [View.set_slice_whole, Rect.mem_set_unit]
  exact Iff.rfl

/-- Every index of the attention array is in the block of the point of its batch and query tile. -/
theorem cover1_3 (i : S8x2048x2048.Idx) :
    ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 2048 := (i 2).isLt
  have hN : cfg1.N = 64 := N_1
  refine ⟨⟨8 * (i 0).val + (i 1).val / 256, by rw [hN]; omega⟩, flush1_3 _, ?_⟩
  obtain ⟨-, -, -, -, -, -, -, -, -, e0, e1, e2, -⟩ := idx_facts1 ⟨8 * (i 0).val + (i 1).val / 256, by rw [hN]; omega⟩
  rw [mem_blk1_3]
  intro a
  match a with
  | ⟨0, _⟩ =>
    show win1_3.index _ (0 : Fin 3) * 1 ≤ (i 0).val ∧ (i 0).val < win1_3.index _ (0 : Fin 3) * 1 + 1
    rw [e0]; dsimp only; omega
  | ⟨1, _⟩ =>
    show win1_3.index _ (1 : Fin 3) * 256 ≤ (i 1).val ∧ (i 1).val < win1_3.index _ (1 : Fin 3) * 256 + 256
    rw [e1]; dsimp only; omega
  | ⟨2, _⟩ =>
    show win1_3.index _ (2 : Fin 3) * 2048 ≤ (i 2).val ∧ (i 2).val < win1_3.index _ (2 : Fin 3) * 2048 + 2048
    rw [e2]; omega

/-- The attention array after the region: the specification's attention of the queries and keys the region found. -/
theorem attn_final (c : Dev nD) (hQ : (V c main_v10_0 : S8x2048x1024.Idx → EReal) = Q)
    (hK : (V c main_v10_1 : S8x2048x1024.Idx → EReal) = Kk) :
    (dat1 V c).arrAt 3 cfg1.N = attnOfQK Q Kk :=
  (dat1 V c).arrAt_eq_of_cover 3 (attnOfQK Q Kk) (fun t _ => flushed1_3_eq V Q Kk c hQ hK t) cover1_3

/-! ## The running context -/

/-- The attended values of tile j of batch b, summed over the tile's 256 rows (zero past the eighth tile). -/
def tileOut (b : Fin 8) (h : Fin 1024) (j : ℕ) : EReal :=
  if hj : j < 8 then ∑ r : Fin 256, outAt Q Kk Vv b ⟨256 * j + r.val, by have := r.isLt; omega⟩ h else 0

/-- The attended values are a congruence in the rows they are computed from. -/
theorem outRow_congr {f f' : Fin 1024 → EReal} {g g' k k' : Fin 2048 → Fin 1024 → EReal} (hf : f = f') (hg : g = g')
    (hk : k = k') (h : Fin 1024) : outRow (attnRow f g) k h = outRow (attnRow f' g') k' h := by
  subst hf hg hk; rfl

/-- One step at a point: the running context grows by the attended values of the point's 256 rows. -/
theorem acc_tile (c : Dev nD) (hQ : (V c main_v10_0 : S8x2048x1024.Idx → EReal) = Q)
    (hK : (V c main_v10_1 : S8x2048x1024.Idx → EReal) = Kk) (hV : (V c main_v10_2 : S8x2048x1024.Idx → EReal) = Vv)
    (t : Fin cfg1.N) (xs : Vec Ideal S1x1024 .f32) (h : Fin 1024) :
    k1_pay6 (F := Ideal) (iblk1 V c 0 t) (iblk1 V c 1 t) (iblk1 V c 2 t) xs (ix2 (0 : Fin 1) h)
      = xs (ix2 (0 : Fin 1) h) + tileOut Q Kk Vv (batchOf t) h (t.val % 8) := by
  refine (pay_acc_apply (iblk1 V c 0 t) (iblk1 V c 1 t) (iblk1 V c 2 t) xs h).trans ?_
  unfold tileOut
  rw [dif_pos (Nat.mod_lt _ (by decide))]
  refine congrArg (xs (ix2 (0 : Fin 1) h) + ·) (Finset.sum_congr rfl fun r _ => ?_)
  show _ = outAt Q Kk Vv (batchOf t) (tileRow t r) h
  unfold outAt rowOf rowsOf
  exact outRow_congr
    (funext fun h => (iblk1_0_apply V c t r h).trans (congrFun hQ _))
    (funext fun j => funext fun h => (iblk1_1_apply V c t j h).trans (congrFun hK _))
    (funext fun j => funext fun h => (iblk1_2_apply V c t j h).trans (congrFun hV _)) h

/-- At a batch's first tile the running context is the first tile's contribution. -/
theorem acc_first (c : Dev nD) (hQ : (V c main_v10_0 : S8x2048x1024.Idx → EReal) = Q)
    (hK : (V c main_v10_1 : S8x2048x1024.Idx → EReal) = Kk) (hV : (V c main_v10_2 : S8x2048x1024.Idx → EReal) = Vv)
    (t : Fin cfg1.N) (h0 : t.val % 8 = 0) (h : Fin 1024) :
    (outsAt1 V c t.val t.isLt).2.2 (ix2 (0 : Fin 1) h) = runAcc (tileOut Q Kk Vv (batchOf t) h) (t.val % 8 + 1) := by
  rw [outs1_acc_first V c t h0, acc_tile V Q Kk Vv c hQ hK hV t _ h, pay_zero_apply, runAcc_succ]
  refine congrArg (· + tileOut Q Kk Vv (batchOf t) h (t.val % 8)) ?_
  rw [h0]; rfl

/-- At a later tile it is what the tile before left plus this tile's contribution. -/
theorem acc_next (c : Dev nD) (hQ : (V c main_v10_0 : S8x2048x1024.Idx → EReal) = Q)
    (hK : (V c main_v10_1 : S8x2048x1024.Idx → EReal) = Kk) (hV : (V c main_v10_2 : S8x2048x1024.Idx → EReal) = Vv)
    (t : Fin cfg1.N) (h0 : ¬t.val % 8 = 0) (h : Fin 1024)
    (ih : (outsAt1 V c (t.val - 1) (Nat.lt_of_le_of_lt (Nat.sub_le _ _) t.isLt)).2.2 (ix2 (0 : Fin 1) h)
      = runAcc (tileOut Q Kk Vv (batchOf t) h) (t.val % 8)) :
    (outsAt1 V c t.val t.isLt).2.2 (ix2 (0 : Fin 1) h) = runAcc (tileOut Q Kk Vv (batchOf t) h) (t.val % 8 + 1) := by
  rw [outs1_acc_next V c t h0, acc_tile V Q Kk Vv c hQ hK hV t _ h, ih, runAcc_succ]

/-- After tile qi of batch b the running context is the running total of the batch's tiles 0 … qi. -/
theorem acc_inv (c : Dev nD) (hQ : (V c main_v10_0 : S8x2048x1024.Idx → EReal) = Q)
    (hK : (V c main_v10_1 : S8x2048x1024.Idx → EReal) = Kk) (hV : (V c main_v10_2 : S8x2048x1024.Idx → EReal) = Vv)
    (h : Fin 1024) : ∀ (n : ℕ) (hn : n < cfg1.N),
      (outsAt1 V c n hn).2.2 (ix2 (0 : Fin 1) h) = runAcc (tileOut Q Kk Vv (batchOf ⟨n, hn⟩) h) (n % 8 + 1)
  | 0, hn => acc_first V Q Kk Vv c hQ hK hV ⟨0, hn⟩ (Nat.zero_mod 8) h
  | n + 1, hn => by
    by_cases h0 : (n + 1) % 8 = 0
    · exact acc_first V Q Kk Vv c hQ hK hV ⟨n + 1, hn⟩ h0 h
    · refine acc_next V Q Kk Vv c hQ hK hV ⟨n + 1, hn⟩ h0 h ?_
      show (outsAt1 V c n _).2.2 (ix2 (0 : Fin 1) h) = runAcc (tileOut Q Kk Vv (batchOf ⟨n + 1, hn⟩) h) ((n + 1) % 8)
      have eb : batchOf ⟨n, Nat.lt_of_succ_lt hn⟩ = batchOf ⟨n + 1, hn⟩ := Fin.ext (by show n / 8 = (n + 1) / 8; omega)
      have eq : n % 8 + 1 = (n + 1) % 8 := by omega
      rw [acc_inv c hQ hK hV h n (Nat.lt_of_succ_lt hn), eb, eq]

/-! ## The pooled context -/

/-- The pooled context as an array [8, 1, 1024]. -/
def ctxArr : Arr3 8 1 1024 := fun i => ctxAt Q Kk Vv (i 0) (i 2)

/-- At a batch's last tile the context block is the batch's pooled context. -/
theorem ctx_blk_apply (c : Dev nD) (hQ : (V c main_v10_0 : S8x2048x1024.Idx → EReal) = Q)
    (hK : (V c main_v10_1 : S8x2048x1024.Idx → EReal) = Kk) (hV : (V c main_v10_2 : S8x2048x1024.Idx → EReal) = Vv)
    (t : Fin cfg1.N) (h1 : t.val % 8 = 7) (h : Fin 1024) :
    (outsAt1 V c t.val t.isLt).2.1 (ix3 (0 : Fin 1) (0 : Fin 1) h) = ctxAt Q Kk Vv (batchOf t) h := by
  rw [outs1_ctx V c t h1]
  refine (pay_ctx_apply _ h).trans ?_
  rw [acc_inv V Q Kk Vv c hQ hK hV h t.val t.isLt, h1]
  unfold ctxAt
  refine congrArg (· * invS) ?_
  exact runAcc_eight_tiles (fun i => outAt Q Kk Vv (batchOf t) i h) _
    (fun j r => ⟨256 * j.val + r.val, by have := j.isLt; have := r.isLt; omega⟩) (fun _ _ => rfl)
    (fun j => by unfold tileOut; rw [dif_pos j.isLt])

/-- What a batch's last point writes back of the context is its block of the specification's array. -/
theorem flushed1_4_eq (c : Dev nD) (hQ : (V c main_v10_0 : S8x2048x1024.Idx → EReal) = Q)
    (hK : (V c main_v10_1 : S8x2048x1024.Idx → EReal) = Kk) (hV : (V c main_v10_2 : S8x2048x1024.Idx → EReal) = Vv)
    (t : Fin cfg1.N) (hf : (cfg1.win 4).flush t = true) :
    (dat1 V c).flushed 4 t = ((cfg1.win 4).blk t).view.read (Elt Ideal) (ctxArr Q Kk Vv) := by
  have h1 : t.val % 8 = 7 := (flush1_4 t).mp hf
  obtain ⟨-, -, -, -, -, -, -, -, -, -, -, -, e0, e1, e2⟩ := idx_facts1 t
  show (cfg1.win 4).cut (grid1.coords t) ((dat1 V c).after 4 t) = _
  rw [after1_4]
  funext y
  obtain ⟨u, u', h, rfl⟩ : ∃ (u u' : Fin 1) (h : Fin 1024), y = ix3 u u' h := ⟨y 0, y 1, y 2, eq_ix3 y⟩
  obtain rfl : u = 0 := Subsingleton.elim _ _
  obtain rfl : u' = 0 := Subsingleton.elim _ _
  rw [View.read_apply]
  show (outsAt1 V c t.val t.isLt).2.1 (ix3 (0 : Fin 1) (0 : Fin 1) h)
    = ctxArr Q Kk Vv (((cfg1.win 4).blk t).view.emb (ix3 (0 : Fin 1) (0 : Fin 1) h))
  rw [ctx_blk_apply V Q Kk Vv c hQ hK hV t h1 h]
  unfold ctxArr
  refine congr (congrArg (ctxAt Q Kk Vv) (Fin.ext ?_)) (Fin.ext ?_)
  · show t.val / 8 = win1_4.index t (0 : Fin 3) * 1 + 1 * 0; omega
  · show h.val = win1_4.index t (2 : Fin 3) * 1024 + 1 * h.val; omega

/-- An index of the context array is in a point's block iff each coordinate is in the block's range. -/
theorem mem_blk1_4 (t : Fin cfg1.N) (i : S8x1x1024.Idx) :
    i ∈ ((cfg1.win 4).blk t).view.set ↔ ∀ a : Fin 3, win1_4.index t a * S1x1x1024.size a ≤ (i a).val
      ∧ (i a).val < win1_4.index t a * S1x1x1024.size a + S1x1x1024.size a := by
  show i ∈ ((View.whole main_v11_1).slice (win1_4.rect t)).set ↔ _
  rw [View.set_slice_whole, Rect.mem_set_unit]
  exact Iff.rfl

/-- Every index of the context array is in the block of its batch's last point. -/
theorem cover1_4 (i : S8x1x1024.Idx) :
    ∃ t : Fin cfg1.N, (cfg1.win 4).flush t = true ∧ i ∈ ((cfg1.win 4).blk t).view.set := by
  have h0 : (i 0).val < 8 := (i 0).isLt
  have h1 : (i 1).val < 1 := (i 1).isLt
  have h2 : (i 2).val < 1024 := (i 2).isLt
  have hN : cfg1.N = 64 := N_1
  refine ⟨⟨8 * (i 0).val + 7, by rw [hN]; omega⟩, (flush1_4 _).mpr (by dsimp only; omega), ?_⟩
  obtain ⟨-, -, -, -, -, -, -, -, -, -, -, -, e0, e1, e2⟩ := idx_facts1 ⟨8 * (i 0).val + 7, by rw [hN]; omega⟩
  rw [mem_blk1_4]
  intro a
  match a with
  | ⟨0, _⟩ =>
    show win1_4.index _ (0 : Fin 3) * 1 ≤ (i 0).val ∧ (i 0).val < win1_4.index _ (0 : Fin 3) * 1 + 1
    rw [e0]; dsimp only; omega
  | ⟨1, _⟩ =>
    show win1_4.index _ (1 : Fin 3) * 1 ≤ (i 1).val ∧ (i 1).val < win1_4.index _ (1 : Fin 3) * 1 + 1
    rw [e1]; omega
  | ⟨2, _⟩ =>
    show win1_4.index _ (2 : Fin 3) * 1024 ≤ (i 2).val ∧ (i 2).val < win1_4.index _ (2 : Fin 3) * 1024 + 1024
    rw [e2]; omega

/-- The context array after the region: the specification's pooled context of the queries, keys and values the region found. -/
theorem ctx_final (c : Dev nD) (hQ : (V c main_v10_0 : S8x2048x1024.Idx → EReal) = Q)
    (hK : (V c main_v10_1 : S8x2048x1024.Idx → EReal) = Kk) (hV : (V c main_v10_2 : S8x2048x1024.Idx → EReal) = Vv) :
    (dat1 V c).arrAt 4 cfg1.N = ctxArr Q Kk Vv :=
  (dat1 V c).arrAt_eq_of_cover 4 (ctxArr Q Kk Vv) (fun t hf => flushed1_4_eq V Q Kk Vv c hQ hK hV t hf) cover1_4

/-- The closing reshape [8, 1, 1024] → [8, 1024] of the context array: the specification's pooled context. -/
theorem ctx_reshaped (c : Dev nD) (hQ : (V c main_v10_0 : S8x2048x1024.Idx → EReal) = Q)
    (hK : (V c main_v10_1 : S8x2048x1024.Idx → EReal) = Kk) (hV : (V c main_v10_2 : S8x2048x1024.Idx → EReal) = Vv) :
    shapeCast S8x1024 ((dat1 V c).arrAt 4 cfg1.N) shapeCasts_S8x1x1024_S8x1024 = ctxOfQKV Q Kk Vv := by
  rw [ctx_final V Q Kk Vv c hQ hK hV]
  funext i
  obtain ⟨b, h, rfl⟩ : ∃ (b : Fin 8) (h : Fin 1024), i = ix2 b h := ⟨i 0, i 1, eq_ix2 i⟩
  refine (shapeCast_apply (ctxArr Q Kk Vv) shapeCasts_S8x1x1024_S8x1024 (ix2 b h) (ix3 b (0 : Fin 1) h) ?_).trans rfl
  rw [Shape.rowMajor_val_three, Shape.rowMajor_val_two]
  show (b.val * 1 + 0) * 1024 + h.val = b.val * 1024 + h.val
  omega

end Region1c

end Cert.KernelIdeal.Fr

end
-- ==== Proof.KI.Results.lean ====
/-
  The two results of the idealized kernel as functions of its nine arguments: the attention array is the row-wise softmax of
  the scaled scores of the projected queries against the projected keys, and the context array the mean over the 2048 query
  rows of the attention-weighted projected values — each region's write-backs composed with the host operations around them.
-/
import proofs.«108366_j369367187664_2_alg».proof.Proof.KI.HostRead
import proofs.«108366_j369367187664_2_alg».proof.Proof.KI.Value1

noncomputable section

namespace Cert.KernelIdeal.Fr

open Cert.KernelIdeal Cert.KernelIdeal.Gen Cert.Bridge
open Idealize.ShloMosaic Idealize.ShloMosaic.TcCoe Idealize.SL.Sem

variable (m : (ℓ : Loc nD τ sig) → Buf (Elt Ideal) ℓ)

/-- The attention array after the run. -/
theorem attn_result (c : Dev nD) : W4 m c (Proc.devRef .tc main_v11_0)
    = attnOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W4_main_v11_0]
  exact attn_final (V2 m) _ _ c ((V2_main_v10_0 m c).trans (q_V1 m c)) ((V2_main_v10_1 m c).trans (k_V1 m c))

/-- The context array after the run. -/
theorem ctx_result (c : Dev nD) : W4 m c (Proc.devRef .tc main_v12)
    = ctxOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W4_main_v12]
  exact ctx_reshaped (V2 m) _ _ _ c ((V2_main_v10_0 m c).trans (q_V1 m c)) ((V2_main_v10_1 m c).trans (k_V1 m c))
    ((V2_main_v10_2 m c).trans (v_V1 m c))

end Cert.KernelIdeal.Fr

end
-- ==== Proof.RefQKV.lean ====
/-
  The untiled program's queries, keys and values are the specification's: read index by index, the input plus
  the broadcast positional term, contracted against the weights' second axis, plus the broadcast bias, is the
  linear layer of the specification; the transposed column of scalars times the flattened weight column plus the
  bias is the one-feature linear layer.
-/
import proofs.«108366_j369367187664_2_alg».proof.Proof.Gen.ReferenceIdeal.Read
import proofs.«108366_j369367187664_2_alg».proof.Proof.Spec

noncomputable section

namespace Cert.Bridge

open Idealize.ShloMosaic Idealize.ShloMosaic.ValueIdx Cert.ReferenceIdeal Cert.ReferenceIdeal.Read
open scoped BigOperators

/-! ## Index equations: the composed index maps at coordinates -/

theorem idx_v0_ix (b : Fin 8) (s : Fin 2048) (h : Fin 1024) : idx_main_v0 (ix3 b s h) = ix3 (0 : Fin 1) s h :=
  funext fun a => Fin.ext (by match a with | ⟨0, _⟩ => rfl | ⟨1, _⟩ => rfl | ⟨2, _⟩ => rfl)
theorem lidx_v2_ix (b : Fin 8) (s : Fin 2048) (o h : Fin 1024) : lidx_main_v2 (ix3 b s o) h = ix3 b s h :=
  funext fun a => Fin.ext (by match a with | ⟨0, _⟩ => rfl | ⟨1, _⟩ => rfl | ⟨2, _⟩ => rfl)
theorem ridx_v2_ix (b : Fin 8) (s : Fin 2048) (o h : Fin 1024) : ridx_main_v2 (ix3 b s o) h = ix2 o h :=
  funext fun a => Fin.ext (by match a with | ⟨0, _⟩ => rfl | ⟨1, _⟩ => rfl)
theorem idx_v3_v4_ix (b : Fin 8) (s : Fin 2048) (o : Fin 1024) : idx_main_v3 (idx_main_v4 (ix3 b s o)) = ix1 o :=
  funext fun a => Fin.ext (by match a with | ⟨0, _⟩ => rfl)
theorem lidx_v15_ix (b : Fin 8) (s : Fin 2048) (o h : Fin 1024) : lidx_main_v15 (ix3 b s o) h = ix3 b s h :=
  funext fun a => Fin.ext (by match a with | ⟨0, _⟩ => rfl | ⟨1, _⟩ => rfl | ⟨2, _⟩ => rfl)
theorem ridx_v15_ix (b : Fin 8) (s : Fin 2048) (o h : Fin 1024) : ridx_main_v15 (ix3 b s o) h = ix2 o h :=
  funext fun a => Fin.ext (by match a with | ⟨0, _⟩ => rfl | ⟨1, _⟩ => rfl)
theorem idx_v16_v17_ix (b : Fin 8) (s : Fin 2048) (o : Fin 1024) : idx_main_v16 (idx_main_v17 (ix3 b s o)) = ix1 o :=
  funext fun a => Fin.ext (by match a with | ⟨0, _⟩ => rfl)
theorem idx_v6_v9_ix (b : Fin 8) (s : Fin 2048) (h : Fin 1024) :
    idx_main_v6 (idx_main_v9 (ix3 b s h)) = ix3 b (0 : Fin 1) s :=
  funext fun a => Fin.ext (by match a with | ⟨0, _⟩ => rfl | ⟨1, _⟩ => rfl | ⟨2, _⟩ => rfl)
theorem idx_v7_v8_v10_ix (b : Fin 8) (s : Fin 2048) (h : Fin 1024) :
    idx_main_v7 (idx_main_v8 (idx_main_v10 (ix3 b s h))) = ix2 h (0 : Fin 1) :=
  funext fun a => Fin.ext (by
    match a with
    | ⟨0, _⟩ => exact Nat.div_one _
    | ⟨1, _⟩ => rfl)
theorem idx_v12_v13_ix (b : Fin 8) (s : Fin 2048) (h : Fin 1024) : idx_main_v12 (idx_main_v13 (ix3 b s h)) = ix1 h :=
  funext fun a => Fin.ext (by match a with | ⟨0, _⟩ => rfl)

/-! ## The three arrays -/

/-- The input with the positional term, at coordinates. -/
theorem ref_x_apply (x0 : (⟨S8x2048x1024, .f32⟩ : BufTy).Contents (Elt Ideal)) (x2 : (⟨S1x2048x1024, .f32⟩ : BufTy).Contents (Elt Ideal))
    (b : Fin 8) (s : Fin 2048) (h : Fin 1024) :
    val_main_v1 (F := Ideal) x0 x2 (ix3 b s h) = xAt x0 x2 b s h := by
  rw [val_main_v1_apply, val_main_v0_apply, idx_v0_ix]
  rfl

/-- The queries. -/
theorem ref_q (x0 : (⟨S8x2048x1024, .f32⟩ : BufTy).Contents (Elt Ideal)) (x2 : (⟨S1x2048x1024, .f32⟩ : BufTy).Contents (Elt Ideal))
    (x3 : (⟨S1024x1024, .f32⟩ : BufTy).Contents (Elt Ideal)) (x4 : (⟨S1024, .f32⟩ : BufTy).Contents (Elt Ideal)) :
    val_main_v5 (F := Ideal) x0 x2 x3 x4 = qOf x0 x2 x3 x4 := by
  funext i
  obtain ⟨b, s, o, rfl⟩ : ∃ (b : Fin 8) (s : Fin 2048) (o : Fin 1024), i = ix3 b s o := ⟨i 0, i 1, i 2, eq_ix3 i⟩
  rw [val_main_v5_apply, val_main_v2_apply, val_main_v4_apply, val_main_v3_apply, idx_v3_v4_ix]
  show (∑ k : Fin 1024, val_main_v1 (F := Ideal) x0 x2 (lidx_main_v2 (ix3 b s o) k) * x3 (ridx_main_v2 (ix3 b s o) k)) + x4 (ix1 o)
    = projRow (xAt x0 x2 b s) (fun o h => x3 (ix2 o h)) (fun o => x4 (ix1 o)) o
  unfold projRow
  refine congrArg (· + x4 (ix1 o)) (Finset.sum_congr rfl fun h _ => ?_)
  rw [lidx_v2_ix, ridx_v2_ix, ref_x_apply]

/-- The values. -/
theorem ref_v (x0 : (⟨S8x2048x1024, .f32⟩ : BufTy).Contents (Elt Ideal)) (x2 : (⟨S1x2048x1024, .f32⟩ : BufTy).Contents (Elt Ideal))
    (x7 : (⟨S1024x1024, .f32⟩ : BufTy).Contents (Elt Ideal)) (x8 : (⟨S1024, .f32⟩ : BufTy).Contents (Elt Ideal)) :
    val_main_v18 (F := Ideal) x0 x2 x7 x8 = vOf x0 x2 x7 x8 := by
  funext i
  obtain ⟨b, s, o, rfl⟩ : ∃ (b : Fin 8) (s : Fin 2048) (o : Fin 1024), i = ix3 b s o := ⟨i 0, i 1, i 2, eq_ix3 i⟩
  rw [val_main_v18_apply, val_main_v15_apply, val_main_v17_apply, val_main_v16_apply, idx_v16_v17_ix]
  show (∑ k : Fin 1024, val_main_v1 (F := Ideal) x0 x2 (lidx_main_v15 (ix3 b s o) k) * x7 (ridx_main_v15 (ix3 b s o) k)) + x8 (ix1 o)
    = projRow (xAt x0 x2 b s) (fun o h => x7 (ix2 o h)) (fun o => x8 (ix1 o)) o
  unfold projRow
  refine congrArg (· + x8 (ix1 o)) (Finset.sum_congr rfl fun h _ => ?_)
  rw [lidx_v15_ix, ridx_v15_ix, ref_x_apply]

/-- The keys. -/
theorem ref_k (x1 : (⟨S8x1x2048, .f32⟩ : BufTy).Contents (Elt Ideal)) (x5 : (⟨S1024x1, .f32⟩ : BufTy).Contents (Elt Ideal))
    (x6 : (⟨S1024, .f32⟩ : BufTy).Contents (Elt Ideal)) :
    val_main_v14 (F := Ideal) x1 x5 x6 = kOf x1 x5 x6 := by
  funext i
  obtain ⟨b, s, h, rfl⟩ : ∃ (b : Fin 8) (s : Fin 2048) (h : Fin 1024), i = ix3 b s h := ⟨i 0, i 1, i 2, eq_ix3 i⟩
  rw [val_main_v14_apply, val_main_v11_apply, val_main_v9_apply, val_main_v6_apply, val_main_v10_apply, val_main_v8_apply,
    val_main_v7_apply, val_main_v13_apply, val_main_v12_apply, idx_v6_v9_ix, idx_v7_v8_v10_ix, idx_v12_v13_ix]
  rfl

end Cert.Bridge

end
-- ==== Proof.RefAttn.lean ====
/-
  The untiled program's attention weights and pooled context are the specification's. Its scores are the batched
  contraction of queries against keys over the 1024 features, divided by the square root of 1024, which is the
  product with 1/32 on every extended real; its row maximum is the fold of max from -∞ over the 2048 keys, and
  the extra maximum with -∞ changes nothing; the row sum starts from 0; the context divides the sum over the
  2048 query rows by 2048, which is the product with 1/2048.
-/
import proofs.«108366_j369367187664_2_alg».proof.Proof.RefQKV
import proofs.«108366_j369367187664_2_alg».proof.Proof.Consts

noncomputable section

namespace Cert.Bridge

open Idealize.ShloMosaic Idealize.ShloMosaic.ValueIdx Cert.ReferenceIdeal Cert.ReferenceIdeal.Gen Cert.ReferenceIdeal.Read
open scoped BigOperators

/-! ## Index equations -/

theorem lidx_v19_ix (b : Fin 8) (i j : Fin 2048) (h : Fin 1024) : lidx_main_v19 (ix3 b i j) h = ix3 b i h :=
  funext fun a => Fin.ext (by match a with | ⟨0, _⟩ => rfl | ⟨1, _⟩ => rfl | ⟨2, _⟩ => rfl)
theorem ridx_v19_ix (b : Fin 8) (i j : Fin 2048) (h : Fin 1024) : ridx_main_v19 (ix3 b i j) h = ix3 b j h :=
  funext fun a => Fin.ext (by match a with | ⟨0, _⟩ => rfl | ⟨1, _⟩ => rfl | ⟨2, _⟩ => rfl)
theorem idx_v26_v27_ix (b : Fin 8) (i j : Fin 2048) : idx_main_v26 (idx_main_v27 (ix3 b i j)) = ix2 b i :=
  funext fun a => Fin.ext (by match a with | ⟨0, _⟩ => rfl | ⟨1, _⟩ => rfl)
theorem idx_v30_ix (b : Fin 8) (i k : Fin 2048) : idx_main_v30 (ix2 b i) k = ix3 b i k :=
  funext fun a => Fin.ext (by match a with | ⟨0, _⟩ => rfl | ⟨1, _⟩ => rfl | ⟨2, _⟩ => rfl)
theorem idx_v31_v32_ix (b : Fin 8) (i j : Fin 2048) : idx_main_v31 (idx_main_v32 (ix3 b i j)) = ix2 b i :=
  funext fun a => Fin.ext (by match a with | ⟨0, _⟩ => rfl | ⟨1, _⟩ => rfl)
theorem lidx_v34_ix (b : Fin 8) (i : Fin 2048) (h : Fin 1024) (k : Fin 2048) : lidx_main_v34 (ix3 b i h) k = ix3 b i k :=
  funext fun a => Fin.ext (by match a with | ⟨0, _⟩ => rfl | ⟨1, _⟩ => rfl | ⟨2, _⟩ => rfl)
theorem ridx_v34_ix (b : Fin 8) (i : Fin 2048) (h : Fin 1024) (k : Fin 2048) : ridx_main_v34 (ix3 b i h) k = ix3 b k h :=
  funext fun a => Fin.ext (by match a with | ⟨0, _⟩ => rfl | ⟨1, _⟩ => rfl | ⟨2, _⟩ => rfl)
theorem idx_v35_ix (b : Fin 8) (h : Fin 1024) (k : Fin 2048) : idx_main_v35 (ix2 b h) k = ix3 b k h :=
  funext fun a => Fin.ext (by match a with | ⟨0, _⟩ => rfl | ⟨1, _⟩ => rfl | ⟨2, _⟩ => rfl)

/-! ## The maximum over the keys, for any array of scores -/

/-- The reduced index (b, i) with key j put back on the last axis is (b, i, j). -/
theorem lift_keys (h : S8x2048x2048.Reduces [2] S8x2048) (b : Fin 8) (i : Fin 2048) (k : Fin (S8x2048x2048.size 2)) :
    h.lift (ix2 b i) k = ix3 b i (⟨k.val, k.isLt⟩ : Fin 2048) := by
  funext c; apply Fin.ext
  fin_cases c <;> rfl

/-- A max-reduction over the keys whose initial value is -∞ is, at (b, i), the fold of max from -∞ over row (b, i). -/
theorem hostMax_keys (y : FVec Ideal S8x2048x2048 .f32) (init : FVec Ideal S_ .f32)
    (hinit : init (Shape.Idx.first h_S_) = ⊥) (b : Fin 8) (i : Fin 2048) :
    Host.reduce FloatOps.maximumf y init reducesTo_S8x2048x2048_S8x2048_d2 h_S_ (ix2 b i)
      = (Finset.univ : Finset (Fin 2048)).fold max ⊥ (fun j => y (ix3 b i j)) := by
  have h : S8x2048x2048.Reduces [2] S8x2048 := by decide
  rw [Host.reduce_eq_fold_single FloatOps.maximumf y init reducesTo_S8x2048x2048_S8x2048_d2 h h_S_, hinit]
  exact congrArg (fun f => Finset.fold max (⊥ : EReal) f (Finset.univ : Finset (Fin 2048)))
    (funext fun k => congrArg y (lift_keys h b i k))

section
variable (x0 : (⟨S8x2048x1024, .f32⟩ : BufTy).Contents (Elt Ideal)) (x1 : (⟨S8x1x2048, .f32⟩ : BufTy).Contents (Elt Ideal))
  (x2 : (⟨S1x2048x1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1, .f32⟩ : BufTy).Contents (Elt Ideal))
  (x6 : (⟨S1024, .f32⟩ : BufTy).Contents (Elt Ideal)) (x7 : (⟨S1024x1024, .f32⟩ : BufTy).Contents (Elt Ideal))
  (x8 : (⟨S1024, .f32⟩ : BufTy).Contents (Elt Ideal))

/-- The scaled scores. -/
theorem ref_score (b : Fin 8) (i j : Fin 2048) :
    val_main_v22 (F := Ideal) x0 x1 x2 x3 x4 x5 x6 (ix3 b i j)
      = scoreRow (rowOf (qOf x0 x2 x3 x4) b i) (rowsOf (kOf x1 x5 x6) b) j := by
  rw [val_main_v22_apply, val_main_v19_apply, val_main_v21_apply, val_main_v20_apply, val_main_cst_apply, ref_q, ref_k,
    Ideal.hostDivf_def, Ideal.hostUnary_sqrt_def, Ideal.ofBits_def, div_sqrt_1024]
  unfold scoreRow rowOf rowsOf
  refine congrArg (· * invSqrtH) (Finset.sum_congr rfl fun h _ => ?_)
  rw [lidx_v19_ix, ridx_v19_ix]

/-- The row maximum. -/
theorem ref_rowmax (b : Fin 8) (i : Fin 2048) :
    val_main_v25 (F := Ideal) x0 x1 x2 x3 x4 x5 x6 (ix2 b i)
      = rowMax (scoreRow (rowOf (qOf x0 x2 x3 x4) b i) (rowsOf (kOf x1 x5 x6) b)) := by
  rw [val_main_v25_apply, val_main_v24_apply, val_main_cst_1_apply]
  unfold val_main_v23
  rw [hostMax_keys _ _ ((val_main_cst_0_apply (F := Ideal) _).trans ofBits_neg_inf), Ideal.maximumf_def, Ideal.ofBits_def,
    ofBits_neg_inf, max_bot_left]
  unfold rowMax
  exact congrArg (fun f => Finset.fold max (⊥ : EReal) f (Finset.univ : Finset (Fin 2048)))
    (funext fun j => ref_score x0 x1 x2 x3 x4 x5 x6 b i j)

/-- The shifted exponentials. -/
theorem ref_exp (b : Fin 8) (i j : Fin 2048) :
    val_main_v29 (F := Ideal) x0 x1 x2 x3 x4 x5 x6 (ix3 b i j)
      = expRow (scoreRow (rowOf (qOf x0 x2 x3 x4) b i) (rowsOf (kOf x1 x5 x6) b)) j := by
  rw [val_main_v29_apply, val_main_v28_apply, val_main_v27_apply, val_main_v26_apply, idx_v26_v27_ix, ref_score, ref_rowmax]
  rfl

/-- The row sums of the exponentials. -/
theorem ref_rowsum (b : Fin 8) (i : Fin 2048) :
    val_main_v30 (F := Ideal) x0 x1 x2 x3 x4 x5 x6 (ix2 b i)
      = ∑ j : Fin 2048, expRow (scoreRow (rowOf (qOf x0 x2 x3 x4) b i) (rowsOf (kOf x1 x5 x6) b)) j := by
  rw [val_main_v30_apply, val_main_cst_2_apply, Ideal.ofBits_def, ofBits_zero, zero_add]
  refine Finset.sum_congr rfl fun j _ => ?_
  rw [idx_v30_ix, ref_exp]

/-- The attention weights, at coordinates. -/
theorem ref_attn_apply (b : Fin 8) (i j : Fin 2048) :
    val_main_v33 (F := Ideal) x0 x1 x2 x3 x4 x5 x6 (ix3 b i j) = attnAt (qOf x0 x2 x3 x4) (kOf x1 x5 x6) b i j := by
  rw [val_main_v33_apply, val_main_v32_apply, val_main_v31_apply, idx_v31_v32_ix, ref_exp, ref_rowsum]
  rfl

/-- The attention weights are the specification's. -/
theorem ref_attn : val_main_v33 (F := Ideal) x0 x1 x2 x3 x4 x5 x6 = attnOf x0 x1 x2 x3 x4 x5 x6 := by
  funext idx
  obtain ⟨b, i, j, rfl⟩ : ∃ (b : Fin 8) (i j : Fin 2048), idx = ix3 b i j := ⟨idx 0, idx 1, idx 2, eq_ix3 idx⟩
  exact ref_attn_apply x0 x1 x2 x3 x4 x5 x6 b i j

/-- The attended values. -/
theorem ref_out (b : Fin 8) (i : Fin 2048) (h : Fin 1024) :
    val_main_v34 (F := Ideal) x0 x1 x2 x3 x4 x5 x6 x7 x8 (ix3 b i h)
      = outAt (qOf x0 x2 x3 x4) (kOf x1 x5 x6) (vOf x0 x2 x7 x8) b i h := by
  rw [val_main_v34_apply, ref_v]
  unfold outAt outRow
  refine Finset.sum_congr rfl fun k _ => ?_
  rw [lidx_v34_ix, ridx_v34_ix, ref_attn_apply]
  rfl

/-- The pooled context, at coordinates. -/
theorem ref_ctx_apply (b : Fin 8) (h : Fin 1024) :
    val_main_v37 (F := Ideal) x0 x1 x2 x3 x4 x5 x6 x7 x8 (ix2 b h)
      = ctxAt (qOf x0 x2 x3 x4) (kOf x1 x5 x6) (vOf x0 x2 x7 x8) b h := by
  rw [val_main_v37_apply, val_main_v36_apply, val_main_cst_4_apply, val_main_v35_apply, val_main_cst_3_apply,
    Ideal.hostDivf_def, Ideal.ofBits_def, Ideal.ofBits_def, ofBits_zero, zero_add, div_2048]
  unfold ctxAt
  refine congrArg (· * invS) (Finset.sum_congr rfl fun k _ => ?_)
  rw [idx_v35_ix, ref_out]

/-- The pooled context is the specification's. -/
theorem ref_ctx : val_main_v37 (F := Ideal) x0 x1 x2 x3 x4 x5 x6 x7 x8 = ctxOf x0 x1 x2 x3 x4 x5 x6 x7 x8 := by
  funext idx
  obtain ⟨b, h, rfl⟩ : ∃ (b : Fin 8) (h : Fin 1024), idx = ix2 b h := ⟨idx 0, idx 1, eq_ix2 idx⟩
  exact ref_ctx_apply x0 x1 x2 x3 x4 x5 x6 x7 x8 b h

end

end Cert.Bridge

end
-- ==== Proof.lean ====
/-
  The certificate of an attention kernel in two pallas_calls against its jnp reference.

  Per batch b: x = hidden + pos; q = x·Wqᵀ + bq; v = x·Wvᵀ + bv; k = sqi ⊗ Wk[:,0] + bk (the key projection has fan-in one);
  scores = q·kᵀ scaled; attn = the row-wise softmax of the scores; context = the mean over the 2048 query rows of attn·v.
  The kernel computes q, k, v in a first region (row tiles of 512), and in a second region, per tile of 256 query rows, the
  tile's attention rows against all 2048 keys of the batch, accumulating the column sums of attn·v in a scratch row that is
  zeroed at a batch's first tile and scaled by 1/2048 into the context row at its last.

  At the exact instance the two programs compute one function of the arguments: the kernel's scale 1/32 against the
  reference's division by sqrt 1024, and its 1/2048 against the division by 2048, agree on every extended real; the matrix
  products, the softmax sums and the row maxima are the same sums and maxima over the same index sets; and the accumulator's
  eight partial sums of 256 rows each are the one sum over 2048 rows, addition of extended reals being commutative and
  associative. No finiteness of the inputs is used.

  The frames: each region's body is run once per control case (the second region's body has three: first, middle and last query
  tile), the scratch row carried through the region's invariant, and @main is the two host stretches and the two regions
  composed; the same text proves the frame of the word-level program and of its idealization.
-/
import proofs.«108366_j369367187664_2_alg».proof.Defs
import proofs.«108366_j369367187664_2_alg».proof.Proof.Gen.Kernel
import proofs.«108366_j369367187664_2_alg».proof.Proof.Gen.Kernel.Skeleton
import proofs.«108366_j369367187664_2_alg».proof.Proof.Gen.Kernel.Launch
import proofs.«108366_j369367187664_2_alg».proof.Proof.Gen.Kernel.Regions
import proofs.«108366_j369367187664_2_alg».proof.Proof.Gen.Kernel.Points
import proofs.«108366_j369367187664_2_alg».proof.Proof.Gen.KernelIdeal
import proofs.«108366_j369367187664_2_alg».proof.Proof.Gen.KernelIdeal.Skeleton
import proofs.«108366_j369367187664_2_alg».proof.Proof.Gen.KernelIdeal.Launch
import proofs.«108366_j369367187664_2_alg».proof.Proof.Gen.KernelIdeal.Regions
import proofs.«108366_j369367187664_2_alg».proof.Proof.Gen.KernelIdeal.Points
import proofs.«108366_j369367187664_2_alg».proof.Proof.Gen.ReferenceIdeal
import proofs.«108366_j369367187664_2_alg».proof.Proof.Gen.ReferenceIdeal.Run
import proofs.«108366_j369367187664_2_alg».proof.Proof.Gen.ReferenceIdeal.Read
import proofs.«108366_j369367187664_2_alg».proof.Proof.Gen.Pre_finite_inputs
import proofs.«108366_j369367187664_2_alg».proof.Proof.K.Main
import proofs.«108366_j369367187664_2_alg».proof.Proof.KI.Results
import proofs.«108366_j369367187664_2_alg».proof.Proof.RefAttn
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments as launched. -/
theorem frame_k : Cert.frame_Kernel := fun m ρ _ => Cert.Kernel.Fr.frame m ρ
/-- So does its idealization. -/
theorem frame_ki : Cert.frame_KernelIdeal := fun m ρ _ => Cert.KernelIdeal.Fr.frame m ρ
/-- The reference is straight-line host code: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the context array at the mean of the attended values and the attention array at the softmax of the
    scaled scores, as functions of arguments that agree. -/
theorem algebraic : Cert.algebraic_KernelIdeal_ReferenceIdeal := by
  intro m ρ m' ρ' _ hagree
  refine ⟨fun c => Cert.Bridge.ctxOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Bridge.attnOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨
      (h c _ (Cert.KernelIdeal.Fr.mem_uc Cert.KernelIdeal.main_v12 (by decide))).trans (Cert.KernelIdeal.Fr.ctx_result m c),
      (h c _ (Cert.KernelIdeal.Fr.mem_uc Cert.KernelIdeal.main_v11_0 (by decide))).trans (Cert.KernelIdeal.Fr.attn_result m c),
      (h c _ (Cert.KernelIdeal.Fr.mem_uc Cert.KernelIdeal.main_arg0 (by decide))).trans (Cert.KernelIdeal.Fr.W4_main_arg0 m c),
      (h c _ (Cert.KernelIdeal.Fr.mem_uc Cert.KernelIdeal.main_arg1 (by decide))).trans (Cert.KernelIdeal.Fr.W4_main_arg1 m c),
      (h c _ (Cert.KernelIdeal.Fr.mem_uc Cert.KernelIdeal.main_arg2 (by decide))).trans (Cert.KernelIdeal.Fr.W4_main_arg2 m c),
      (h c _ (Cert.KernelIdeal.Fr.mem_uc Cert.KernelIdeal.main_arg3 (by decide))).trans (Cert.KernelIdeal.Fr.W4_main_arg3 m c),
      (h c _ (Cert.KernelIdeal.Fr.mem_uc Cert.KernelIdeal.main_arg4 (by decide))).trans (Cert.KernelIdeal.Fr.W4_main_arg4 m c),
      (h c _ (Cert.KernelIdeal.Fr.mem_uc Cert.KernelIdeal.main_arg5 (by decide))).trans (Cert.KernelIdeal.Fr.W4_main_arg5 m c),
      (h c _ (Cert.KernelIdeal.Fr.mem_uc Cert.KernelIdeal.main_arg6 (by decide))).trans (Cert.KernelIdeal.Fr.W4_main_arg6 m c),
      (h c _ (Cert.KernelIdeal.Fr.mem_uc Cert.KernelIdeal.main_arg7 (by decide))).trans (Cert.KernelIdeal.Fr.W4_main_arg7 m c),
      (h c _ (Cert.KernelIdeal.Fr.mem_uc Cert.KernelIdeal.main_arg8 (by decide))).trans (Cert.KernelIdeal.Fr.W4_main_arg8 m c)⟩)
      (Cert.KernelIdeal.Fr.run_all m ρ)
  · refine (θ_run Cert.ReferenceIdeal.defs _ _).mono (fun _ h c => ?_) (Cert.ReferenceIdeal.Value.run (F := Ideal) m' ρ')
    obtain ⟨e0, e1, e2, e3, e4, e5, e6, e7, e8⟩ := hagree c
    refine ⟨(h c).1.trans ?_, (h c).2.1.trans ?_, (h c).2.2⟩
    · rw [Cert.ReferenceIdeal.Read.val_main_v37_eq, Cert.Bridge.ref_ctx, e0, e1, e2, e3, e4, e5, e6, e7, e8]
    · rw [Cert.ReferenceIdeal.Read.val_main_v33_eq, Cert.Bridge.ref_attn, e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
